-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x6 : Shape := ⟨2, ![16384, 6]⟩
abbrev S16384x3 : Shape := ⟨2, ![16384, 3]⟩
abbrev S16384x1 : Shape := ⟨2, ![16384, 1]⟩
abbrev S2x4 : Shape := ⟨2, ![2, 4]⟩
abbrev S3x6 : Shape := ⟨2, ![3, 6]⟩
abbrev S4x8 : Shape := ⟨2, ![4, 8]⟩
abbrev S44x256 : Shape := ⟨2, ![44, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S3x6 : S_.BroadcastsInDim S3x6 (![] : Fin 0 → Fin S3x6.rank)
  reducesTo_S3x6_S_d0_1 : S3x6.ReducesTo [0, 1] S_
  bcast_S_S4x8 : S_.BroadcastsInDim S4x8 (![] : Fin 0 → Fin S4x8.rank)
  reducesTo_S4x8_S_d0_1 : S4x8.ReducesTo [0, 1] S_
  bcast_S_S44x256 : S_.BroadcastsInDim S44x256 (![] : Fin 0 → Fin S44x256.rank)
  reducesTo_S44x256_S_d0_1 : S44x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S16384x3 : S_.BroadcastsInDim S16384x3 (![] : Fin 0 → Fin S16384x3.rank)
  reducesTo_S16384x3_S_d0_1 : S16384x3.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part5 {F : FTy → Type} [FloatOps F] (main_arg3 : IVec S16384x1 32) (main_v82 : IVec S_ 1) (main_v84 : IVec S16384x1 1) : IVec S_ 1 :=
  let main_c_33 : IVec S_ 32 := constantI S_ 32 4#32
  let main_v85 : IVec S16384x1 32 := broadcastInDim S16384x1 ![] bcast_S_S16384x1 main_c_33
  let main_v86 : IVec S16384x1 1 := cmpi .slt main_arg3 main_v85
  let main_v87 : IVec S16384x1 1 := andi main_v84 main_v86
  let main_c_34 : IVec S_ 1 := constantI S_ 1 1#1
  let main_v88 : IVec S_ 1 := (fun x v => Host.reduce IntOp.andi x v reducesTo_S16384x1_S_d0_1 h_S_) main_v87 main_c_34
  let main_v89 : IVec S_ 1 := andi main_v82 main_v88
  main_v89

def fn_part4 {F : FTy → Type} [FloatOps F] (main_arg1 : IVec S16384x3 32) (main_arg2 : IVec S16384x3 32) (main_arg3 : IVec S16384x1 32) (main_v63 : IVec S_ 1) (main_v67 : IVec S_ 1) : IVec S_ 1 :=
  let main_v68 : IVec S_ 1 := andi main_v63 main_v67
  let main_c_26 : IVec S_ 32 := constantI S_ 32 0#32
  let main_v69 : IVec S16384x3 32 := broadcastInDim S16384x3 ![] bcast_S_S16384x3 main_c_26
  let main_v70 : IVec S16384x3 1 := cmpi .sge main_arg1 main_v69
  let main_c_27 : IVec S_ 32 := constantI S_ 32 2#32
  let main_v71 : IVec S16384x3 32 := broadcastInDim S16384x3 ![] bcast_S_S16384x3 main_c_27
  let main_v72 : IVec S16384x3 1 := cmpi .slt main_arg1 main_v71
  let main_v73 : IVec S16384x3 1 := andi main_v70 main_v72
  let main_c_28 : IVec S_ 1 := constantI S_ 1 1#1
  let main_v74 : IVec S_ 1 := (fun x v => Host.reduce IntOp.andi x v reducesTo_S16384x3_S_d0_1 h_S_) main_v73 main_c_28
  let main_v75 : IVec S_ 1 := andi main_v68 main_v74
  let main_c_29 : IVec S_ 32 := constantI S_ 32 0#32
  let main_v76 : IVec S16384x3 32 := broadcastInDim S16384x3 ![] bcast_S_S16384x3 main_c_29
  let main_v77 : IVec S16384x3 1 := cmpi .sge main_arg2 main_v76
  let main_c_30 : IVec S_ 32 := constantI S_ 32 3#32
  let main_v78 : IVec S16384x3 32 := broadcastInDim S16384x3 ![] bcast_S_S16384x3 main_c_30
  let main_v79 : IVec S16384x3 1 := cmpi .slt main_arg2 main_v78
  let main_v80 : IVec S16384x3 1 := andi main_v77 main_v79
  let main_c_31 : IVec S_ 1 := constantI S_ 1 1#1
  let main_v81 : IVec S_ 1 := (fun x v => Host.reduce IntOp.andi x v reducesTo_S16384x3_S_d0_1 h_S_) main_v80 main_c_31
  let main_v82 : IVec S_ 1 := andi main_v75 main_v81
  let main_c_32 : IVec S_ 32 := constantI S_ 32 0#32
  let main_v83 : IVec S16384x1 32 := broadcastInDim S16384x1 ![] bcast_S_S16384x1 main_c_32
  let main_v84 : IVec S16384x1 1 := cmpi .sge main_arg3 main_v83
  fn_part5 (F := F) main_arg3 main_v82 main_v84

def fn_part3 {F : FTy → Type} [FloatOps F] (main_arg1 : IVec S16384x3 32) (main_arg2 : IVec S16384x3 32) (main_arg3 : IVec S16384x1 32) (main_arg14 : FVec F S128 .f32) (main_arg15 : FVec F S128x2 .f32) (main_arg16 : FVec F S2 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg15
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg16
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg1 main_arg2 main_arg3 main_v63 main_v67

def fn_part2 {F : FTy → Type} [FloatOps F] (main_arg1 : IVec S16384x3 32) (main_arg2 : IVec S16384x3 32) (main_arg3 : IVec S16384x1 32) (main_arg10 : FVec F S4x8 .f32) (main_arg11 : FVec F S44x256 .f32) (main_arg12 : FVec F S256 .f32) (main_arg13 : FVec F S256x128 .f32) (main_arg14 : FVec F S128 .f32) (main_arg15 : FVec F S128x2 .f32) (main_arg16 : FVec F S2 .f32) (main_v33 : IVec S_ 1) : IVec S_ 1 :=
  let main_v34 : FVec F S4x8 .f32 := Host.absf main_arg10
  let main_cst_12 : FVec F S_ .f32 := constant S_ .f32 0x7F800000#32
  let main_v35 : FVec F S4x8 .f32 := broadcastInDim S4x8 ![] bcast_S_S4x8 main_cst_12
  let main_v36 : IVec S4x8 1 := cmpf .olt main_v34 main_v35
  let main_c_13 : IVec S_ 1 := constantI S_ 1 1#1
  let main_v37 : IVec S_ 1 := (fun x v => Host.reduce IntOp.andi x v reducesTo_S4x8_S_d0_1 h_S_) main_v36 main_c_13
  let main_v38 : IVec S_ 1 := andi main_v33 main_v37
  let main_v39 : FVec F S44x256 .f32 := Host.absf main_arg11
  let main_cst_14 : FVec F S_ .f32 := constant S_ .f32 0x7F800000#32
  let main_v40 : FVec F S44x256 .f32 := broadcastInDim S44x256 ![] bcast_S_S44x256 main_cst_14
  let main_v41 : IVec S44x256 1 := cmpf .olt main_v39 main_v40
  let main_c_15 : IVec S_ 1 := constantI S_ 1 1#1
  let main_v42 : IVec S_ 1 := (fun x v => Host.reduce IntOp.andi x v reducesTo_S44x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg13
  let main_cst_18 : FVec F S_ .f32 := constant S_ .f32 0x7F800000#32
  let main_v50 : FVec F S256x128 .f32 := broadcastInDim S256x128 ![] bcast_S_S256x128 main_cst_18
  fn_part3 (F := F) main_arg1 main_arg2 main_arg3 main_arg14 main_arg15 main_arg16 main_v48 main_v49 main_v50

def fn_part1 {F : FTy → Type} [FloatOps F] (main_arg1 : IVec S16384x3 32) (main_arg2 : IVec S16384x3 32) (main_arg3 : IVec S16384x1 32) (main_arg7 : FVec F S3x6 .f32) (main_arg8 : FVec F S3x6 .f32) (main_arg9 : FVec F S3x6 .f32) (main_arg10 : FVec F S4x8 .f32) (main_arg11 : FVec F S44x256 .f32) (main_arg12 : FVec F S256 .f32) (main_arg13 : FVec F S256x128 .f32) (main_arg14 : FVec F S128 .f32) (main_arg15 : FVec F S128x2 .f32) (main_arg16 : FVec F S2 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S3x6 .f32 := Host.absf main_arg7
  let main_cst_6 : FVec F S_ .f32 := constant S_ .f32 0x7F800000#32
  let main_v20 : FVec F S3x6 .f32 := broadcastInDim S3x6 ![] bcast_S_S3x6 main_cst_6
  let main_v21 : IVec S3x6 1 := cmpf .olt main_v19 main_v20
  let main_c_7 : IVec S_ 1 := constantI S_ 1 1#1
  let main_v22 : IVec S_ 1 := (fun x v => Host.reduce IntOp.andi x v reducesTo_S3x6_S_d0_1 h_S_) main_v21 main_c_7
  let main_v23 : IVec S_ 1 := andi main_v18 main_v22
  let main_v24 : FVec F S3x6 .f32 := Host.absf main_arg8
  let main_cst_8 : FVec F S_ .f32 := constant S_ .f32 0x7F800000#32
  let main_v25 : FVec F S3x6 .f32 := broadcastInDim S3x6 ![] bcast_S_S3x6 main_cst_8
  let main_v26 : IVec S3x6 1 := cmpf .olt main_v24 main_v25
  let main_c_9 : IVec S_ 1 := constantI S_ 1 1#1
  let main_v27 : IVec S_ 1 := (fun x v => Host.reduce IntOp.andi x v reducesTo_S3x6_S_d0_1 h_S_) main_v26 main_c_9
  let main_v28 : IVec S_ 1 := andi main_v23 main_v27
  let main_v29 : FVec F S3x6 .f32 := Host.absf main_arg9
  let main_cst_10 : FVec F S_ .f32 := constant S_ .f32 0x7F800000#32
  let main_v30 : FVec F S3x6 .f32 := broadcastInDim S3x6 ![] bcast_S_S3x6 main_cst_10
  let main_v31 : IVec S3x6 1 := cmpf .olt main_v29 main_v30
  let main_c_11 : IVec S_ 1 := constantI S_ 1 1#1
  let main_v32 : IVec S_ 1 := (fun x v => Host.reduce IntOp.andi x v reducesTo_S3x6_S_d0_1 h_S_) main_v31 main_c_11
  let main_v33 : IVec S_ 1 := andi main_v28 main_v32
  fn_part2 (F := F) main_arg1 main_arg2 main_arg3 main_arg10 main_arg11 main_arg12 main_arg13 main_arg14 main_arg15 main_arg16 main_v33

def fn {F : FTy → Type} [FloatOps F] (main_arg0 : FVec F S16384x6 .f32) (main_arg1 : IVec S16384x3 32) (main_arg2 : IVec S16384x3 32) (main_arg3 : IVec S16384x1 32) (main_arg4 : FVec F S2x4 .f32) (main_arg5 : FVec F S2x4 .f32) (main_arg6 : FVec F S2x4 .f32) (main_arg7 : FVec F S3x6 .f32) (main_arg8 : FVec F S3x6 .f32) (main_arg9 : FVec F S3x6 .f32) (main_arg10 : FVec F S4x8 .f32) (main_arg11 : FVec F S44x256 .f32) (main_arg12 : FVec F S256 .f32) (main_arg13 : FVec F S256x128 .f32) (main_arg14 : FVec F S128 .f32) (main_arg15 : FVec F S128x2 .f32) (main_arg16 : FVec F S2 .f32) : IVec S_ 1 :=
  let main_v0 : FVec F S16384x6 .f32 := Host.absf main_arg0
  let main_cst : FVec F S_ .f32 := constant S_ .f32 0x7F800000#32
  let main_v1 : FVec F S16384x6 .f32 := broadcastInDim S16384x6 ![] bcast_S_S16384x6 main_cst
  let main_v2 : IVec S16384x6 1 := cmpf .olt main_v0 main_v1
  let main_c : IVec S_ 1 := constantI S_ 1 1#1
  let main_v3 : IVec S_ 1 := (fun x v => Host.reduce IntOp.andi x v reducesTo_S16384x6_S_d0_1 h_S_) main_v2 main_c
  let main_v4 : FVec F S2x4 .f32 := Host.absf main_arg4
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S2x4 .f32 := Host.absf main_arg5
  let main_cst_2 : FVec F S_ .f32 := constant S_ .f32 0x7F800000#32
  let main_v10 : FVec F S2x4 .f32 := broadcastInDim S2x4 ![] bcast_S_S2x4 main_cst_2
  let main_v11 : IVec S2x4 1 := cmpf .olt main_v9 main_v10
  let main_c_3 : IVec S_ 1 := constantI S_ 1 1#1
  let main_v12 : IVec S_ 1 := (fun x v => Host.reduce IntOp.andi x v reducesTo_S2x4_S_d0_1 h_S_) main_v11 main_c_3
  let main_v13 : IVec S_ 1 := andi main_v8 main_v12
  let main_v14 : FVec F S2x4 .f32 := Host.absf main_arg6
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg1 main_arg2 main_arg3 main_arg7 main_arg8 main_arg9 main_arg10 main_arg11 main_arg12 main_arg13 main_arg14 main_arg15 main_arg16 main_v13 main_v16
-- ==== Kernel.lean ====
abbrev S16384x6 : Shape := ⟨2, ![16384, 6]⟩
abbrev S16384x3 : Shape := ⟨2, ![16384, 3]⟩
abbrev S16384x1 : Shape := ⟨2, ![16384, 1]⟩
abbrev S2x4 : Shape := ⟨2, ![2, 4]⟩
abbrev S3x6 : Shape := ⟨2, ![3, 6]⟩
abbrev S4x8 : Shape := ⟨2, ![4, 8]⟩
abbrev S44x256 : Shape := ⟨2, ![44, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S18 : Shape := ⟨1, ![18]⟩
abbrev S1x18 : Shape := ⟨2, ![1, 18]⟩
abbrev S16384x18 : Shape := ⟨2, ![16384, 18]⟩
abbrev S1x256 : Shape := ⟨2, ![1, 256]⟩
abbrev S1x128 : Shape := ⟨2, ![1, 128]⟩
abbrev S1x2 : Shape := ⟨2, ![1, 2]⟩
abbrev S16384x2 : Shape := ⟨2, ![16384, 2]⟩
abbrev S4096x18 : Shape := ⟨2, ![4096, 18]⟩
abbrev S4096x2 : Shape := ⟨2, ![4096, 2]⟩
abbrev S4x256 : Shape := ⟨2, ![4, 256]⟩
abbrev S2x256 : Shape := ⟨2, ![2, 256]⟩
abbrev S6x256 : Shape := ⟨2, ![6, 256]⟩
abbrev S3x256 : Shape := ⟨2, ![3, 256]⟩
abbrev S8x256 : Shape := ⟨2, ![8, 256]⟩
abbrev S18x256 : Shape := ⟨2, ![18, 256]⟩
abbrev S4096x256 : Shape := ⟨2, ![4096, 256]⟩
abbrev S4096x128 : Shape := ⟨2, ![4096, 128]⟩

abbrev nBuf : Space → Nat
  | .hbm => 27
  | .vmem => 18
  | .smem => 0
  | _ => 0

abbrev bufTy : (tb : Table) → Fin (tcTables nBuf tb) → BufTy
  | .hbm, ⟨0, _⟩ => ⟨S16384x6, .f32⟩
  | .hbm, ⟨1, _⟩ => ⟨S16384x3, .i32⟩
  | .hbm, ⟨2, _⟩ => ⟨S16384x3, .i32⟩
  | .hbm, ⟨3, _⟩ => ⟨S16384x1, .i32⟩
  | .hbm, ⟨4, _⟩ => ⟨S2x4, .f32⟩
  | .hbm, ⟨5, _⟩ => ⟨S2x4, .f32⟩
  | .hbm, ⟨6, _⟩ => ⟨S2x4, .f32⟩
  | .hbm, ⟨7, _⟩ => ⟨S3x6, .f32⟩
  | .hbm, ⟨8, _⟩ => ⟨S3x6, .f32⟩
  | .hbm, ⟨9, _⟩ => ⟨S3x6, .f32⟩
  | .hbm, ⟨10, _⟩ => ⟨S4x8, .f32⟩
  | .hbm, ⟨11, _⟩ => ⟨S44x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x2, .f32⟩
  | .hbm, ⟨16, _⟩ => ⟨S2, .f32⟩
  | .hbm, ⟨17, _⟩ => ⟨S18, .f32⟩
  | .hbm, ⟨18, _⟩ => ⟨S1x18, .f32⟩
  | .hbm, ⟨19, _⟩ => ⟨S16384x3, .f32⟩
  | .hbm, ⟨20, _⟩ => ⟨S16384x3, .f32⟩
  | .hbm, ⟨21, _⟩ => ⟨S16384x1, .f32⟩
  | .hbm, ⟨22, _⟩ => ⟨S16384x18, .f32⟩
  | .hbm, ⟨23, _⟩ => ⟨S1x256, .f32⟩
  | .hbm, ⟨24, _⟩ => ⟨S1x128, .f32⟩
  | .hbm, ⟨25, _⟩ => ⟨S1x2, .f32⟩
  | .hbm, ⟨26, _⟩ => ⟨S16384x2, .f32⟩
  | .local _ .vmem, ⟨0, _⟩ => ⟨S4096x18, .f32⟩
  | .local _ .vmem, ⟨1, _⟩ => ⟨S4096x18, .f32⟩
  | .local _ .vmem, ⟨2, _⟩ => ⟨S1x18, .f32⟩
  | .local _ .vmem, ⟨3, _⟩ => ⟨S2x4, .f32⟩
  | .local _ .vmem, ⟨4, _⟩ => ⟨S2x4, .f32⟩
  | .local _ .vmem, ⟨5, _⟩ => ⟨S2x4, .f32⟩
  | .local _ .vmem, ⟨6, _⟩ => ⟨S3x6, .f32⟩
  | .local _ .vmem, ⟨7, _⟩ => ⟨S3x6, .f32⟩
  | .local _ .vmem, ⟨8, _⟩ => ⟨S3x6, .f32⟩
  | .local _ .vmem, ⟨9, _⟩ => ⟨S4x8, .f32⟩
  | .local _ .vmem, ⟨10, _⟩ => ⟨S44x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S128x2, .f32⟩
  | .local _ .vmem, ⟨15, _⟩ => ⟨S1x2, .f32⟩
  | .local _ .vmem, ⟨16, _⟩ => ⟨S4096x2, .f32⟩
  | .local _ .vmem, ⟨17, _⟩ => ⟨S4096x2, .f32⟩
  | _, _ => ⟨S16384x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S44x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S18_S1x18_1 : S18.BroadcastsInDim S1x18 (![1] : Fin 1 → Fin S1x18.rank)
  concatenates_S16384x3_S16384x3_S16384x1_S16384x3_S16384x1_S16384x1_S16384x6_S16384x18_d1 : Shape.Concatenates [S16384x3, S16384x3, S16384x1, S16384x3, S16384x1, S16384x1, S16384x6] S16384x18 1
  shapeCasts_S256_S1x256 : S256.ShapeCasts S1x256
  shapeCasts_S128_S1x128 : S128.ShapeCasts S1x128
  shapeCasts_S2_S1x2 : S2.ShapeCasts S1x2
  inb_S44x256_S44x256_0_0 : ∀ a, (![0, 0] : Fin 2 → Nat) a + S44x256.size a ≤ S44x256.size a
  h_S44x256 : 0 < S44x256.numel
  inb_S2x4_S2x4_0_0 : ∀ a, (![0, 0] : Fin 2 → Nat) a + S2x4.size a ≤ S2x4.size a
  h_S2x4 : 0 < S2x4.numel
  slices_S44x256_o0_0_S4x256 : S44x256.Slices ![0, 0] S4x256
  slices_S44x256_o4_0_S4x256 : S44x256.Slices ![4, 0] S4x256
  slices_S44x256_o8_0_S4x256 : S44x256.Slices ![8, 0] S4x256
  inb_S3x6_S3x6_0_0 : ∀ a, (![0, 0] : Fin 2 → Nat) a + S3x6.size a ≤ S3x6.size a
  h_S3x6 : 0 < S3x6.numel
  slices_S44x256_o12_0_S6x256 : S44x256.Slices ![12, 0] S6x256
  slices_S44x256_o18_0_S6x256 : S44x256.Slices ![18, 0] S6x256
  slices_S44x256_o24_0_S6x256 : S44x256.Slices ![24, 0] S6x256
  inb_S4x8_S4x8_0_0 : ∀ a, (![0, 0] : Fin 2 → Nat) a + S4x8.size a ≤ S4x8.size a
  h_S4x8 : 0 < S4x8.numel
  slices_S44x256_o30_0_S8x256 : S44x256.Slices ![30, 0] S8x256
  slices_S2x256_o1_0_S1x256 : S2x256.Slices ![1, 0] S1x256
  slices_S2x256_o0_0_S1x256 : S2x256.Slices ![0, 0] S1x256
  slices_S3x256_o1_0_S1x256 : S3x256.Slices ![1, 0] S1x256
  slices_S3x256_o0_0_S1x256 : S3x256.Slices ![0, 0] S1x256
  slices_S4x256_o1_0_S1x256 : S4x256.Slices ![1, 0] S1x256
  slices_S4x256_o0_0_S1x256 : S4x256.Slices ![0, 0] S1x256
  slices_S3x256_o2_0_S1x256 : S3x256.Slices ![2, 0] S1x256
  slices_S4x256_o2_0_S1x256 : S4x256.Slices ![2, 0] S1x256
  slices_S4x256_o3_0_S1x256 : S4x256.Slices ![3, 0] S1x256
  slices_S44x256_o38_0_S6x256 : S44x256.Slices ![38, 0] S6x256
  concatenates_S1x256_S1x256_S1x256_S1x256_S1x256_S1x256_S1x256_S1x256_S1x256_S1x256_S1x256_S1x256_S6x256_S18x256_d0 : Shape.Concatenates [S1x256, S1x256, S1x256, S1x256, S1x256, S1x256, S1x256, S1x256, S1x256, S1x256, S1x256, S1x256, S6x256] S18x256 0
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x18_S4096x18_0_0 : ∀ a, (![0, 0] : Fin 2 → Nat) a + S4096x18.size a ≤ S4096x18.size a
  h_S4096x18 : 0 < S4096x18.numel
  shapeCasts_S4096x18_S4096x18 : S4096x18.ShapeCasts S4096x18
  iota_S4096x18_d1_w32 : S4096x18.Iotas .tc 32 [1]
  inb_S1x18_S1x18_0_0 : ∀ a, (![0, 0] : Fin 2 → Nat) a + S1x18.size a ≤ S1x18.size a
  h_S1x18 : 0 < S1x18.numel
  broadcasts_S1x18_S4096x18 : S1x18.Broadcasts S4096x18
  natLt_1_32 : 1 < 32
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S2x4_S4x256_S2x256_1_0_0_1_n_n_wf : DotDims.WF S2x4 S4x256 S2x256 [1] [0] [0] [1] [] []
  dot_S3x6_S6x256_S3x256_1_0_0_1_n_n_wf : DotDims.WF S3x6 S6x256 S3x256 [1] [0] [0] [1] [] []
  dot_S4x8_S8x256_S4x256_1_0_0_1_n_n_wf : DotDims.WF S4x8 S8x256 S4x256 [1] [0] [0] [1] [] []
  dot_S4096x18_S18x256_S4096x256_1_0_0_1_n_n_wf : DotDims.WF S4096x18 S18x256 S4096x256 [1] [0] [0] [1] [] []
  dot_S4096x256_S256x128_S4096x128_1_0_0_1_n_n_wf : DotDims.WF S4096x256 S256x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x18.size a ≤ S16384x18.size a
  hwx0_0 : ∀ i : grid0.Coords, EltTy.bits .f32 = 32 ∨ (Rect.block (s := S16384x18) S4096x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x18.size a ≤ S1x18.size a
  hwx0_1 : ∀ i : grid0.Coords, EltTy.bits .f32 = 32 ∨ (Rect.block (s := S1x18) S1x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x4.size a ≤ S2x4.size a
  hwx0_2 : ∀ i : grid0.Coords, EltTy.bits .f32 = 32 ∨ (Rect.block (s := S2x4) S2x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x4.size a ≤ S2x4.size a
  hwx0_3 : ∀ i : grid0.Coords, EltTy.bits .f32 = 32 ∨ (Rect.block (s := S2x4) S2x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x4.size a ≤ S2x4.size a
  hwx0_4 : ∀ i : grid0.Coords, EltTy.bits .f32 = 32 ∨ (Rect.block (s := S2x4) S2x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x6.size a ≤ S3x6.size a
  hwx0_5 : ∀ i : grid0.Coords, EltTy.bits .f32 = 32 ∨ (Rect.block (s := S3x6) S3x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x6.size a ≤ S3x6.size a
  hwx0_6 : ∀ i : grid0.Coords, EltTy.bits .f32 = 32 ∨ (Rect.block (s := S3x6) S3x6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x6.size a ≤ S3x6.size a
  hwx0_7 : ∀ i : grid0.Coords, EltTy.bits .f32 = 32 ∨ (Rect.block (s := S3x6) S3x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x8.size a ≤ S4x8.size a
  hwx0_8 : ∀ i : grid0.Coords, EltTy.bits .f32 = 32 ∨ (Rect.block (s := S4x8) S4x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S44x256.size a ≤ S44x256.size a
  hwx0_9 : ∀ i : grid0.Coords, EltTy.bits .f32 = 32 ∨ (Rect.block (s := S44x256) S44x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x2.size a ≤ S128x2.size a
  hwx0_13 : ∀ i : grid0.Coords, EltTy.bits .f32 = 32 ∨ (Rect.block (s := S128x2) S128x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x2.size a ≤ S16384x2.size a
  hwx0_15 : ∀ i : grid0.Coords, EltTy.bits .f32 = 32 ∨ (Rect.block (s := S16384x2) S4096x2.size (cc0_transform_15 i) (hinb0_15 i)).WholeWords (EltTy.packing .f32)

variable [Facts₀]

def dot_S2x4_S4x256_S2x256_1_0_0_1_n_n : DotDims S2x4 S4x256 S2x256 where
  lhsContracting := [1]
  rhsContracting := [0]
  lhsNonContracting := [0]
  rhsNonContracting := [1]
  lhsBatch := []
  rhsBatch := []
  wf := dot_S2x4_S4x256_S2x256_1_0_0_1_n_n_wf
def dot_S3x6_S6x256_S3x256_1_0_0_1_n_n : DotDims S3x6 S6x256 S3x256 where
  lhsContracting := [1]
  rhsContracting := [0]
  lhsNonContracting := [0]
  rhsNonContracting := [1]
  lhsBatch := []
  rhsBatch := []
  wf := dot_S3x6_S6x256_S3x256_1_0_0_1_n_n_wf
def dot_S4x8_S8x256_S4x256_1_0_0_1_n_n : DotDims S4x8 S8x256 S4x256 where
  lhsContracting := [1]
  rhsContracting := [0]
  lhsNonContracting := [0]
  rhsNonContracting := [1]
  lhsBatch := []
  rhsBatch := []
  wf := dot_S4x8_S8x256_S4x256_1_0_0_1_n_n_wf
def dot_S4096x18_S18x256_S4096x256_1_0_0_1_n_n : DotDims S4096x18 S18x256 S4096x256 where
  lhsContracting := [1]
  rhsContracting := [0]
  lhsNonContracting := [0]
  rhsNonContracting := [1]
  lhsBatch := []
  rhsBatch := []
  wf := dot_S4096x18_S18x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_v4) S4096x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S3x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S3x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S4x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S44x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S128x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S4096x2.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x6 : Shape := ⟨2, ![16384, 6]⟩
abbrev S16384x3 : Shape := ⟨2, ![16384, 3]⟩
abbrev S16384x1 : Shape := ⟨2, ![16384, 1]⟩
abbrev S2x4 : Shape := ⟨2, ![2, 4]⟩
abbrev S3x6 : Shape := ⟨2, ![3, 6]⟩
abbrev S4x8 : Shape := ⟨2, ![4, 8]⟩
abbrev S44x256 : Shape := ⟨2, ![44, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S16384 : Shape := ⟨1, ![16384]⟩
abbrev S_ : Shape := ⟨0, ![]⟩
abbrev S1 : Shape := ⟨1, ![1]⟩
abbrev S1x1 : Shape := ⟨2, ![1, 1]⟩
abbrev S16384x4 : Shape := ⟨2, ![16384, 4]⟩
abbrev S16384x12 : Shape := ⟨2, ![16384, 12]⟩
abbrev S16384x18 : Shape := ⟨2, ![16384, 18]⟩
abbrev S16384x8 : Shape := ⟨2, ![16384, 8]⟩
abbrev S16384x38 : Shape := ⟨2, ![16384, 38]⟩
abbrev S16384x44 : Shape := ⟨2, ![16384, 44]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x2 : Shape := ⟨2, ![16384, 2]⟩
abbrev S1x2 : Shape := ⟨2, ![1, 2]⟩

abbrev nBuf : Space → Nat
  | .hbm => 217
  | .vmem => 0
  | .smem => 0
  | _ => 0

abbrev hbmTy0_0 (i : Nat) : BufTy := match i % 128 with
  | 0 => ⟨S16384x6, .f32⟩
  | 1 => ⟨S16384x3, .i32⟩
  | 2 => ⟨S16384x3, .i32⟩
  | 3 => ⟨S16384x1, .i32⟩
  | 4 => ⟨S2x4, .f32⟩
  | 5 => ⟨S2x4, .f32⟩
  | 6 => ⟨S2x4, .f32⟩
  | 7 => ⟨S3x6, .f32⟩
  | 8 => ⟨S3x6, .f32⟩
  | 9 => ⟨S3x6, .f32⟩
  | 10 => ⟨S4x8, .f32⟩
  | 11 => ⟨S44x256, .f32⟩
  | 12 => ⟨S256, .f32⟩
  | 13 => ⟨S256x128, .f32⟩
  | 14 => ⟨S128, .f32⟩
  | 15 => ⟨S128x2, .f32⟩
  | 16 => ⟨S2, .f32⟩
  | 17 => ⟨S16384x1, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x4, .f32⟩
  | 38 => ⟨S16384x4, .i1⟩
  | 39 => ⟨S_, .f32⟩
  | 40 => ⟨S16384x4, .f32⟩
  | 41 => ⟨S16384x4, .f32⟩
  | 42 => ⟨S16384x1, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384x4, .f32⟩
  | 63 => ⟨S16384x4, .i1⟩
  | 64 => ⟨S_, .f32⟩
  | 65 => ⟨S16384x4, .f32⟩
  | 66 => ⟨S16384x4, .f32⟩
  | 67 => ⟨S16384x1, .i32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x4, .f32⟩
  | 88 => ⟨S16384x4, .i1⟩
  | 89 => ⟨S_, .f32⟩
  | 90 => ⟨S16384x4, .f32⟩
  | 91 => ⟨S16384x4, .f32⟩
  | 92 => ⟨S16384x12, .f32⟩
  | 93 => ⟨S16384x1, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x6, .f32⟩
  | 114 => ⟨S16384x6, .i1⟩
  | 115 => ⟨S_, .f32⟩
  | 116 => ⟨S16384x6, .f32⟩
  | 117 => ⟨S16384x6, .f32⟩
  | 118 => ⟨S16384x1, .i32⟩
  | 119 => ⟨S16384, .i32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S16384x6, .f32⟩

abbrev hbmTy0_1 (i : Nat) : BufTy := match i % 128 with
  | 0 => ⟨S1, .i32⟩
  | 1 => ⟨S_, .i32⟩
  | 2 => ⟨S16384x1, .i32⟩
  | 3 => ⟨S16384x1, .i1⟩
  | 4 => ⟨S1x1, .i32⟩
  | 5 => ⟨S16384x1, .i32⟩
  | 6 => ⟨S16384x1, .i1⟩
  | 7 => ⟨S16384x1, .i1⟩
  | 8 => ⟨S_, .i1⟩
  | 9 => ⟨S16384, .i1⟩
  | 10 => ⟨S16384x6, .f32⟩
  | 11 => ⟨S16384x6, .i1⟩
  | 12 => ⟨S_, .f32⟩
  | 13 => ⟨S16384x6, .f32⟩
  | 14 => ⟨S16384x6, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x6, .f32⟩
  | 36 => ⟨S16384x6, .i1⟩
  | 37 => ⟨S_, .f32⟩
  | 38 => ⟨S16384x6, .f32⟩
  | 39 => ⟨S16384x6, .f32⟩
  | 40 => ⟨S16384x18, .f32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x8, .f32⟩
  | 61 => ⟨S16384x8, .i1⟩
  | 62 => ⟨S_, .f32⟩
  | 63 => ⟨S16384x8, .f32⟩
  | 64 => ⟨S16384x8, .f32⟩
  | 65 => ⟨S16384x38, .f32⟩
  | 66 => ⟨S16384x44, .f32⟩
  | 67 => ⟨S16384x256, .f32⟩
  | 68 => ⟨S1x256, .f32⟩
  | 69 => ⟨S16384x256, .f32⟩
  | 70 => ⟨S16384x256, .f32⟩
  | 71 => ⟨S16384x256, .f32⟩
  | 72 => ⟨S16384x128, .f32⟩
  | 73 => ⟨S1x128, .f32⟩
  | 74 => ⟨S16384x128, .f32⟩
  | 75 => ⟨S16384x128, .f32⟩
  | 76 => ⟨S16384x128, .f32⟩
  | 77 => ⟨S16384x2, .f32⟩
  | 78 => ⟨S1x2, .f32⟩
  | 79 => ⟨S16384x2, .f32⟩
  | 80 => ⟨S16384x2, .f32⟩
  | 81 => ⟨S16384x2, .f32⟩
  | 82 => ⟨S16384x2, .f32⟩
  | 83 => ⟨S_, .f32⟩
  | 84 => ⟨S16384x2, .f32⟩
  | 85 => ⟨S16384x2, .f32⟩
  | 86 => ⟨S_, .f32⟩
  | 87 => ⟨S16384x2, .f32⟩
  | 88 => ⟨S16384x2, .f32⟩
  | _ => ⟨S16384x6, .f32⟩

abbrev hbmTy (i : Nat) : BufTy := match i / 128 with
  | 0 => hbmTy0_0 i
  | 1 => hbmTy0_1 i
  | _ => ⟨S16384x6, .f32⟩

abbrev bufTy : (tb : Table) → Fin (tcTables nBuf tb) → BufTy
  | .hbm, ⟨i, _⟩ => hbmTy i
  | _, _ => ⟨S16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v8 : Ref sig .tc := ⟨.hbm, 91, rfl⟩
abbrev main_v9 : Ref sig .tc := ⟨.hbm, 92, rfl⟩
abbrev main_v10 : Ref sig .tc := ⟨.hbm, 93, rfl⟩
abbrev main_v11 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_cst : Ref sig .tc := ⟨.hbm, 140, rfl⟩
abbrev main_call4_v15 : Ref sig .tc := ⟨.hbm, 141, rfl⟩
abbrev main_v15 : Ref sig .tc := ⟨.hbm, 142, rfl⟩
abbrev main_v16 : Ref sig .tc := ⟨.hbm, 143, rfl⟩
abbrev main_v17 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_v14 : Ref sig .tc := ⟨.hbm, 164, rfl⟩
abbrev main_call5_cst : Ref sig .tc := ⟨.hbm, 165, rfl⟩
abbrev main_call5_v15 : Ref sig .tc := ⟨.hbm, 166, rfl⟩
abbrev main_v18 : Ref sig .tc := ⟨.hbm, 167, rfl⟩
abbrev main_v19 : Ref sig .tc := ⟨.hbm, 168, rfl⟩
abbrev main_v20 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_v14 : Ref sig .tc := ⟨.hbm, 189, rfl⟩
abbrev main_call6_cst : Ref sig .tc := ⟨.hbm, 190, rfl⟩
abbrev main_call6_v15 : Ref sig .tc := ⟨.hbm, 191, rfl⟩
abbrev main_v21 : Ref sig .tc := ⟨.hbm, 192, rfl⟩
abbrev main_v22 : Ref sig .tc := ⟨.hbm, 193, rfl⟩
abbrev main_v23 : Ref sig .tc := ⟨.hbm, 194, rfl⟩
abbrev main_v24 : Ref sig .tc := ⟨.hbm, 195, rfl⟩
abbrev main_v25 : Ref sig .tc := ⟨.hbm, 196, rfl⟩
abbrev main_v26 : Ref sig .tc := ⟨.hbm, 197, rfl⟩
abbrev main_v27 : Ref sig .tc := ⟨.hbm, 198, rfl⟩
abbrev main_v28 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_v32 : Ref sig .tc := ⟨.hbm, 203, rfl⟩
abbrev main_v33 : Ref sig .tc := ⟨.hbm, 204, rfl⟩
abbrev main_v34 : Ref sig .tc := ⟨.hbm, 205, rfl⟩
abbrev main_v35 : Ref sig .tc := ⟨.hbm, 206, rfl⟩
abbrev main_v36 : Ref sig .tc := ⟨.hbm, 207, rfl⟩
abbrev main_v37 : Ref sig .tc := ⟨.hbm, 208, rfl⟩
abbrev main_v38 : Ref sig .tc := ⟨.hbm, 209, rfl⟩
abbrev main_v39 : Ref sig .tc := ⟨.hbm, 210, rfl⟩
abbrev main_cst : Ref sig .tc := ⟨.hbm, 211, rfl⟩
abbrev main_v40 : Ref sig .tc := ⟨.hbm, 212, rfl⟩
abbrev main_v41 : Ref sig .tc := ⟨.hbm, 213, rfl⟩
abbrev main_cst_0 : Ref sig .tc := ⟨.hbm, 214, rfl⟩
abbrev main_v42 : Ref sig .tc := ⟨.hbm, 215, rfl⟩
abbrev main_v43 : Ref sig .tc := ⟨.hbm, 216, rfl⟩

abbrev nD : Nat := 1
abbrev τ : Topo := Topo.v7x

variable {F : FTy → Type} [FloatOps F]

class Facts₀ : Prop where
  slices_S16384x3_S16384x1_0_0 : S16384x3.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x4_0 : S16384.BroadcastsInDim S16384x4 (![0] : Fin 1 → Fin S16384x4.rank)
  bcast_S_S16384x4 : S_.BroadcastsInDim S16384x4 (![] : Fin 0 → Fin S16384x4.rank)
  slices_S16384x3_S16384x1_0_1 : S16384x3.Slices ![0, 1] S16384x1
  slices_S16384x3_S16384x1_0_2 : S16384x3.Slices ![0, 2] S16384x1
  concatenates_S16384x4_S16384x4_S16384x4_S16384x12_d1 : Shape.Concatenates [S16384x4, S16384x4, S16384x4] S16384x12 1
  bcast_S16384_S16384x6_0 : S16384.BroadcastsInDim S16384x6 (![0] : Fin 1 → Fin S16384x6.rank)
  bcast_S_S16384x6 : S_.BroadcastsInDim S16384x6 (![] : Fin 0 → Fin S16384x6.rank)
  concatenates_S16384x6_S16384x6_S16384x6_S16384x18_d1 : Shape.Concatenates [S16384x6, S16384x6, S16384x6] S16384x18 1
  bcast_S16384_S16384x8_0 : S16384.BroadcastsInDim S16384x8 (![0] : Fin 1 → Fin S16384x8.rank)
  bcast_S_S16384x8 : S_.BroadcastsInDim S16384x8 (![] : Fin 0 → Fin S16384x8.rank)
  concatenates_S16384x12_S16384x18_S16384x8_S16384x38_d1 : Shape.Concatenates [S16384x12, S16384x18, S16384x8] S16384x38 1
  concatenates_S16384x38_S16384x6_S16384x44_d1 : Shape.Concatenates [S16384x38, S16384x6] S16384x44 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  gather_S2x4_S16384x1_S16384x4_1_0_n_n_0_1_14_wf : GatherDims.WF S2x4 S16384x1 S16384x4 [1] [0] [] [0] [] 1 ![1, 4]
  gather_S3x6_S16384x1_S16384x6_1_0_n_n_0_1_16_wf : GatherDims.WF S3x6 S16384x1 S16384x6 [1] [0] [] [0] [] 1 ![1, 6]
  gather_S4x8_S16384x1_S16384x8_1_0_n_n_0_1_18_wf : GatherDims.WF S4x8 S16384x1 S16384x8 [1] [0] [] [0] [] 1 ![1, 8]
  dot_S16384x44_S44x256_S16384x256_1_0_0_1_n_n_wf : DotDims.WF S16384x44 S44x256 S16384x256 [1] [0] [0] [1] [] []
  dot_S16384x256_S256x128_S16384x128_1_0_0_1_n_n_wf : DotDims.WF S16384x256 S256x128 S16384x128 [1] [0] [0] [1] [] []
  dot_S16384x128_S128x2_S16384x2_1_0_0_1_n_n_wf : DotDims.WF S16384x128 S128x2 S16384x2 [1] [0] [0] [1] [] []

variable [Facts₀]

def gather_S2x4_S16384x1_S16384x4_1_0_n_n_0_1_14 : GatherDims S2x4 S16384x1 S16384x4 where
  offsetDims := [1]
  collapsedSliceDims := [0]
  operandBatchingDims := []
  startIndicesBatchingDims := []
  startIndexMap := [0]
  indexVectorDim := 1
  sliceSizes := ![1, 4]
  wf := gather_S2x4_S16384x1_S16384x4_1_0_n_n_0_1_14_wf
def gather_S3x6_S16384x1_S16384x6_1_0_n_n_0_1_16 : GatherDims S3x6 S16384x1 S16384x6 where
  offsetDims := [1]
  collapsedSliceDims := [0]
  operandBatchingDims := []
  startIndicesBatchingDims := []
  startIndexMap := [0]
  indexVectorDim := 1
  sliceSizes := ![1, 6]
  wf := gather_S3x6_S16384x1_S16384x6_1_0_n_n_0_1_16_wf
def gather_S4x8_S16384x1_S16384x8_1_0_n_n_0_1_18 : GatherDims S4x8 S16384x1 S16384x8 where
  offsetDims := [1]
  collapsedSliceDims := [0]
  operandBatchingDims := []
  startIndicesBatchingDims := []
  startIndexMap := [0]
  indexVectorDim := 1
  sliceSizes := ![1, 8]
  wf := gather_S4x8_S16384x1_S16384x8_1_0_n_n_0_1_18_wf
def dot_S16384x44_S44x256_S16384x256_1_0_0_1_n_n : DotDims S16384x44 S44x256 S16384x256 where
  lhsContracting := [1]
  rhsContracting := [0]
  lhsNonContracting := [0]
  rhsNonContracting := [1]
  lhsBatch := []
  rhsBatch := []
  wf := dot_S16384x44_S44x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

class Facts : Prop extends Facts₀ where

variable [Facts]
-- ==== Proof.KVIdeal.lean ====
/-
  The contents of a core's buffers when the kernel region is entered: the launch memory after the host operations
  that precede the region (the threshold row, the integer columns converted to reals, the packed 18-column array,
  the three biases as rows).
-/
import proofs.«154124_g78426102825261_cont_9to1_m_135_12_alg».proof.Proof.Gen.KernelIdeal.Launch
import Idealize.ShloMosaic.Lib.StableHlo.Run

noncomputable section

namespace Cert.KernelIdeal.Hand

open Idealize.ShloMosaic Idealize.ShloMosaic.TcCoe Idealize.SL.Sem Cert.KernelIdeal Cert.KernelIdeal.Gen

variable {F : FTy → Type} [FloatOps F]

/-- Core `c`'s buffer `b` at the region's entry. -/
abbrev V (m : (ℓ : Loc nD τ sig) → Buf (Elt F) ℓ) (c : Dev nD) (b : Ref sig .tc) : Buf (Elt F) ((c : Thread nD τ).loc b) :=
  StableHlo.after hostOps0 (fun b => m (c, b)) b

end Cert.KernelIdeal.Hand

end
-- ==== Proof.KOutIdeal.lean ====
/-
  The value the kernel body stores, as one term of the fifteen input blocks: the seven table-times-band products,
  the rows of their successive differences stacked over six rows of W1, the bias plus every product's first row,
  the thermometer row of each packed row, and the three layers.
-/
import proofs.«154124_g78426102825261_cont_9to1_m_135_12_alg».proof.Proof.Gen.KernelIdeal.Skeleton

noncomputable section

namespace Cert.KernelIdeal.Hand

open Idealize.ShloMosaic Cert.KernelIdeal Cert.KernelIdeal.Gen

variable {F : FTy → Type} [FloatOps F]

/-- The stored block from the input blocks: x0 the packed rows, x1 the thresholds, x2 … x8 the seven tables, x9 W1,
    x10 b1 as a row, x11 W2, x12 b2 as a row, x13 W3, x14 b3 as a row. -/
def kOut (x0 : Vec F S4096x18 .f32) (x1 : Vec F S1x18 .f32) (x2 x3 x4 : Vec F S2x4 .f32) (x5 x6 x7 : Vec F S3x6 .f32)
    (x8 : Vec F S4x8 .f32) (x9 : Vec F S44x256 .f32) (x10 : Vec F S1x256 .f32) (x11 : Vec F S256x128 .f32)
    (x12 : Vec F S1x128 .f32) (x13 : Vec F S128x2 .f32) (x14 : Vec F S1x2 .f32) : FVec F S4096x2 .f32 :=
  k0_pay1
    (k0_pay15 (k0_pay2 x9 x2) (k0_pay3 x9 x3) (k0_pay4 x9 x4) (k0_pay5 x9 x5) (k0_pay6 x9 x6) (k0_pay7 x9 x7) (k0_pay8 x9 x8) x10)
    (k0_pay16 x9 (k0_pay5 x9 x5) (k0_pay6 x9 x6) (k0_pay7 x9 x7) (k0_pay8 x9 x8)
      (k0_pay9 x9 x2) (k0_pay10 x9 x3) (k0_pay11 x9 x4) (k0_pay12 x9 x5) (k0_pay13 x9 x6) (k0_pay14 x9 x6) x0 x1)
    x11 x12 x13 x14

end Cert.KernelIdeal.Hand

end
-- ==== Proof.KFrameDefsIdeal.lean ====
/-
  The kernel's launch: the host operations that precede the region leave every argument array as launched;
  each window's block at a grid point is read off its array as the region finds it; the body leaves the fifteen input
  buffers as they were and the output buffer at the one value it stores; and the final memory of a run to the
  pipeline library's frame post has every argument array unchanged.
-/
import proofs.«154124_g78426102825261_cont_9to1_m_135_12_alg».proof.Proof.KVIdeal
import proofs.«154124_g78426102825261_cont_9to1_m_135_12_alg».proof.Proof.KOutIdeal
import proofs.«154124_g78426102825261_cont_9to1_m_135_12_alg».proof.Proof.Gen.KernelIdeal.Launch
import proofs.«154124_g78426102825261_cont_9to1_m_135_12_alg».proof.Proof.Gen.KernelIdeal.Skeleton
import proofs.«154124_g78426102825261_cont_9to1_m_135_12_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates anything. -/
theorem hostOps0_fresh : (hostOps0 : List (HloOp τ sig (Elt F))).Forall fun op => op.fresh = ∅ := by
  simp only [List.Forall]; repeat' constructor

/-- The program is its nine host operations and then the region; the region finds the buffers as those operations
    leave them. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data over
    the region-entry arrays whose body leaves that block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data over
    the region-entry arrays whose body leaves that block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data over
    the region-entry arrays whose body leaves that block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data over
    the region-entry arrays whose body leaves that block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data over
    the region-entry arrays whose body leaves that block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data over
    the region-entry arrays whose body leaves that block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data over
    the region-entry arrays whose body leaves that block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not, for any proof data over
    the region-entry arrays whose body leaves that block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not, for any proof data over
    the region-entry arrays whose body leaves that block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not, for any proof data over
    the region-entry arrays whose body leaves that block in place. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not, for any proof data over
    the region-entry arrays whose body leaves that block in place. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not, for any proof data over
    the region-entry arrays whose body leaves that block in place. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not, for any proof data over
    the region-entry arrays whose body leaves that block in place. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not, for any proof data over
    the region-entry arrays whose body leaves that block in place. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not, for any proof data over
    the region-entry arrays whose body leaves that block in place. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from a run to the frame post -/

/-- For any proof data over the region-entry arrays, a run to the pipeline library's frame post leaves every argument
    array as launched: an array a window stages is an input's, which the pipeline only reads; an array no window
    stages is kept by the post's second clause; and the host operations wrote neither. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).2 main_arg12 (Pipeline.mem_restRefs_of main_arg12 (by decide) (by decide))).trans (V_main_arg12 m c),
      ((h c).1 11).trans (((dats 0 c).arrAt_in 11 rfl _).trans ((hA c 11).trans (V_main_arg13 m c))),
      ((h c).2 main_arg14 (Pipeline.mem_restRefs_of main_arg14 (by decide) (by decide))).trans (V_main_arg14 m c),
      ((h c).1 13).trans (((dats 0 c).arrAt_in 13 rfl _).trans ((hA c 13).trans (V_main_arg15 m c))),
      ((h c).2 main_arg16 (Pipeline.mem_restRefs_of main_arg16 (by decide) (by decide))).trans (V_main_arg16 m c)⟩) h

/-! ## The body's accesses: each buffer whole, once -/

/-- The whole of a 4096x18 buffer. -/
abbrev whole_S4096x18 : Rect S4096x18 := Rect.unit (s := S4096x18) ![0, 0] S4096x18.size inb_S4096x18_S4096x18_0_0
/-- The whole of a 1x18 buffer. -/
abbrev whole_S1x18 : Rect S1x18 := Rect.unit (s := S1x18) ![0, 0] S1x18.size inb_S1x18_S1x18_0_0
/-- The whole of a 2x4 buffer. -/
abbrev whole_S2x4 : Rect S2x4 := Rect.unit (s := S2x4) ![0, 0] S2x4.size inb_S2x4_S2x4_0_0
/-- The whole of a 3x6 buffer. -/
abbrev whole_S3x6 : Rect S3x6 := Rect.unit (s := S3x6) ![0, 0] S3x6.size inb_S3x6_S3x6_0_0
/-- The whole of a 4x8 buffer. -/
abbrev whole_S4x8 : Rect S4x8 := Rect.unit (s := S4x8) ![0, 0] S4x8.size inb_S4x8_S4x8_0_0
/-- The whole of a 44x256 buffer. -/
abbrev whole_S44x256 : Rect S44x256 := Rect.unit (s := S44x256) ![0, 0] S44x256.size inb_S44x256_S44x256_0_0
/-- The whole of a 1x256 buffer. -/
abbrev whole_S1x256 : Rect S1x256 := Rect.unit (s := S1x256) ![0, 0] S1x256.size inb_S1x256_S1x256_0_0
/-- The whole of a 256x128 buffer. -/
abbrev whole_S256x128 : Rect S256x128 := Rect.unit (s := S256x128) ![0, 0] S256x128.size inb_S256x128_S256x128_0_0
/-- The whole of a 1x128 buffer. -/
abbrev whole_S1x128 : Rect S1x128 := Rect.unit (s := S1x128) ![0, 0] S1x128.size inb_S1x128_S1x128_0_0
/-- The whole of a 128x2 buffer. -/
abbrev whole_S128x2 : Rect S128x2 := Rect.unit (s := S128x2) ![0, 0] S128x2.size inb_S128x2_S128x2_0_0
/-- The whole of a 1x2 buffer. -/
abbrev whole_S1x2 : Rect S1x2 := Rect.unit (s := S1x2) ![0, 0] S1x2.size inb_S1x2_S1x2_0_0
/-- The whole of a 4096x2 buffer. -/
abbrev whole_S4096x2 : Rect S4096x2 := Rect.unit (s := S4096x2) ![0, 0] S4096x2.size inb_S4096x2_S4096x2_0_0

/-! ## What the body leaves in the output window's buffer -/

/-- The output buffer after the body, from the fifteen input blocks: its one store, of the whole buffer, of the
    value `kOut` computes from what the whole-buffer loads read. -/
def outBlock (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) : Vec F S4096x2 .f32 :=
  View.canon [⟨whole_S4096x2, kOut (View.ld x0 whole_S4096x18) (View.ld x1 whole_S1x18) (View.ld x2 whole_S2x4) (View.ld x3 whole_S2x4) (View.ld x4 whole_S2x4) (View.ld x5 whole_S3x6) (View.ld x6 whole_S3x6) (View.ld x7 whole_S3x6) (View.ld x8 whole_S4x8) (View.ld x9 whole_S44x256) (View.ld x10 whole_S1x256) (View.ld x11 whole_S256x128) (View.ld x12 whole_S1x128) (View.ld x13 whole_S128x2) (View.ld x14 whole_S1x2)⟩]

/-- The one store covers the buffer. -/
theorem outBlock_cover (p0 : Vec F S4096x2 .f32) (y : S4096x2.Idx) :
    ∃ pc ∈ ([⟨whole_S4096x2, p0⟩] : List (View.Piece (Elt F) S4096x2 .f32)), y ∈ pc.1.set :=
  ⟨_, List.mem_singleton_self _, View.mem_set_unit_zero (by funext a; fin_cases a <;> rfl) inb_S4096x2_S4096x2_0_0 y⟩

/-- A whole-buffer load reads the contents and a whole-buffer store leaves its payload: the output block is `kOut` of
    the input blocks. -/
theorem outBlock_eq (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) : outBlock x0 x1 x2 x3 x4 x5 x6 x7 x8 x9 x10 x11 x12 x13 x14 = kOut x0 x1 x2 x3 x4 x5 x6 x7 x8 x9 x10 x11 x12 x13 x14 := by
  have hz : (![0, 0] : Fin 2 → Nat) = fun _ => 0 := by funext a; fin_cases a <;> rfl
  unfold outBlock
  rw [View.canon_unit_zero hz]
  simp only [View.ld_unit_zero (S := S4096x18) hz, View.ld_unit_zero (S := S1x18) hz, View.ld_unit_zero (S := S2x4) hz, View.ld_unit_zero (S := S3x6) hz, View.ld_unit_zero (S := S4x8) hz, View.ld_unit_zero (S := S44x256) hz, View.ld_unit_zero (S := S1x256) hz, View.ld_unit_zero (S := S256x128) hz, View.ld_unit_zero (S := S1x128) hz, View.ld_unit_zero (S := S128x2) hz, View.ld_unit_zero (S := S1x2) hz]

/-! ## The pipeline's proof data -/

/-- The proof data of the one pipeline on core `c`: the arrays as the region finds them; after the body at point `t`
    each input's buffer at its block and the output's at `outBlock` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

end Cert.KernelIdeal.Hand

end
-- ==== Proof.KFrameRunIdeal.lean ====
/-
  The kernel's run: the body at a grid point, on the window buffers at their blocks, loads each input whole,
  computes, and stores the output buffer whole, leaving the inputs as they were; hence the pipeline's body obligation,
  the run of the whole program to the pipeline library's frame post, and the frame: every argument array ends as
  launched.
-/
import proofs.«154124_g78426102825261_cont_9to1_m_135_12_alg».proof.Proof.KFrameDefsIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole buffers, the fifteen inputs' at contents `x0 … x14` and the output's at anything, runs to the
    continuation holding the inputs' as they were and the output's at `outBlock x0 … x14`: fifteen whole-buffer loads
    (and one of the output buffer, unused), then one whole-buffer store of the computed value. -/
theorem sound_kernel (c : Dev nD) (E : Set ℕ) (i : grid0.Coords) (arg1 : Memref sig .tc .vmem S4096x18 .f32) (harg1 : arg1.IsWhole) (arg2 : Memref sig .tc .vmem S1x18 .f32) (harg2 : arg2.IsWhole) (arg3 : Memref sig .tc .vmem S2x4 .f32) (harg3 : arg3.IsWhole) (arg4 : Memref sig .tc .vmem S2x4 .f32) (harg4 : arg4.IsWhole) (arg5 : Memref sig .tc .vmem S2x4 .f32) (harg5 : arg5.IsWhole) (arg6 : Memref sig .tc .vmem S3x6 .f32) (harg6 : arg6.IsWhole) (arg7 : Memref sig .tc .vmem S3x6 .f32) (harg7 : arg7.IsWhole) (arg8 : Memref sig .tc .vmem S3x6 .f32) (harg8 : arg8.IsWhole) (arg9 : Memref sig .tc .vmem S4x8 .f32) (harg9 : arg9.IsWhole) (arg10 : Memref sig .tc .vmem S44x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S128x2 .f32) (harg14 : arg14.IsWhole) (arg15 : Memref sig .tc .vmem S1x2 .f32) (harg15 : arg15.IsWhole) (arg16 : Memref sig .tc .vmem S4096x2 .f32) (harg16 : arg16.IsWhole)
    (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlock x0 x1 x2 x3 x4 x5 x6 x7 x8 x9 x10 x11 x12 x13 x14)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (outBlock_cover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' buffers hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The same run with the result array named: it ends at what the pipeline library computes from the proof data for
    the output window after the last point, and every argument array ends as launched. -/
theorem run_value : θ_run defs (onTc (τ := τ) (main (F := F))) ⟨m, fun _ => 0, ρ⟩ (fun r => ∀ c : Dev nD,
      r.2.mem ((c.tc : Thread nD τ).loc main_v8) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1 15,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans ((((dats m) 0 c).arrAt_in 2 rfl _).trans ((A_eq m c 2).trans (V_main_arg4 m c))),
      ((h c).1 3).trans ((((dats m) 0 c).arrAt_in 3 rfl _).trans ((A_eq m c 3).trans (V_main_arg5 m c))),
      ((h c).1 4).trans ((((dats m) 0 c).arrAt_in 4 rfl _).trans ((A_eq m c 4).trans (V_main_arg6 m c))),
      ((h c).1 5).trans ((((dats m) 0 c).arrAt_in 5 rfl _).trans ((A_eq m c 5).trans (V_main_arg7 m c))),
      ((h c).1 6).trans ((((dats m) 0 c).arrAt_in 6 rfl _).trans ((A_eq m c 6).trans (V_main_arg8 m c))),
      ((h c).1 7).trans ((((dats m) 0 c).arrAt_in 7 rfl _).trans ((A_eq m c 7).trans (V_main_arg9 m c))),
      ((h c).1 8).trans ((((dats m) 0 c).arrAt_in 8 rfl _).trans ((A_eq m c 8).trans (V_main_arg10 m c))),
      ((h c).1 9).trans ((((dats m) 0 c).arrAt_in 9 rfl _).trans ((A_eq m c 9).trans (V_main_arg11 m c))),
      ((h c).2 main_arg12 (Pipeline.mem_restRefs_of main_arg12 (by decide) (by decide))).trans (V_main_arg12 m c),
      ((h c).1 11).trans ((((dats m) 0 c).arrAt_in 11 rfl _).trans ((A_eq m c 11).trans (V_main_arg13 m c))),
      ((h c).2 main_arg14 (Pipeline.mem_restRefs_of main_arg14 (by decide) (by decide))).trans (V_main_arg14 m c),
      ((h c).1 13).trans ((((dats m) 0 c).arrAt_in 13 rfl _).trans ((A_eq m c 13).trans (V_main_arg15 m c))),
      ((h c).2 main_arg16 (Pipeline.mem_restRefs_of main_arg16 (by decide) (by decide))).trans (V_main_arg16 m c)⟩) (run_main m ρ)

end Cert.KernelIdeal.Hand

end
-- ==== Proof.KVBits.lean ====
/-
  The contents of a core's buffers when the kernel region is entered: the launch memory after the host operations
  that precede the region (the threshold row, the integer columns converted to reals, the packed 18-column array,
  the three biases as rows).
-/
import proofs.«154124_g78426102825261_cont_9to1_m_135_12_alg».proof.Proof.Gen.Kernel.Launch
import Idealize.ShloMosaic.Lib.StableHlo.Run

noncomputable section

namespace Cert.Kernel.Hand

open Idealize.ShloMosaic Idealize.ShloMosaic.TcCoe Idealize.SL.Sem Cert.Kernel Cert.Kernel.Gen

variable {F : FTy → Type} [FloatOps F]

/-- Core `c`'s buffer `b` at the region's entry. -/
abbrev V (m : (ℓ : Loc nD τ sig) → Buf (Elt F) ℓ) (c : Dev nD) (b : Ref sig .tc) : Buf (Elt F) ((c : Thread nD τ).loc b) :=
  StableHlo.after hostOps0 (fun b => m (c, b)) b

end Cert.Kernel.Hand

end
-- ==== Proof.KOutBits.lean ====
/-
  The value the kernel body stores, as one term of the fifteen input blocks: the seven table-times-band products,
  the rows of their successive differences stacked over six rows of W1, the bias plus every product's first row,
  the thermometer row of each packed row, and the three layers.
-/
import proofs.«154124_g78426102825261_cont_9to1_m_135_12_alg».proof.Proof.Gen.Kernel.Skeleton

noncomputable section

namespace Cert.Kernel.Hand

open Idealize.ShloMosaic Cert.Kernel Cert.Kernel.Gen

variable {F : FTy → Type} [FloatOps F]

/-- The stored block from the input blocks: x0 the packed rows, x1 the thresholds, x2 … x8 the seven tables, x9 W1,
    x10 b1 as a row, x11 W2, x12 b2 as a row, x13 W3, x14 b3 as a row. -/
def kOut (x0 : Vec F S4096x18 .f32) (x1 : Vec F S1x18 .f32) (x2 x3 x4 : Vec F S2x4 .f32) (x5 x6 x7 : Vec F S3x6 .f32)
    (x8 : Vec F S4x8 .f32) (x9 : Vec F S44x256 .f32) (x10 : Vec F S1x256 .f32) (x11 : Vec F S256x128 .f32)
    (x12 : Vec F S1x128 .f32) (x13 : Vec F S128x2 .f32) (x14 : Vec F S1x2 .f32) : FVec F S4096x2 .f32 :=
  k0_pay1
    (k0_pay15 (k0_pay2 x9 x2) (k0_pay3 x9 x3) (k0_pay4 x9 x4) (k0_pay5 x9 x5) (k0_pay6 x9 x6) (k0_pay7 x9 x7) (k0_pay8 x9 x8) x10)
    (k0_pay16 x9 (k0_pay5 x9 x5) (k0_pay6 x9 x6) (k0_pay7 x9 x7) (k0_pay8 x9 x8)
      (k0_pay9 x9 x2) (k0_pay10 x9 x3) (k0_pay11 x9 x4) (k0_pay12 x9 x5) (k0_pay13 x9 x6) (k0_pay14 x9 x6) x0 x1)
    x11 x12 x13 x14

end Cert.Kernel.Hand

end
-- ==== Proof.KFrameDefsBits.lean ====
/-
  The kernel's launch: the host operations that precede the region leave every argument array as launched;
  each window's block at a grid point is read off its array as the region finds it; the body leaves the fifteen input
  buffers as they were and the output buffer at the one value it stores; and the final memory of a run to the
  pipeline library's frame post has every argument array unchanged.
-/
import proofs.«154124_g78426102825261_cont_9to1_m_135_12_alg».proof.Proof.KVBits
import proofs.«154124_g78426102825261_cont_9to1_m_135_12_alg».proof.Proof.KOutBits
import proofs.«154124_g78426102825261_cont_9to1_m_135_12_alg».proof.Proof.Gen.Kernel.Launch
import proofs.«154124_g78426102825261_cont_9to1_m_135_12_alg».proof.Proof.Gen.Kernel.Skeleton
import proofs.«154124_g78426102825261_cont_9to1_m_135_12_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- No host operation allocates anything. -/
theorem hostOps0_fresh : (hostOps0 : List (HloOp τ sig (Elt F))).Forall fun op => op.fresh = ∅ := by
  simp only [List.Forall]; repeat' constructor

/-- The program is its nine host operations and then the region; the region finds the buffers as those operations
    leave them. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not, for any proof data over
    the region-entry arrays whose body leaves that block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not, for any proof data over
    the region-entry arrays whose body leaves that block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not, for any proof data over
    the region-entry arrays whose body leaves that block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not, for any proof data over
    the region-entry arrays whose body leaves that block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not, for any proof data over
    the region-entry arrays whose body leaves that block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not, for any proof data over
    the region-entry arrays whose body leaves that block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not, for any proof data over
    the region-entry arrays whose body leaves that block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not, for any proof data over
    the region-entry arrays whose body leaves that block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not, for any proof data over
    the region-entry arrays whose body leaves that block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not, for any proof data over
    the region-entry arrays whose body leaves that block in place. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not, for any proof data over
    the region-entry arrays whose body leaves that block in place. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not, for any proof data over
    the region-entry arrays whose body leaves that block in place. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not, for any proof data over
    the region-entry arrays whose body leaves that block in place. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not, for any proof data over
    the region-entry arrays whose body leaves that block in place. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not, for any proof data over
    the region-entry arrays whose body leaves that block in place. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end, from a run to the frame post -/

/-- For any proof data over the region-entry arrays, a run to the pipeline library's frame post leaves every argument
    array as launched: an array a window stages is an input's, which the pipeline only reads; an array no window
    stages is kept by the post's second clause; and the host operations wrote neither. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c))),
      ((h c).2 main_arg12 (Pipeline.mem_restRefs_of main_arg12 (by decide) (by decide))).trans (V_main_arg12 m c),
      ((h c).1 11).trans (((dats 0 c).arrAt_in 11 rfl _).trans ((hA c 11).trans (V_main_arg13 m c))),
      ((h c).2 main_arg14 (Pipeline.mem_restRefs_of main_arg14 (by decide) (by decide))).trans (V_main_arg14 m c),
      ((h c).1 13).trans (((dats 0 c).arrAt_in 13 rfl _).trans ((hA c 13).trans (V_main_arg15 m c))),
      ((h c).2 main_arg16 (Pipeline.mem_restRefs_of main_arg16 (by decide) (by decide))).trans (V_main_arg16 m c)⟩) h

/-! ## The body's accesses: each buffer whole, once -/

/-- The whole of a 4096x18 buffer. -/
abbrev whole_S4096x18 : Rect S4096x18 := Rect.unit (s := S4096x18) ![0, 0] S4096x18.size inb_S4096x18_S4096x18_0_0
/-- The whole of a 1x18 buffer. -/
abbrev whole_S1x18 : Rect S1x18 := Rect.unit (s := S1x18) ![0, 0] S1x18.size inb_S1x18_S1x18_0_0
/-- The whole of a 2x4 buffer. -/
abbrev whole_S2x4 : Rect S2x4 := Rect.unit (s := S2x4) ![0, 0] S2x4.size inb_S2x4_S2x4_0_0
/-- The whole of a 3x6 buffer. -/
abbrev whole_S3x6 : Rect S3x6 := Rect.unit (s := S3x6) ![0, 0] S3x6.size inb_S3x6_S3x6_0_0
/-- The whole of a 4x8 buffer. -/
abbrev whole_S4x8 : Rect S4x8 := Rect.unit (s := S4x8) ![0, 0] S4x8.size inb_S4x8_S4x8_0_0
/-- The whole of a 44x256 buffer. -/
abbrev whole_S44x256 : Rect S44x256 := Rect.unit (s := S44x256) ![0, 0] S44x256.size inb_S44x256_S44x256_0_0
/-- The whole of a 1x256 buffer. -/
abbrev whole_S1x256 : Rect S1x256 := Rect.unit (s := S1x256) ![0, 0] S1x256.size inb_S1x256_S1x256_0_0
/-- The whole of a 256x128 buffer. -/
abbrev whole_S256x128 : Rect S256x128 := Rect.unit (s := S256x128) ![0, 0] S256x128.size inb_S256x128_S256x128_0_0
/-- The whole of a 1x128 buffer. -/
abbrev whole_S1x128 : Rect S1x128 := Rect.unit (s := S1x128) ![0, 0] S1x128.size inb_S1x128_S1x128_0_0
/-- The whole of a 128x2 buffer. -/
abbrev whole_S128x2 : Rect S128x2 := Rect.unit (s := S128x2) ![0, 0] S128x2.size inb_S128x2_S128x2_0_0
/-- The whole of a 1x2 buffer. -/
abbrev whole_S1x2 : Rect S1x2 := Rect.unit (s := S1x2) ![0, 0] S1x2.size inb_S1x2_S1x2_0_0
/-- The whole of a 4096x2 buffer. -/
abbrev whole_S4096x2 : Rect S4096x2 := Rect.unit (s := S4096x2) ![0, 0] S4096x2.size inb_S4096x2_S4096x2_0_0

/-! ## What the body leaves in the output window's buffer -/

/-- The output buffer after the body, from the fifteen input blocks: its one store, of the whole buffer, of the
    value `kOut` computes from what the whole-buffer loads read. -/
def outBlock (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) : Vec F S4096x2 .f32 :=
  View.canon [⟨whole_S4096x2, kOut (View.ld x0 whole_S4096x18) (View.ld x1 whole_S1x18) (View.ld x2 whole_S2x4) (View.ld x3 whole_S2x4) (View.ld x4 whole_S2x4) (View.ld x5 whole_S3x6) (View.ld x6 whole_S3x6) (View.ld x7 whole_S3x6) (View.ld x8 whole_S4x8) (View.ld x9 whole_S44x256) (View.ld x10 whole_S1x256) (View.ld x11 whole_S256x128) (View.ld x12 whole_S1x128) (View.ld x13 whole_S128x2) (View.ld x14 whole_S1x2)⟩]

/-- The one store covers the buffer. -/
theorem outBlock_cover (p0 : Vec F S4096x2 .f32) (y : S4096x2.Idx) :
    ∃ pc ∈ ([⟨whole_S4096x2, p0⟩] : List (View.Piece (Elt F) S4096x2 .f32)), y ∈ pc.1.set :=
  ⟨_, List.mem_singleton_self _, View.mem_set_unit_zero (by funext a; fin_cases a <;> rfl) inb_S4096x2_S4096x2_0_0 y⟩

/-- A whole-buffer load reads the contents and a whole-buffer store leaves its payload: the output block is `kOut` of
    the input blocks. -/
theorem outBlock_eq (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) : outBlock x0 x1 x2 x3 x4 x5 x6 x7 x8 x9 x10 x11 x12 x13 x14 = kOut x0 x1 x2 x3 x4 x5 x6 x7 x8 x9 x10 x11 x12 x13 x14 := by
  have hz : (![0, 0] : Fin 2 → Nat) = fun _ => 0 := by funext a; fin_cases a <;> rfl
  unfold outBlock
  rw [View.canon_unit_zero hz]
  simp only [View.ld_unit_zero (S := S4096x18) hz, View.ld_unit_zero (S := S1x18) hz, View.ld_unit_zero (S := S2x4) hz, View.ld_unit_zero (S := S3x6) hz, View.ld_unit_zero (S := S4x8) hz, View.ld_unit_zero (S := S44x256) hz, View.ld_unit_zero (S := S1x256) hz, View.ld_unit_zero (S := S256x128) hz, View.ld_unit_zero (S := S1x128) hz, View.ld_unit_zero (S := S128x2) hz, View.ld_unit_zero (S := S1x2) hz]

/-! ## The pipeline's proof data -/

/-- The proof data of the one pipeline on core `c`: the arrays as the region finds them; after the body at point `t`
    each input's buffer at its block and the output's at `outBlock` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

end Cert.Kernel.Hand

end
-- ==== Proof.KFrameRunBits.lean ====
/-
  The kernel's run: the body at a grid point, on the window buffers at their blocks, loads each input whole,
  computes, and stores the output buffer whole, leaving the inputs as they were; hence the pipeline's body obligation,
  the run of the whole program to the pipeline library's frame post, and the frame: every argument array ends as
  launched.
-/
import proofs.«154124_g78426102825261_cont_9to1_m_135_12_alg».proof.Proof.KFrameDefsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole buffers, the fifteen inputs' at contents `x0 … x14` and the output's at anything, runs to the
    continuation holding the inputs' as they were and the output's at `outBlock x0 … x14`: fifteen whole-buffer loads
    (and one of the output buffer, unused), then one whole-buffer store of the computed value. -/
theorem sound_kernel (c : Dev nD) (E : Set ℕ) (i : grid0.Coords) (arg1 : Memref sig .tc .vmem S4096x18 .f32) (harg1 : arg1.IsWhole) (arg2 : Memref sig .tc .vmem S1x18 .f32) (harg2 : arg2.IsWhole) (arg3 : Memref sig .tc .vmem S2x4 .f32) (harg3 : arg3.IsWhole) (arg4 : Memref sig .tc .vmem S2x4 .f32) (harg4 : arg4.IsWhole) (arg5 : Memref sig .tc .vmem S2x4 .f32) (harg5 : arg5.IsWhole) (arg6 : Memref sig .tc .vmem S3x6 .f32) (harg6 : arg6.IsWhole) (arg7 : Memref sig .tc .vmem S3x6 .f32) (harg7 : arg7.IsWhole) (arg8 : Memref sig .tc .vmem S3x6 .f32) (harg8 : arg8.IsWhole) (arg9 : Memref sig .tc .vmem S4x8 .f32) (harg9 : arg9.IsWhole) (arg10 : Memref sig .tc .vmem S44x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S128x2 .f32) (harg14 : arg14.IsWhole) (arg15 : Memref sig .tc .vmem S1x2 .f32) (harg15 : arg15.IsWhole) (arg16 : Memref sig .tc .vmem S4096x2 .f32) (harg16 : arg16.IsWhole)
    (x0 : Vec F S4096x18 .f32) (x1 : Vec F S1x18 .f32) (x2 : Vec F S2x4 .f32) (x3 : Vec F S2x4 .f32) (x4 : Vec F S2x4 .f32) (x5 : Vec F S3x6 .f32) (x6 : Vec F S3x6 .f32) (x7 : Vec F S3x6 .f32) (x8 : Vec F S4x8 .f32) (x9 : Vec F S44x256 .f32) (x10 : Vec F S1x256 .f32) (x11 : Vec F S256x128 .f32) (x12 : Vec F S1x128 .f32) (x13 : Vec F S128x2 .f32) (x14 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlock x0 x1 x2 x3 x4 x5 x6 x7 x8 x9 x10 x11 x12 x13 x14)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (outBlock_cover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' buffers hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The same run with the result array named: it ends at what the pipeline library computes from the proof data for
    the output window after the last point, and every argument array ends as launched. -/
theorem run_value : θ_run defs (onTc (τ := τ) (main (F := F))) ⟨m, fun _ => 0, ρ⟩ (fun r => ∀ c : Dev nD,
      r.2.mem ((c.tc : Thread nD τ).loc main_v8) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1 15,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans ((((dats m) 0 c).arrAt_in 2 rfl _).trans ((A_eq m c 2).trans (V_main_arg4 m c))),
      ((h c).1 3).trans ((((dats m) 0 c).arrAt_in 3 rfl _).trans ((A_eq m c 3).trans (V_main_arg5 m c))),
      ((h c).1 4).trans ((((dats m) 0 c).arrAt_in 4 rfl _).trans ((A_eq m c 4).trans (V_main_arg6 m c))),
      ((h c).1 5).trans ((((dats m) 0 c).arrAt_in 5 rfl _).trans ((A_eq m c 5).trans (V_main_arg7 m c))),
      ((h c).1 6).trans ((((dats m) 0 c).arrAt_in 6 rfl _).trans ((A_eq m c 6).trans (V_main_arg8 m c))),
      ((h c).1 7).trans ((((dats m) 0 c).arrAt_in 7 rfl _).trans ((A_eq m c 7).trans (V_main_arg9 m c))),
      ((h c).1 8).trans ((((dats m) 0 c).arrAt_in 8 rfl _).trans ((A_eq m c 8).trans (V_main_arg10 m c))),
      ((h c).1 9).trans ((((dats m) 0 c).arrAt_in 9 rfl _).trans ((A_eq m c 9).trans (V_main_arg11 m c))),
      ((h c).2 main_arg12 (Pipeline.mem_restRefs_of main_arg12 (by decide) (by decide))).trans (V_main_arg12 m c),
      ((h c).1 11).trans ((((dats m) 0 c).arrAt_in 11 rfl _).trans ((A_eq m c 11).trans (V_main_arg13 m c))),
      ((h c).2 main_arg14 (Pipeline.mem_restRefs_of main_arg14 (by decide) (by decide))).trans (V_main_arg14 m c),
      ((h c).1 13).trans ((((dats m) 0 c).arrAt_in 13 rfl _).trans ((A_eq m c 13).trans (V_main_arg15 m c))),
      ((h c).2 main_arg16 (Pipeline.mem_restRefs_of main_arg16 (by decide) (by decide))).trans (V_main_arg16 m c)⟩) (run_main m ρ)

end Cert.Kernel.Hand

end
-- ==== Proof.KFrameClaims.lean ====
/-
  The two frame claims: each printed kernel program runs to the end without fault and leaves every argument array
  as launched, whatever the arrays hold.
-/
import proofs.«154124_g78426102825261_cont_9to1_m_135_12_alg».proof.Defs
import proofs.«154124_g78426102825261_cont_9to1_m_135_12_alg».proof.Proof.Gen.Pre_finite_inputs
import proofs.«154124_g78426102825261_cont_9to1_m_135_12_alg».proof.Proof.KFrameRunIdeal
import proofs.«154124_g78426102825261_cont_9to1_m_135_12_alg».proof.Proof.KFrameRunBits

noncomputable section

open Idealize.ShloMosaic Idealize.ShloMosaic.TcCoe Idealize.SL.Sem

namespace Cert.Proof.KClaims

/-- The kernel as printed, at the bit-exact reading. -/
theorem frame_p : Cert.frame_Kernel := fun m ρ _ => Cert.Kernel.Hand.frame m ρ

/-- The kernel's idealization, at the ideal reading. -/
theorem frame_pi : Cert.frame_KernelIdeal := fun m ρ _ => Cert.KernelIdeal.Hand.frame m ρ

end Cert.Proof.KClaims

end
-- ==== Proof.RefTerm.lean ====
/-
  The reference function as one closed term of its seventeen arguments.

  Each of the seven table lookups is `jnp.take` in its default mode: an index below zero is moved up by the
  table's row count (`wrapIdx`), the rows are gathered at the moved index, and a row whose moved index still
  lies outside `0 … rows − 1` (`inRange`) is replaced by a row of NaN. The three 4-column lookups, the three
  6-column lookups and the 8-column lookup are laid side by side (12 + 18 + 8 = 38 columns), the six feature
  columns are appended (`refX`, 44 columns), and three affine layers follow: tanh after the first two and the
  logistic function `1 / (1 + exp (−z))` after the third (`refOut`).
-/
import proofs.«154124_g78426102825261_cont_9to1_m_135_12_alg».proof.ReferenceIdeal

noncomputable section

namespace Cert.ReferenceIdeal.RefTerm

open Idealize.ShloMosaic Idealize.SL.Sem
open Cert.ReferenceIdeal
open Cert.ReferenceIdeal.Facts₀ Cert.ReferenceIdeal.Facts

variable {F : FTy → Type} [FloatOps F] [Facts]

/-- Column `j` of a three-column integer array, as a vector of 16384 indices. -/
def col0 (a : IVec S16384x3 32) : IVec S16384 32 :=
  shapeCast S16384 (extractStridedSlice S16384x1 ![0, 0] a slices_S16384x3_S16384x1_0_0) shapeCasts_S16384x1_S16384
@[inherit_doc col0]
def col1 (a : IVec S16384x3 32) : IVec S16384 32 :=
  shapeCast S16384 (extractStridedSlice S16384x1 ![0, 1] a slices_S16384x3_S16384x1_0_1) shapeCasts_S16384x1_S16384
@[inherit_doc col0]
def col2 (a : IVec S16384x3 32) : IVec S16384 32 :=
  shapeCast S16384 (extractStridedSlice S16384x1 ![0, 2] a slices_S16384x3_S16384x1_0_2) shapeCasts_S16384x1_S16384
/-- The single column of a one-column integer array, as a vector of 16384 indices. -/
def colOnly (a : IVec S16384x1 32) : IVec S16384 32 :=
  shapeCast S16384 a shapeCasts_S16384x1_S16384

/-- The index moved into range from below: `idx + n` where `idx < 0`, else `idx`; as a 16384 × 1 column. -/
def wrapIdx (n : BitVec 32) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 n))) idx)

/-- Per row: does the moved index lie in `0 … hi`? (the conjunction over the one index column). -/
def inRange (hi : BitVec 32) (i5 : IVec S16384x1 32) : IVec S16384 1 :=
  Host.reduce IntOp.andi
    (andi (cmpi .sge i5 (broadcastInDim S16384x1 ![] bcast_S_S16384x1 (constantI S_ 32 0#32)))
      (cmpi .sle i5 (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- `jnp.take` from a 2 × 4 table: the gathered rows, NaN where the moved index is out of range. -/
def take4 (tbl : FVec F S2x4 .f32) (idx : IVec S16384 32) : FVec F S16384x4 .f32 :=
  select (broadcastInDim S16384x4 ![0] bcast_S16384_S16384x4_0 (inRange 1#32 (wrapIdx 2#32 idx)))
    (Host.gather gather_S2x4_S16384x1_S16384x4_1_0_n_n_0_1_14 tbl (wrapIdx 2#32 idx))
    (broadcastInDim S16384x4 ![] bcast_S_S16384x4 (constant S_ .f32 0x7FC00000#32))

/-- `jnp.take` from a 3 × 6 table. -/
def take6 (tbl : FVec F S3x6 .f32) (idx : IVec S16384 32) : FVec F S16384x6 .f32 :=
  select (broadcastInDim S16384x6 ![0] bcast_S16384_S16384x6_0 (inRange 2#32 (wrapIdx 3#32 idx)))
    (Host.gather gather_S3x6_S16384x1_S16384x6_1_0_n_n_0_1_16 tbl (wrapIdx 3#32 idx))
    (broadcastInDim S16384x6 ![] bcast_S_S16384x6 (constant S_ .f32 0x7FC00000#32))

/-- `jnp.take` from a 4 × 8 table. -/
def take8 (tbl : FVec F S4x8 .f32) (idx : IVec S16384 32) : FVec F S16384x8 .f32 :=
  select (broadcastInDim S16384x8 ![0] bcast_S16384_S16384x8_0 (inRange 3#32 (wrapIdx 4#32 idx)))
    (Host.gather gather_S4x8_S16384x1_S16384x8_1_0_n_n_0_1_18 tbl (wrapIdx 4#32 idx))
    (broadcastInDim S16384x8 ![] bcast_S_S16384x8 (constant S_ .f32 0x7FC00000#32))

/-- The three 4-column lookups side by side: 12 columns. -/
def emb12 (a1 : IVec S16384x3 32) (a4 a5 a6 : FVec F S2x4 .f32) : FVec F S16384x12 .f32 :=
  concatenate S16384x12 1 [⟨S16384x4, take4 a4 (col0 a1)⟩, ⟨S16384x4, take4 a5 (col1 a1)⟩, ⟨S16384x4, take4 a6 (col2 a1)⟩]
    concatenates_S16384x4_S16384x4_S16384x4_S16384x12_d1

/-- The three 6-column lookups side by side: 18 columns. -/
def emb18 (a2 : IVec S16384x3 32) (a7 a8 a9 : FVec F S3x6 .f32) : FVec F S16384x18 .f32 :=
  concatenate S16384x18 1 [⟨S16384x6, take6 a7 (col0 a2)⟩, ⟨S16384x6, take6 a8 (col1 a2)⟩, ⟨S16384x6, take6 a9 (col2 a2)⟩]
    concatenates_S16384x6_S16384x6_S16384x6_S16384x18_d1

/-- All seven lookups side by side: 38 columns. -/
def emb38 (a1 a2 : IVec S16384x3 32) (a3 : IVec S16384x1 32) (a4 a5 a6 : FVec F S2x4 .f32)
    (a7 a8 a9 : FVec F S3x6 .f32) (a10 : FVec F S4x8 .f32) : FVec F S16384x38 .f32 :=
  concatenate S16384x38 1 [⟨S16384x12, emb12 a1 a4 a5 a6⟩, ⟨S16384x18, emb18 a2 a7 a8 a9⟩, ⟨S16384x8, take8 a10 (colOnly a3)⟩]
    concatenates_S16384x12_S16384x18_S16384x8_S16384x38_d1

/-- The first layer's input: the 38 lookup columns, then the 6 feature columns. -/
def refX (a0 : FVec F S16384x6 .f32) (a1 a2 : IVec S16384x3 32) (a3 : IVec S16384x1 32) (a4 a5 a6 : FVec F S2x4 .f32)
    (a7 a8 a9 : FVec F S3x6 .f32) (a10 : FVec F S4x8 .f32) : FVec F S16384x44 .f32 :=
  concatenate S16384x44 1 [⟨S16384x38, emb38 a1 a2 a3 a4 a5 a6 a7 a8 a9 a10⟩, ⟨S16384x6, a0⟩]
    concatenates_S16384x38_S16384x6_S16384x44_d1

/-- First layer: `tanh (x · W1 + b1)`. -/
def layer1 (x : FVec F S16384x44 .f32) (w : FVec F S44x256 .f32) (b : FVec F S256 .f32) : FVec F S16384x256 .f32 :=
  Host.tanh (addf (Host.dotGeneral dot_S16384x44_S44x256_S16384x256_1_0_0_1_n_n none x w)
    (broadcastInDim S16384x256 ![0, 1] bcast_S1x256_S16384x256_0_1 (broadcastInDim S1x256 ![1] bcast_S256_S1x256_1 b)))

/-- Second layer: `tanh (h · W2 + b2)`. -/
def layer2 (h : FVec F S16384x256 .f32) (w : FVec F S256x128 .f32) (b : FVec F S128 .f32) : FVec F S16384x128 .f32 :=
  Host.tanh (addf (Host.dotGeneral dot_S16384x256_S256x128_S16384x128_1_0_0_1_n_n none h w)
    (broadcastInDim S16384x128 ![0, 1] bcast_S1x128_S16384x128_0_1 (broadcastInDim S1x128 ![1] bcast_S128_S1x128_1 b)))

/-- Third layer, before the logistic function: `h · W3 + b3`. -/
def layer3 (h : FVec F S16384x128 .f32) (w : FVec F S128x2 .f32) (b : FVec F S2 .f32) : FVec F S16384x2 .f32 :=
  addf (Host.dotGeneral dot_S16384x128_S128x2_S16384x2_1_0_0_1_n_n none h w)
    (broadcastInDim S16384x2 ![0, 1] bcast_S1x2_S16384x2_0_1 (broadcastInDim S1x2 ![1] bcast_S2_S1x2_1 b))

/-- The constant 1, at every entry of a 16384 × 2 array. -/
def ones : FVec F S16384x2 .f32 :=
  broadcastInDim S16384x2 ![] bcast_S_S16384x2 (constant S_ .f32 0x3F800000#32)

/-- The logistic function, entry by entry: `1 / (1 + exp (−z))`. -/
def logistic (z : FVec F S16384x2 .f32) : FVec F S16384x2 .f32 :=
  Host.divf ones (addf ones (Host.exp (Host.negf z)))

/-- The reference's result as a function of its seventeen arguments. -/
def refOut (a0 : FVec F S16384x6 .f32) (a1 a2 : IVec S16384x3 32) (a3 : IVec S16384x1 32) (a4 a5 a6 : FVec F S2x4 .f32)
    (a7 a8 a9 : FVec F S3x6 .f32) (a10 : FVec F S4x8 .f32) (a11 : FVec F S44x256 .f32) (a12 : FVec F S256 .f32)
    (a13 : FVec F S256x128 .f32) (a14 : FVec F S128 .f32) (a15 : FVec F S128x2 .f32) (a16 : FVec F S2 .f32) :
    FVec F S16384x2 .f32 :=
  logistic (layer3 (layer2 (layer1 (refX a0 a1 a2 a3 a4 a5 a6 a7 a8 a9 a10) a11 a12) a13 a14) a15 a16)

end Cert.ReferenceIdeal.RefTerm

end
-- ==== Proof.RefRunOps.lean ====
/-
  The reference's @main as the list of its 200 host operations, in order, the calls of the lookup function (and of
  the selection it calls in turn) unfolded in place over each call's own buffers: per lookup the two operations that
  cut out and flatten the index column, then the callee's twenty-three; around them the four concatenations and the
  three affine layers with their activations.
-/
import proofs.«154124_g78426102825261_cont_9to1_m_135_12_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's operations, in order, the calls unfolded. -/
abbrev ops : List (HloOp τ sig (Elt F)) :=
  [
    unary main_arg1 main_v0 ((extractStridedSlice S16384x1 ![0, 0] · slices_S16384x3_S16384x1_0_0) : (⟨S16384x3, .i32⟩ : BufTy).Contents (Elt F) → (⟨S16384x1, .i32⟩ : BufTy).Contents (Elt F)),
    reshape main_v0 main_v1 rfl shapeCasts_S16384x1_S16384,
    TRef.nullary main_call0.c (constantI S_ 32 0#32),
    TRef.unary main_call0.c main_call0.v0 (broadcastInDim S16384 ![] bcast_S_S16384),
    TRef.binary (.of main_v1 : TRef sig ⟨S16384, .i32⟩) main_call0.v0 main_call0.v1 (cmpi .slt),
    TRef.nullary main_call0.c_0 (constantI S_ 32 2#32),
    TRef.unary main_call0.c_0 main_call0.v2 (broadcastInDim S16384 ![] bcast_S_S16384),
    TRef.binary (.of main_v1 : TRef sig ⟨S16384, .i32⟩) main_call0.v2 main_call0.v3 addi,
    TRef.ternary main_call0.v1 main_call0.v3 (.of main_v1 : TRef sig ⟨S16384, .i32⟩) main_call0.call0.v0 select,
    TRef.unary main_call0.call0.v0 main_call0.v5 (broadcastInDim S16384x1 ![0] bcast_S16384_S16384x1_0),
    TRef.nullary main_call0.c_1 (constantI S1 32 1#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg4 : TRef sig ⟨S2x4, .f32⟩) main_call0.v5 main_call0.v13 (fun x i => Host.gather gather_S2x4_S16384x1_S16384x4_1_0_n_n_0_1_14 x i),
    TRef.unary main_call0.v12 main_call0.v14 (broadcastInDim S16384x4 ![0] bcast_S16384_S16384x4_0),
    TRef.nullary main_call0.cst (constant S_ .f32 0x7FC00000#32),
    TRef.unary main_call0.cst main_call0.v15 (broadcastInDim S16384x4 ![] bcast_S_S16384x4),
    TRef.ternary main_call0.v14 main_call0.v13 main_call0.v15 main_call0.v16 select,
    unary main_arg1 main_v3 ((extractStridedSlice S16384x1 ![0, 1] · slices_S16384x3_S16384x1_0_1) : (⟨S16384x3, .i32⟩ : BufTy).Contents (Elt F) → (⟨S16384x1, .i32⟩ : BufTy).Contents (Elt F)),
    reshape main_v3 main_v4 rfl shapeCasts_S16384x1_S16384,
    TRef.nullary main_call1.c (constantI S_ 32 0#32),
    TRef.unary main_call1.c main_call1.v0 (broadcastInDim S16384 ![] bcast_S_S16384),
    TRef.binary (.of main_v4 : TRef sig ⟨S16384, .i32⟩) main_call1.v0 main_call1.v1 (cmpi .slt),
    TRef.nullary main_call1.c_0 (constantI S_ 32 2#32),
    TRef.unary main_call1.c_0 main_call1.v2 (broadcastInDim S16384 ![] bcast_S_S16384),
    TRef.binary (.of main_v4 : TRef sig ⟨S16384, .i32⟩) main_call1.v2 main_call1.v3 addi,
    TRef.ternary main_call1.v1 main_call1.v3 (.of main_v4 : TRef sig ⟨S16384, .i32⟩) main_call1.call0.v0 select,
    TRef.unary main_call1.call0.v0 main_call1.v5 (broadcastInDim S16384x1 ![0] bcast_S16384_S16384x1_0),
    TRef.nullary main_call1.c_1 (constantI S1 32 1#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg5 : TRef sig ⟨S2x4, .f32⟩) main_call1.v5 main_call1.v13 (fun x i => Host.gather gather_S2x4_S16384x1_S16384x4_1_0_n_n_0_1_14 x i),
    TRef.unary main_call1.v12 main_call1.v14 (broadcastInDim S16384x4 ![0] bcast_S16384_S16384x4_0),
    TRef.nullary main_call1.cst (constant S_ .f32 0x7FC00000#32),
    TRef.unary main_call1.cst main_call1.v15 (broadcastInDim S16384x4 ![] bcast_S_S16384x4),
    TRef.ternary main_call1.v14 main_call1.v13 main_call1.v15 main_call1.v16 select,
    unary main_arg1 main_v6 ((extractStridedSlice S16384x1 ![0, 2] · slices_S16384x3_S16384x1_0_2) : (⟨S16384x3, .i32⟩ : BufTy).Contents (Elt F) → (⟨S16384x1, .i32⟩ : BufTy).Contents (Elt F)),
    reshape main_v6 main_v7 rfl shapeCasts_S16384x1_S16384,
    TRef.nullary main_call2.c (constantI S_ 32 0#32),
    TRef.unary main_call2.c main_call2.v0 (broadcastInDim S16384 ![] bcast_S_S16384),
    TRef.binary (.of main_v7 : TRef sig ⟨S16384, .i32⟩) main_call2.v0 main_call2.v1 (cmpi .slt),
    TRef.nullary main_call2.c_0 (constantI S_ 32 2#32),
    TRef.unary main_call2.c_0 main_call2.v2 (broadcastInDim S16384 ![] bcast_S_S16384),
    TRef.binary (.of main_v7 : TRef sig ⟨S16384, .i32⟩) main_call2.v2 main_call2.v3 addi,
    TRef.ternary main_call2.v1 main_call2.v3 (.of main_v7 : TRef sig ⟨S16384, .i32⟩) main_call2.call0.v0 select,
    TRef.unary main_call2.call0.v0 main_call2.v5 (broadcastInDim S16384x1 ![0] bcast_S16384_S16384x1_0),
    TRef.nullary main_call2.c_1 (constantI S1 32 1#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg6 : TRef sig ⟨S2x4, .f32⟩) main_call2.v5 main_call2.v13 (fun x i => Host.gather gather_S2x4_S16384x1_S16384x4_1_0_n_n_0_1_14 x i),
    TRef.unary main_call2.v12 main_call2.v14 (broadcastInDim S16384x4 ![0] bcast_S16384_S16384x4_0),
    TRef.nullary main_call2.cst (constant S_ .f32 0x7FC00000#32),
    TRef.unary main_call2.cst main_call2.v15 (broadcastInDim S16384x4 ![] bcast_S_S16384x4),
    TRef.ternary main_call2.v14 main_call2.v13 main_call2.v15 main_call2.v16 select,
    nary ![main_v2, main_v5, main_v8] main_v9 (fun u => concatenate S16384x12 1 [⟨S16384x4, u 0⟩, ⟨S16384x4, u 1⟩, ⟨S16384x4, u 2⟩] concatenates_S16384x4_S16384x4_S16384x4_S16384x12_d1),
    unary main_arg2 main_v10 ((extractStridedSlice S16384x1 ![0, 0] · slices_S16384x3_S16384x1_0_0) : (⟨S16384x3, .i32⟩ : BufTy).Contents (Elt F) → (⟨S16384x1, .i32⟩ : BufTy).Contents (Elt F)),
    reshape main_v10 main_v11 rfl shapeCasts_S16384x1_S16384,
    TRef.nullary main_call3.c (constantI S_ 32 0#32),
    TRef.unary main_call3.c main_call3.v0 (broadcastInDim S16384 ![] bcast_S_S16384),
    TRef.binary (.of main_v11 : TRef sig ⟨S16384, .i32⟩) main_call3.v0 main_call3.v1 (cmpi .slt),
    TRef.nullary main_call3.c_0 (constantI S_ 32 3#32),
    TRef.unary main_call3.c_0 main_call3.v2 (broadcastInDim S16384 ![] bcast_S_S16384),
    TRef.binary (.of main_v11 : TRef sig ⟨S16384, .i32⟩) main_call3.v2 main_call3.v3 addi,
    TRef.ternary main_call3.v1 main_call3.v3 (.of main_v11 : TRef sig ⟨S16384, .i32⟩) main_call3.call0.v0 select,
    TRef.unary main_call3.call0.v0 main_call3.v5 (broadcastInDim S16384x1 ![0] bcast_S16384_S16384x1_0),
    TRef.nullary main_call3.c_1 (constantI S1 32 2#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg7 : TRef sig ⟨S3x6, .f32⟩) main_call3.v5 main_call3.v13 (fun x i => Host.gather gather_S3x6_S16384x1_S16384x6_1_0_n_n_0_1_16 x i),
    TRef.unary main_call3.v12 main_call3.v14 (broadcastInDim S16384x6 ![0] bcast_S16384_S16384x6_0),
    TRef.nullary main_call3.cst (constant S_ .f32 0x7FC00000#32),
    TRef.unary main_call3.cst main_call3.v15 (broadcastInDim S16384x6 ![] bcast_S_S16384x6),
    TRef.ternary main_call3.v14 main_call3.v13 main_call3.v15 main_call3.v16 select,
    unary main_arg2 main_v13 ((extractStridedSlice S16384x1 ![0, 1] · slices_S16384x3_S16384x1_0_1) : (⟨S16384x3, .i32⟩ : BufTy).Contents (Elt F) → (⟨S16384x1, .i32⟩ : BufTy).Contents (Elt F)),
    reshape main_v13 main_v14 rfl shapeCasts_S16384x1_S16384,
    TRef.nullary main_call4.c (constantI S_ 32 0#32),
    TRef.unary main_call4.c main_call4.v0 (broadcastInDim S16384 ![] bcast_S_S16384),
    TRef.binary (.of main_v14 : TRef sig ⟨S16384, .i32⟩) main_call4.v0 main_call4.v1 (cmpi .slt),
    TRef.nullary main_call4.c_0 (constantI S_ 32 3#32),
    TRef.unary main_call4.c_0 main_call4.v2 (broadcastInDim S16384 ![] bcast_S_S16384),
    TRef.binary (.of main_v14 : TRef sig ⟨S16384, .i32⟩) main_call4.v2 main_call4.v3 addi,
    TRef.ternary main_call4.v1 main_call4.v3 (.of main_v14 : TRef sig ⟨S16384, .i32⟩) main_call4.call0.v0 select,
    TRef.unary main_call4.call0.v0 main_call4.v5 (broadcastInDim S16384x1 ![0] bcast_S16384_S16384x1_0),
    TRef.nullary main_call4.c_1 (constantI S1 32 2#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg8 : TRef sig ⟨S3x6, .f32⟩) main_call4.v5 main_call4.v13 (fun x i => Host.gather gather_S3x6_S16384x1_S16384x6_1_0_n_n_0_1_16 x i),
    TRef.unary main_call4.v12 main_call4.v14 (broadcastInDim S16384x6 ![0] bcast_S16384_S16384x6_0),
    TRef.nullary main_call4.cst (constant S_ .f32 0x7FC00000#32),
    TRef.unary main_call4.cst main_call4.v15 (broadcastInDim S16384x6 ![] bcast_S_S16384x6),
    TRef.ternary main_call4.v14 main_call4.v13 main_call4.v15 main_call4.v16 select,
    unary main_arg2 main_v16 ((extractStridedSlice S16384x1 ![0, 2] · slices_S16384x3_S16384x1_0_2) : (⟨S16384x3, .i32⟩ : BufTy).Contents (Elt F) → (⟨S16384x1, .i32⟩ : BufTy).Contents (Elt F)),
    reshape main_v16 main_v17 rfl shapeCasts_S16384x1_S16384,
    TRef.nullary main_call5.c (constantI S_ 32 0#32),
    TRef.unary main_call5.c main_call5.v0 (broadcastInDim S16384 ![] bcast_S_S16384),
    TRef.binary (.of main_v17 : TRef sig ⟨S16384, .i32⟩) main_call5.v0 main_call5.v1 (cmpi .slt),
    TRef.nullary main_call5.c_0 (constantI S_ 32 3#32),
    TRef.unary main_call5.c_0 main_call5.v2 (broadcastInDim S16384 ![] bcast_S_S16384),
    TRef.binary (.of main_v17 : TRef sig ⟨S16384, .i32⟩) main_call5.v2 main_call5.v3 addi,
    TRef.ternary main_call5.v1 main_call5.v3 (.of main_v17 : TRef sig ⟨S16384, .i32⟩) main_call5.call0.v0 select,
    TRef.unary main_call5.call0.v0 main_call5.v5 (broadcastInDim S16384x1 ![0] bcast_S16384_S16384x1_0),
    TRef.nullary main_call5.c_1 (constantI S1 32 2#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg9 : TRef sig ⟨S3x6, .f32⟩) main_call5.v5 main_call5.v13 (fun x i => Host.gather gather_S3x6_S16384x1_S16384x6_1_0_n_n_0_1_16 x i),
    TRef.unary main_call5.v12 main_call5.v14 (broadcastInDim S16384x6 ![0] bcast_S16384_S16384x6_0),
    TRef.nullary main_call5.cst (constant S_ .f32 0x7FC00000#32),
    TRef.unary main_call5.cst main_call5.v15 (broadcastInDim S16384x6 ![] bcast_S_S16384x6),
    TRef.ternary main_call5.v14 main_call5.v13 main_call5.v15 main_call5.v16 select,
    nary ![main_v12, main_v15, main_v18] main_v19 (fun u => concatenate S16384x18 1 [⟨S16384x6, u 0⟩, ⟨S16384x6, u 1⟩, ⟨S16384x6, u 2⟩] concatenates_S16384x6_S16384x6_S16384x6_S16384x18_d1),
    reshape main_arg3 main_v20 rfl shapeCasts_S16384x1_S16384,
    TRef.nullary main_call6.c (constantI S_ 32 0#32),
    TRef.unary main_call6.c main_call6.v0 (broadcastInDim S16384 ![] bcast_S_S16384),
    TRef.binary (.of main_v20 : TRef sig ⟨S16384, .i32⟩) main_call6.v0 main_call6.v1 (cmpi .slt),
    TRef.nullary main_call6.c_0 (constantI S_ 32 4#32),
    TRef.unary main_call6.c_0 main_call6.v2 (broadcastInDim S16384 ![] bcast_S_S16384),
    TRef.binary (.of main_v20 : TRef sig ⟨S16384, .i32⟩) main_call6.v2 main_call6.v3 addi,
    TRef.ternary main_call6.v1 main_call6.v3 (.of main_v20 : TRef sig ⟨S16384, .i32⟩) main_call6.call0.v0 select,
    TRef.unary main_call6.call0.v0 main_call6.v5 (broadcastInDim S16384x1 ![0] bcast_S16384_S16384x1_0),
    TRef.nullary main_call6.c_1 (constantI S1 32 3#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg10 : TRef sig ⟨S4x8, .f32⟩) main_call6.v5 main_call6.v13 (fun x i => Host.gather gather_S4x8_S16384x1_S16384x8_1_0_n_n_0_1_18 x i),
    TRef.unary main_call6.v12 main_call6.v14 (broadcastInDim S16384x8 ![0] bcast_S16384_S16384x8_0),
    TRef.nullary main_call6.cst (constant S_ .f32 0x7FC00000#32),
    TRef.unary main_call6.cst main_call6.v15 (broadcastInDim S16384x8 ![] bcast_S_S16384x8),
    TRef.ternary main_call6.v14 main_call6.v13 main_call6.v15 main_call6.v16 select,
    nary ![main_v9, main_v19, main_v21] main_v22 (fun u => concatenate S16384x38 1 [⟨S16384x12, u 0⟩, ⟨S16384x18, u 1⟩, ⟨S16384x8, u 2⟩] concatenates_S16384x12_S16384x18_S16384x8_S16384x38_d1),
    binary main_v22 main_arg0 main_v23 ((fun a b => concatenate S16384x44 1 [⟨S16384x38, a⟩, ⟨S16384x6, b⟩] concatenates_S16384x38_S16384x6_S16384x44_d1) : (⟨S16384x38, .f32⟩ : BufTy).Contents (Elt F) → (⟨S16384x6, .f32⟩ : BufTy).Contents (Elt F) → (⟨S16384x44, .f32⟩ : BufTy).Contents (Elt F)),
    binary main_v23 main_arg11 main_v24 ((fun l r => Host.dotGeneral dot_S16384x44_S44x256_S16384x256_1_0_0_1_n_n none l r) : (⟨S16384x44, .f32⟩ : BufTy).Contents (Elt F) → (⟨S44x256, .f32⟩ : BufTy).Contents (Elt F) → (⟨S16384x256, .f32⟩ : BufTy).Contents (Elt F)),
    unary main_arg12 main_v25 (broadcastInDim S1x256 ![1] bcast_S256_S1x256_1 : (⟨S256, .f32⟩ : BufTy).Contents (Elt F) → (⟨S1x256, .f32⟩ : BufTy).Contents (Elt F)),
    unary main_v25 main_v26 (broadcastInDim S16384x256 ![0, 1] bcast_S1x256_S16384x256_0_1 : (⟨S1x256, .f32⟩ : BufTy).Contents (Elt F) → (⟨S16384x256, .f32⟩ : BufTy).Contents (Elt F)),
    binary main_v24 main_v26 main_v27 (addf : (⟨S16384x256, .f32⟩ : BufTy).Contents (Elt F) → (⟨S16384x256, .f32⟩ : BufTy).Contents (Elt F) → (⟨S16384x256, .f32⟩ : BufTy).Contents (Elt F)),
    unary main_v27 main_v28 (Host.tanh : (⟨S16384x256, .f32⟩ : BufTy).Contents (Elt F) → (⟨S16384x256, .f32⟩ : BufTy).Contents (Elt F)),
    binary main_v28 main_arg13 main_v29 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg14 main_v30 (broadcastInDim S1x128 ![1] bcast_S128_S1x128_1 : (⟨S128, .f32⟩ : BufTy).Contents (Elt F) → (⟨S1x128, .f32⟩ : BufTy).Contents (Elt F)),
    unary main_v30 main_v31 (broadcastInDim S16384x128 ![0, 1] bcast_S1x128_S16384x128_0_1 : (⟨S1x128, .f32⟩ : BufTy).Contents (Elt F) → (⟨S16384x128, .f32⟩ : BufTy).Contents (Elt F)),
    binary main_v29 main_v31 main_v32 (addf : (⟨S16384x128, .f32⟩ : BufTy).Contents (Elt F) → (⟨S16384x128, .f32⟩ : BufTy).Contents (Elt F) → (⟨S16384x128, .f32⟩ : BufTy).Contents (Elt F)),
    unary main_v32 main_v33 (Host.tanh : (⟨S16384x128, .f32⟩ : BufTy).Contents (Elt F) → (⟨S16384x128, .f32⟩ : BufTy).Contents (Elt F)),
    binary main_v33 main_arg15 main_v34 ((fun l r => Host.dotGeneral dot_S16384x128_S128x2_S16384x2_1_0_0_1_n_n none l r) : (⟨S16384x128, .f32⟩ : BufTy).Contents (Elt F) → (⟨S128x2, .f32⟩ : BufTy).Contents (Elt F) → (⟨S16384x2, .f32⟩ : BufTy).Contents (Elt F)),
    unary main_arg16 main_v35 (broadcastInDim S1x2 ![1] bcast_S2_S1x2_1 : (⟨S2, .f32⟩ : BufTy).Contents (Elt F) → (⟨S1x2, .f32⟩ : BufTy).Contents (Elt F)),
    unary main_v35 main_v36 (broadcastInDim S16384x2 ![0, 1] bcast_S1x2_S16384x2_0_1 : (⟨S1x2, .f32⟩ : BufTy).Contents (Elt F) → (⟨S16384x2, .f32⟩ : BufTy).Contents (Elt F)),
    binary main_v34 main_v36 main_v37 (addf : (⟨S16384x2, .f32⟩ : BufTy).Contents (Elt F) → (⟨S16384x2, .f32⟩ : BufTy).Contents (Elt F) → (⟨S16384x2, .f32⟩ : BufTy).Contents (Elt F)),
    unary main_v37 main_v38 (Host.negf : (⟨S16384x2, .f32⟩ : BufTy).Contents (Elt F) → (⟨S16384x2, .f32⟩ : BufTy).Contents (Elt F)),
    unary main_v38 main_v39 (Host.exp : (⟨S16384x2, .f32⟩ : BufTy).Contents (Elt F) → (⟨S16384x2, .f32⟩ : BufTy).Contents (Elt F)),
    nullary main_cst (constant S_ .f32 0x3F800000#32),
    unary main_cst main_v40 (broadcastInDim S16384x2 ![] bcast_S_S16384x2 : (⟨S_, .f32⟩ : BufTy).Contents (Elt F) → (⟨S16384x2, .f32⟩ : BufTy).Contents (Elt F)),
    binary main_v40 main_v39 main_v41 (addf : (⟨S16384x2, .f32⟩ : BufTy).Contents (Elt F) → (⟨S16384x2, .f32⟩ : BufTy).Contents (Elt F) → (⟨S16384x2, .f32⟩ : BufTy).Contents (Elt F)),
    nullary main_cst_0 (constant S_ .f32 0x3F800000#32),
    unary main_cst_0 main_v42 (broadcastInDim S16384x2 ![] bcast_S_S16384x2 : (⟨S_, .f32⟩ : BufTy).Contents (Elt F) → (⟨S16384x2, .f32⟩ : BufTy).Contents (Elt F)),
    binary main_v42 main_v41 main_v43 (Host.divf : (⟨S16384x2, .f32⟩ : BufTy).Contents (Elt F) → (⟨S16384x2, .f32⟩ : BufTy).Contents (Elt F) → (⟨S16384x2, .f32⟩ : BufTy).Contents (Elt F)) ]

set_option maxRecDepth 8192 in
set_option maxHeartbeats 1600000 in
/-- @main is that straight line: the functions' definitions unfolded at their calls, the sequencing reassociated. -/
theorem main_eq (c : Dev nD) : main (F := F) c = seq ops := by
  simp only [main, fn_take.body, fn_take_0.body, fn_take_1.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nary_bufs_sub .., binary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub ..⟩

end Cert.ReferenceIdeal.RefRun

end
-- ==== Proof.RefRunWin.lean ====
/-
  The reference's list of operations cut into ten consecutive stretches — one per table lookup, one per inner
  concatenation, and the last (the outer concatenations, the three affine layers, the logistic function) — and,
  for each stretch over ANY contents of the buffers before it: what it leaves in the buffer the later stretches
  read, as the reference term's function of the buffers it reads; and that every buffer it does not write keeps
  its contents.
-/
import proofs.«154124_g78426102825261_cont_9to1_m_135_12_alg».proof.Proof.RefTerm
import proofs.«154124_g78426102825261_cont_9to1_m_135_12_alg».proof.Proof.RefRunOps
import Idealize.ShloMosaic.Lib.StableHlo.Run
noncomputable section
namespace Cert.ReferenceIdeal.RefRun
open Cert.ReferenceIdeal Idealize.ShloMosaic Idealize.ShloMosaic.TcCoe Idealize.SL.Sem Idealize.ShloMosaic.StableHlo
open Cert.ReferenceIdeal.Facts₀ Cert.ReferenceIdeal.Facts
variable {F : FTy → Type} [FloatOps F] [Facts]

/-- A three-argument function, held closed: the same function, but not a lambda to whoever applies it. -/
def kept3 {α β γ δ : Type} (f : α → β → γ → δ) : α → β → γ → δ := f

/-- A two-argument function, held closed. -/
def kept2 {α β γ : Type} (f : α → β → γ) : α → β → γ := f

/-- A two-operand operation is the same operation with its function held closed. -/
theorem keep_binary {τ : Topo} {sig : RefSig} {Val : EltTy → Type} (a b y : Ref sig .tc)
    (f : a.ty.Contents Val → b.ty.Contents Val → y.ty.Contents Val)
    (ha : a.space ≠ .host ∧ (a : DevRef τ sig).isScoped = false)
    (hb : b.space ≠ .host ∧ (b : DevRef τ sig).isScoped = false)
    (hy : y.space ≠ .host ∧ (y : DevRef τ sig).isScoped = false) :
    StableHlo.binary (τ := τ) (Val := Val) a b y f ha hb hy = StableHlo.binary (τ := τ) (Val := Val) a b y (kept2 f) ha hb hy := rfl

/-- An operation over a literal family of three references leaves its result buffer at its function of the three
    operands' contents, each read at its own reference, the function held closed. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = kept3 (fun (u : x.ty.Contents Val) (v : a.ty.Contents Val) (w : b.ty.Contents Val) =>
          f (Fin.cons u (Fin.cons v (Fin.cons w (fun i => i.elim0)))))
          (F (Proc.devRef .tc x)) (F (Proc.devRef .tc a)) (F (Proc.devRef .tc b)) := by
  rw [nary_result]; unfold kept3; congr 1; funext k; fin_cases k <;> rfl

/-- The buffer an operation writes is among a list that names it. -/
theorem writes_sub {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Three 4-column arrays side by side. -/
def cat12 (a b c : FVec F S16384x4 .f32) : FVec F S16384x12 .f32 :=
  concatenate S16384x12 1 [⟨S16384x4, a⟩, ⟨S16384x4, b⟩, ⟨S16384x4, c⟩] concatenates_S16384x4_S16384x4_S16384x4_S16384x12_d1
/-- Three 6-column arrays side by side. -/
def cat18 (a b c : FVec F S16384x6 .f32) : FVec F S16384x18 .f32 :=
  concatenate S16384x18 1 [⟨S16384x6, a⟩, ⟨S16384x6, b⟩, ⟨S16384x6, c⟩] concatenates_S16384x6_S16384x6_S16384x6_S16384x18_d1
/-- The 12-, 18- and 8-column arrays side by side. -/
def cat38 (a : FVec F S16384x12 .f32) (b : FVec F S16384x18 .f32) (c : FVec F S16384x8 .f32) : FVec F S16384x38 .f32 :=
  concatenate S16384x38 1 [⟨S16384x12, a⟩, ⟨S16384x18, b⟩, ⟨S16384x8, c⟩] concatenates_S16384x12_S16384x18_S16384x8_S16384x38_d1
/-- The 38 lookup columns, then the 6 feature columns. -/
def cat44 (a : FVec F S16384x38 .f32) (b : FVec F S16384x6 .f32) : FVec F S16384x44 .f32 :=
  concatenate S16384x44 1 [⟨S16384x38, a⟩, ⟨S16384x6, b⟩] concatenates_S16384x38_S16384x6_S16384x44_d1

/-- Operations 0 … 24 of the list. -/
def w0 : List (HloOp τ sig (Elt F)) :=
  [
    unary main_arg1 main_v0 ((extractStridedSlice S16384x1 ![0, 0] · slices_S16384x3_S16384x1_0_0) : (⟨S16384x3, .i32⟩ : BufTy).Contents (Elt F) → (⟨S16384x1, .i32⟩ : BufTy).Contents (Elt F)),
    reshape main_v0 main_v1 rfl shapeCasts_S16384x1_S16384,
    TRef.nullary main_call0.c (constantI S_ 32 0#32),
    TRef.unary main_call0.c main_call0.v0 (broadcastInDim S16384 ![] bcast_S_S16384),
    TRef.binary (.of main_v1 : TRef sig ⟨S16384, .i32⟩) main_call0.v0 main_call0.v1 (cmpi .slt),
    TRef.nullary main_call0.c_0 (constantI S_ 32 2#32),
    TRef.unary main_call0.c_0 main_call0.v2 (broadcastInDim S16384 ![] bcast_S_S16384),
    TRef.binary (.of main_v1 : TRef sig ⟨S16384, .i32⟩) main_call0.v2 main_call0.v3 addi,
    TRef.ternary main_call0.v1 main_call0.v3 (.of main_v1 : TRef sig ⟨S16384, .i32⟩) main_call0.call0.v0 select,
    TRef.unary main_call0.call0.v0 main_call0.v5 (broadcastInDim S16384x1 ![0] bcast_S16384_S16384x1_0),
    TRef.nullary main_call0.c_1 (constantI S1 32 1#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg4 : TRef sig ⟨S2x4, .f32⟩) main_call0.v5 main_call0.v13 (fun x i => Host.gather gather_S2x4_S16384x1_S16384x4_1_0_n_n_0_1_14 x i),
    TRef.unary main_call0.v12 main_call0.v14 (broadcastInDim S16384x4 ![0] bcast_S16384_S16384x4_0),
    TRef.nullary main_call0.cst (constant S_ .f32 0x7FC00000#32),
    TRef.unary main_call0.cst main_call0.v15 (broadcastInDim S16384x4 ![] bcast_S_S16384x4),
    TRef.ternary main_call0.v14 main_call0.v13 main_call0.v15 main_call0.v16 select ]

/-- The buffers they write. -/
def W_w0 : List (Ref sig .tc) := [main_v0, main_v1, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]

/-- Any other buffer keeps its contents through them. -/
theorem frame_w0 (X : Valuation τ sig (Elt F)) {r : Ref sig .tc} (hr : r ∉ W_w0) :
    after (w0 (F := F)) X (no_index (Proc.devRef .tc r)) = X (Proc.devRef .tc r) :=
  after_of_writes_sub w0 X
    ⟨writes_sub (y := main_v0) (by decide),
     writes_sub (y := main_v1) (by decide),
     writes_sub (y := main_call0.c.ref) (by decide),
     writes_sub (y := main_call0.v0.ref) (by decide),
     writes_sub (y := main_call0.v1.ref) (by decide),
     writes_sub (y := main_call0.c_0.ref) (by decide),
     writes_sub (y := main_call0.v2.ref) (by decide),
     writes_sub (y := main_call0.v3.ref) (by decide),
     writes_sub (y := main_call0.call0.v0.ref) (by decide),
     writes_sub (y := main_call0.v5.ref) (by decide),
     writes_sub (y := main_call0.c_1.ref) (by decide),
     writes_sub (y := main_call0.c_2.ref) (by decide),
     writes_sub (y := main_call0.v6.ref) (by decide),
     writes_sub (y := main_call0.v7.ref) (by decide),
     writes_sub (y := main_call0.v8.ref) (by decide),
     writes_sub (y := main_call0.v9.ref) (by decide),
     writes_sub (y := main_call0.v10.ref) (by decide),
     writes_sub (y := main_call0.v11.ref) (by decide),
     writes_sub (y := main_call0.c_3.ref) (by decide),
     writes_sub (y := main_call0.v12.ref) (by decide),
     writes_sub (y := main_call0.v13.ref) (by decide),
     writes_sub (y := main_call0.v14.ref) (by decide),
     writes_sub (y := main_call0.cst.ref) (by decide),
     writes_sub (y := main_call0.v15.ref) (by decide),
     writes_sub (y := main_call0.v16.ref) (by decide)⟩ hr

/-- Operations 25 … 49 of the list. -/
def w1 : List (HloOp τ sig (Elt F)) :=
  [
    unary main_arg1 main_v3 ((extractStridedSlice S16384x1 ![0, 1] · slices_S16384x3_S16384x1_0_1) : (⟨S16384x3, .i32⟩ : BufTy).Contents (Elt F) → (⟨S16384x1, .i32⟩ : BufTy).Contents (Elt F)),
    reshape main_v3 main_v4 rfl shapeCasts_S16384x1_S16384,
    TRef.nullary main_call1.c (constantI S_ 32 0#32),
    TRef.unary main_call1.c main_call1.v0 (broadcastInDim S16384 ![] bcast_S_S16384),
    TRef.binary (.of main_v4 : TRef sig ⟨S16384, .i32⟩) main_call1.v0 main_call1.v1 (cmpi .slt),
    TRef.nullary main_call1.c_0 (constantI S_ 32 2#32),
    TRef.unary main_call1.c_0 main_call1.v2 (broadcastInDim S16384 ![] bcast_S_S16384),
    TRef.binary (.of main_v4 : TRef sig ⟨S16384, .i32⟩) main_call1.v2 main_call1.v3 addi,
    TRef.ternary main_call1.v1 main_call1.v3 (.of main_v4 : TRef sig ⟨S16384, .i32⟩) main_call1.call0.v0 select,
    TRef.unary main_call1.call0.v0 main_call1.v5 (broadcastInDim S16384x1 ![0] bcast_S16384_S16384x1_0),
    TRef.nullary main_call1.c_1 (constantI S1 32 1#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg5 : TRef sig ⟨S2x4, .f32⟩) main_call1.v5 main_call1.v13 (fun x i => Host.gather gather_S2x4_S16384x1_S16384x4_1_0_n_n_0_1_14 x i),
    TRef.unary main_call1.v12 main_call1.v14 (broadcastInDim S16384x4 ![0] bcast_S16384_S16384x4_0),
    TRef.nullary main_call1.cst (constant S_ .f32 0x7FC00000#32),
    TRef.unary main_call1.cst main_call1.v15 (broadcastInDim S16384x4 ![] bcast_S_S16384x4),
    TRef.ternary main_call1.v14 main_call1.v13 main_call1.v15 main_call1.v16 select ]

/-- The buffers they write. -/
def W_w1 : List (Ref sig .tc) := [main_v3, main_v4, main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]

/-- Any other buffer keeps its contents through them. -/
theorem frame_w1 (X : Valuation τ sig (Elt F)) {r : Ref sig .tc} (hr : r ∉ W_w1) :
    after (w1 (F := F)) X (no_index (Proc.devRef .tc r)) = X (Proc.devRef .tc r) :=
  after_of_writes_sub w1 X
    ⟨writes_sub (y := main_v3) (by decide),
     writes_sub (y := main_v4) (by decide),
     writes_sub (y := main_call1.c.ref) (by decide),
     writes_sub (y := main_call1.v0.ref) (by decide),
     writes_sub (y := main_call1.v1.ref) (by decide),
     writes_sub (y := main_call1.c_0.ref) (by decide),
     writes_sub (y := main_call1.v2.ref) (by decide),
     writes_sub (y := main_call1.v3.ref) (by decide),
     writes_sub (y := main_call1.call0.v0.ref) (by decide),
     writes_sub (y := main_call1.v5.ref) (by decide),
     writes_sub (y := main_call1.c_1.ref) (by decide),
     writes_sub (y := main_call1.c_2.ref) (by decide),
     writes_sub (y := main_call1.v6.ref) (by decide),
     writes_sub (y := main_call1.v7.ref) (by decide),
     writes_sub (y := main_call1.v8.ref) (by decide),
     writes_sub (y := main_call1.v9.ref) (by decide),
     writes_sub (y := main_call1.v10.ref) (by decide),
     writes_sub (y := main_call1.v11.ref) (by decide),
     writes_sub (y := main_call1.c_3.ref) (by decide),
     writes_sub (y := main_call1.v12.ref) (by decide),
     writes_sub (y := main_call1.v13.ref) (by decide),
     writes_sub (y := main_call1.v14.ref) (by decide),
     writes_sub (y := main_call1.cst.ref) (by decide),
     writes_sub (y := main_call1.v15.ref) (by decide),
     writes_sub (y := main_call1.v16.ref) (by decide)⟩ hr

/-- Operations 50 … 74 of the list. -/
def w2 : List (HloOp τ sig (Elt F)) :=
  [
    unary main_arg1 main_v6 ((extractStridedSlice S16384x1 ![0, 2] · slices_S16384x3_S16384x1_0_2) : (⟨S16384x3, .i32⟩ : BufTy).Contents (Elt F) → (⟨S16384x1, .i32⟩ : BufTy).Contents (Elt F)),
    reshape main_v6 main_v7 rfl shapeCasts_S16384x1_S16384,
    TRef.nullary main_call2.c (constantI S_ 32 0#32),
    TRef.unary main_call2.c main_call2.v0 (broadcastInDim S16384 ![] bcast_S_S16384),
    TRef.binary (.of main_v7 : TRef sig ⟨S16384, .i32⟩) main_call2.v0 main_call2.v1 (cmpi .slt),
    TRef.nullary main_call2.c_0 (constantI S_ 32 2#32),
    TRef.unary main_call2.c_0 main_call2.v2 (broadcastInDim S16384 ![] bcast_S_S16384),
    TRef.binary (.of main_v7 : TRef sig ⟨S16384, .i32⟩) main_call2.v2 main_call2.v3 addi,
    TRef.ternary main_call2.v1 main_call2.v3 (.of main_v7 : TRef sig ⟨S16384, .i32⟩) main_call2.call0.v0 select,
    TRef.unary main_call2.call0.v0 main_call2.v5 (broadcastInDim S16384x1 ![0] bcast_S16384_S16384x1_0),
    TRef.nullary main_call2.c_1 (constantI S1 32 1#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg6 : TRef sig ⟨S2x4, .f32⟩) main_call2.v5 main_call2.v13 (fun x i => Host.gather gather_S2x4_S16384x1_S16384x4_1_0_n_n_0_1_14 x i),
    TRef.unary main_call2.v12 main_call2.v14 (broadcastInDim S16384x4 ![0] bcast_S16384_S16384x4_0),
    TRef.nullary main_call2.cst (constant S_ .f32 0x7FC00000#32),
    TRef.unary main_call2.cst main_call2.v15 (broadcastInDim S16384x4 ![] bcast_S_S16384x4),
    TRef.ternary main_call2.v14 main_call2.v13 main_call2.v15 main_call2.v16 select ]

/-- The buffers they write. -/
def W_w2 : List (Ref sig .tc) := [main_v6, main_v7, main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]

/-- Any other buffer keeps its contents through them. -/
theorem frame_w2 (X : Valuation τ sig (Elt F)) {r : Ref sig .tc} (hr : r ∉ W_w2) :
    after (w2 (F := F)) X (no_index (Proc.devRef .tc r)) = X (Proc.devRef .tc r) :=
  after_of_writes_sub w2 X
    ⟨writes_sub (y := main_v6) (by decide),
     writes_sub (y := main_v7) (by decide),
     writes_sub (y := main_call2.c.ref) (by decide),
     writes_sub (y := main_call2.v0.ref) (by decide),
     writes_sub (y := main_call2.v1.ref) (by decide),
     writes_sub (y := main_call2.c_0.ref) (by decide),
     writes_sub (y := main_call2.v2.ref) (by decide),
     writes_sub (y := main_call2.v3.ref) (by decide),
     writes_sub (y := main_call2.call0.v0.ref) (by decide),
     writes_sub (y := main_call2.v5.ref) (by decide),
     writes_sub (y := main_call2.c_1.ref) (by decide),
     writes_sub (y := main_call2.c_2.ref) (by decide),
     writes_sub (y := main_call2.v6.ref) (by decide),
     writes_sub (y := main_call2.v7.ref) (by decide),
     writes_sub (y := main_call2.v8.ref) (by decide),
     writes_sub (y := main_call2.v9.ref) (by decide),
     writes_sub (y := main_call2.v10.ref) (by decide),
     writes_sub (y := main_call2.v11.ref) (by decide),
     writes_sub (y := main_call2.c_3.ref) (by decide),
     writes_sub (y := main_call2.v12.ref) (by decide),
     writes_sub (y := main_call2.v13.ref) (by decide),
     writes_sub (y := main_call2.v14.ref) (by decide),
     writes_sub (y := main_call2.cst.ref) (by decide),
     writes_sub (y := main_call2.v15.ref) (by decide),
     writes_sub (y := main_call2.v16.ref) (by decide)⟩ hr

/-- Operations 75 … 75 of the list. -/
def c9 : List (HloOp τ sig (Elt F)) :=
  [
    nary ![main_v2, main_v5, main_v8] main_v9 (fun u => concatenate S16384x12 1 [⟨S16384x4, u 0⟩, ⟨S16384x4, u 1⟩, ⟨S16384x4, u 2⟩] concatenates_S16384x4_S16384x4_S16384x4_S16384x12_d1) ]

/-- The buffers they write. -/
def W_c9 : List (Ref sig .tc) := [main_v9]

/-- Any other buffer keeps its contents through them. -/
theorem frame_c9 (X : Valuation τ sig (Elt F)) {r : Ref sig .tc} (hr : r ∉ W_c9) :
    after (c9 (F := F)) X (no_index (Proc.devRef .tc r)) = X (Proc.devRef .tc r) :=
  after_of_writes_sub c9 X
    (writes_sub (y := main_v9) (by decide)) hr

/-- Operations 76 … 100 of the list. -/
def w3 : List (HloOp τ sig (Elt F)) :=
  [
    unary main_arg2 main_v10 ((extractStridedSlice S16384x1 ![0, 0] · slices_S16384x3_S16384x1_0_0) : (⟨S16384x3, .i32⟩ : BufTy).Contents (Elt F) → (⟨S16384x1, .i32⟩ : BufTy).Contents (Elt F)),
    reshape main_v10 main_v11 rfl shapeCasts_S16384x1_S16384,
    TRef.nullary main_call3.c (constantI S_ 32 0#32),
    TRef.unary main_call3.c main_call3.v0 (broadcastInDim S16384 ![] bcast_S_S16384),
    TRef.binary (.of main_v11 : TRef sig ⟨S16384, .i32⟩) main_call3.v0 main_call3.v1 (cmpi .slt),
    TRef.nullary main_call3.c_0 (constantI S_ 32 3#32),
    TRef.unary main_call3.c_0 main_call3.v2 (broadcastInDim S16384 ![] bcast_S_S16384),
    TRef.binary (.of main_v11 : TRef sig ⟨S16384, .i32⟩) main_call3.v2 main_call3.v3 addi,
    TRef.ternary main_call3.v1 main_call3.v3 (.of main_v11 : TRef sig ⟨S16384, .i32⟩) main_call3.call0.v0 select,
    TRef.unary main_call3.call0.v0 main_call3.v5 (broadcastInDim S16384x1 ![0] bcast_S16384_S16384x1_0),
    TRef.nullary main_call3.c_1 (constantI S1 32 2#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg7 : TRef sig ⟨S3x6, .f32⟩) main_call3.v5 main_call3.v13 (fun x i => Host.gather gather_S3x6_S16384x1_S16384x6_1_0_n_n_0_1_16 x i),
    TRef.unary main_call3.v12 main_call3.v14 (broadcastInDim S16384x6 ![0] bcast_S16384_S16384x6_0),
    TRef.nullary main_call3.cst (constant S_ .f32 0x7FC00000#32),
    TRef.unary main_call3.cst main_call3.v15 (broadcastInDim S16384x6 ![] bcast_S_S16384x6),
    TRef.ternary main_call3.v14 main_call3.v13 main_call3.v15 main_call3.v16 select ]

/-- The buffers they write. -/
def W_w3 : List (Ref sig .tc) := [main_v10, main_v11, main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]

/-- Any other buffer keeps its contents through them. -/
theorem frame_w3 (X : Valuation τ sig (Elt F)) {r : Ref sig .tc} (hr : r ∉ W_w3) :
    after (w3 (F := F)) X (no_index (Proc.devRef .tc r)) = X (Proc.devRef .tc r) :=
  after_of_writes_sub w3 X
    ⟨writes_sub (y := main_v10) (by decide),
     writes_sub (y := main_v11) (by decide),
     writes_sub (y := main_call3.c.ref) (by decide),
     writes_sub (y := main_call3.v0.ref) (by decide),
     writes_sub (y := main_call3.v1.ref) (by decide),
     writes_sub (y := main_call3.c_0.ref) (by decide),
     writes_sub (y := main_call3.v2.ref) (by decide),
     writes_sub (y := main_call3.v3.ref) (by decide),
     writes_sub (y := main_call3.call0.v0.ref) (by decide),
     writes_sub (y := main_call3.v5.ref) (by decide),
     writes_sub (y := main_call3.c_1.ref) (by decide),
     writes_sub (y := main_call3.c_2.ref) (by decide),
     writes_sub (y := main_call3.v6.ref) (by decide),
     writes_sub (y := main_call3.v7.ref) (by decide),
     writes_sub (y := main_call3.v8.ref) (by decide),
     writes_sub (y := main_call3.v9.ref) (by decide),
     writes_sub (y := main_call3.v10.ref) (by decide),
     writes_sub (y := main_call3.v11.ref) (by decide),
     writes_sub (y := main_call3.c_3.ref) (by decide),
     writes_sub (y := main_call3.v12.ref) (by decide),
     writes_sub (y := main_call3.v13.ref) (by decide),
     writes_sub (y := main_call3.v14.ref) (by decide),
     writes_sub (y := main_call3.cst.ref) (by decide),
     writes_sub (y := main_call3.v15.ref) (by decide),
     writes_sub (y := main_call3.v16.ref) (by decide)⟩ hr

/-- Operations 101 … 125 of the list. -/
def w4 : List (HloOp τ sig (Elt F)) :=
  [
    unary main_arg2 main_v13 ((extractStridedSlice S16384x1 ![0, 1] · slices_S16384x3_S16384x1_0_1) : (⟨S16384x3, .i32⟩ : BufTy).Contents (Elt F) → (⟨S16384x1, .i32⟩ : BufTy).Contents (Elt F)),
    reshape main_v13 main_v14 rfl shapeCasts_S16384x1_S16384,
    TRef.nullary main_call4.c (constantI S_ 32 0#32),
    TRef.unary main_call4.c main_call4.v0 (broadcastInDim S16384 ![] bcast_S_S16384),
    TRef.binary (.of main_v14 : TRef sig ⟨S16384, .i32⟩) main_call4.v0 main_call4.v1 (cmpi .slt),
    TRef.nullary main_call4.c_0 (constantI S_ 32 3#32),
    TRef.unary main_call4.c_0 main_call4.v2 (broadcastInDim S16384 ![] bcast_S_S16384),
    TRef.binary (.of main_v14 : TRef sig ⟨S16384, .i32⟩) main_call4.v2 main_call4.v3 addi,
    TRef.ternary main_call4.v1 main_call4.v3 (.of main_v14 : TRef sig ⟨S16384, .i32⟩) main_call4.call0.v0 select,
    TRef.unary main_call4.call0.v0 main_call4.v5 (broadcastInDim S16384x1 ![0] bcast_S16384_S16384x1_0),
    TRef.nullary main_call4.c_1 (constantI S1 32 2#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary (.of main_arg8 : TRef sig ⟨S3x6, .f32⟩) main_call4.v5 main_call4.v13 (fun x i => Host.gather gather_S3x6_S16384x1_S16384x6_1_0_n_n_0_1_16 x i),
    TRef.unary main_call4.v12 main_call4.v14 (broadcastInDim S16384x6 ![0] bcast_S16384_S16384x6_0),
    TRef.nullary main_call4.cst (constant S_ .f32 0x7FC00000#32),
    TRef.unary main_call4.cst main_call4.v15 (broadcastInDim S16384x6 ![] bcast_S_S16384x6),
    TRef.ternary main_call4.v14 main_call4.v13 main_call4.v15 main_call4.v16 select ]

/-- The buffers they write. -/
def W_w4 : List (Ref sig .tc) := [main_v13, main_v14, main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref]

/-- Any other buffer keeps its contents through them. -/
theorem frame_w4 (X : Valuation τ sig (Elt F)) {r : Ref sig .tc} (hr : r ∉ W_w4) :
    after (w4 (F := F)) X (no_index (Proc.devRef .tc r)) = X (Proc.devRef .tc r) :=
  after_of_writes_sub w4 X
    ⟨writes_sub (y := main_v13) (by decide),
     writes_sub (y := main_v14) (by decide),
     writes_sub (y := main_call4.c.ref) (by decide),
     writes_sub (y := main_call4.v0.ref) (by decide),
     writes_sub (y := main_call4.v1.ref) (by decide),
     writes_sub (y := main_call4.c_0.ref) (by decide),
     writes_sub (y := main_call4.v2.ref) (by decide),
     writes_sub (y := main_call4.v3.ref) (by decide),
     writes_sub (y := main_call4.call0.v0.ref) (by decide),
     writes_sub (y := main_call4.v5.ref) (by decide),
     writes_sub (y := main_call4.c_1.ref) (by decide),
     writes_sub (y := main_call4.c_2.ref) (by decide),
     writes_sub (y := main_call4.v6.ref) (by decide),
     writes_sub (y := main_call4.v7.ref) (by decide),
     writes_sub (y := main_call4.v8.ref) (by decide),
     writes_sub (y := main_call4.v9.ref) (by decide),
     writes_sub (y := main_call4.v10.ref) (by decide),
     writes_sub (y := main_call4.v11.ref) (by decide),
     writes_sub (y := main_call4.c_3.ref) (by decide),
     writes_sub (y := main_call4.v12.ref) (by decide),
     writes_sub (y := main_call4.v13.ref) (by decide),
     writes_sub (y := main_call4.v14.ref) (by decide),
     writes_sub (y := main_call4.cst.ref) (by decide),
     writes_sub (y := main_call4.v15.ref) (by decide),
     writes_sub (y := main_call4.v16.ref) (by decide)⟩ hr

/-- Operations 126 … 150 of the list. -/
def w5 : List (HloOp τ sig (Elt F)) :=
  [
    unary main_arg2 main_v16 ((extractStridedSlice S16384x1 ![0, 2] · slices_S16384x3_S16384x1_0_2) : (⟨S16384x3, .i32⟩ : BufTy).Contents (Elt F) → (⟨S16384x1, .i32⟩ : BufTy).Contents (Elt F)),
    reshape main_v16 main_v17 rfl shapeCasts_S16384x1_S16384,
    TRef.nullary main_call5.c (constantI S_ 32 0#32),
    TRef.unary main_call5.c main_call5.v0 (broadcastInDim S16384 ![] bcast_S_S16384),
    TRef.binary (.of main_v17 : TRef sig ⟨S16384, .i32⟩) main_call5.v0 main_call5.v1 (cmpi .slt),
    TRef.nullary main_call5.c_0 (constantI S_ 32 3#32),
    TRef.unary main_call5.c_0 main_call5.v2 (broadcastInDim S16384 ![] bcast_S_S16384),
    TRef.binary (.of main_v17 : TRef sig ⟨S16384, .i32⟩) main_call5.v2 main_call5.v3 addi,
    TRef.ternary main_call5.v1 main_call5.v3 (.of main_v17 : TRef sig ⟨S16384, .i32⟩) main_call5.call0.v0 select,
    TRef.unary main_call5.call0.v0 main_call5.v5 (broadcastInDim S16384x1 ![0] bcast_S16384_S16384x1_0),
    TRef.nullary main_call5.c_1 (constantI S1 32 2#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg9 : TRef sig ⟨S3x6, .f32⟩) main_call5.v5 main_call5.v13 (fun x i => Host.gather gather_S3x6_S16384x1_S16384x6_1_0_n_n_0_1_16 x i),
    TRef.unary main_call5.v12 main_call5.v14 (broadcastInDim S16384x6 ![0] bcast_S16384_S16384x6_0),
    TRef.nullary main_call5.cst (constant S_ .f32 0x7FC00000#32),
    TRef.unary main_call5.cst main_call5.v15 (broadcastInDim S16384x6 ![] bcast_S_S16384x6),
    TRef.ternary main_call5.v14 main_call5.v13 main_call5.v15 main_call5.v16 select ]

/-- The buffers they write. -/
def W_w5 : List (Ref sig .tc) := [main_v16, main_v17, main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref]

/-- Any other buffer keeps its contents through them. -/
theorem frame_w5 (X : Valuation τ sig (Elt F)) {r : Ref sig .tc} (hr : r ∉ W_w5) :
    after (w5 (F := F)) X (no_index (Proc.devRef .tc r)) = X (Proc.devRef .tc r) :=
  after_of_writes_sub w5 X
    ⟨writes_sub (y := main_v16) (by decide),
     writes_sub (y := main_v17) (by decide),
     writes_sub (y := main_call5.c.ref) (by decide),
     writes_sub (y := main_call5.v0.ref) (by decide),
     writes_sub (y := main_call5.v1.ref) (by decide),
     writes_sub (y := main_call5.c_0.ref) (by decide),
     writes_sub (y := main_call5.v2.ref) (by decide),
     writes_sub (y := main_call5.v3.ref) (by decide),
     writes_sub (y := main_call5.call0.v0.ref) (by decide),
     writes_sub (y := main_call5.v5.ref) (by decide),
     writes_sub (y := main_call5.c_1.ref) (by decide),
     writes_sub (y := main_call5.c_2.ref) (by decide),
     writes_sub (y := main_call5.v6.ref) (by decide),
     writes_sub (y := main_call5.v7.ref) (by decide),
     writes_sub (y := main_call5.v8.ref) (by decide),
     writes_sub (y := main_call5.v9.ref) (by decide),
     writes_sub (y := main_call5.v10.ref) (by decide),
     writes_sub (y := main_call5.v11.ref) (by decide),
     writes_sub (y := main_call5.c_3.ref) (by decide),
     writes_sub (y := main_call5.v12.ref) (by decide),
     writes_sub (y := main_call5.v13.ref) (by decide),
     writes_sub (y := main_call5.v14.ref) (by decide),
     writes_sub (y := main_call5.cst.ref) (by decide),
     writes_sub (y := main_call5.v15.ref) (by decide),
     writes_sub (y := main_call5.v16.ref) (by decide)⟩ hr

/-- Operations 151 … 151 of the list. -/
def c19 : List (HloOp τ sig (Elt F)) :=
  [
    nary ![main_v12, main_v15, main_v18] main_v19 (fun u => concatenate S16384x18 1 [⟨S16384x6, u 0⟩, ⟨S16384x6, u 1⟩, ⟨S16384x6, u 2⟩] concatenates_S16384x6_S16384x6_S16384x6_S16384x18_d1) ]

/-- The buffers they write. -/
def W_c19 : List (Ref sig .tc) := [main_v19]

/-- Any other buffer keeps its contents through them. -/
theorem frame_c19 (X : Valuation τ sig (Elt F)) {r : Ref sig .tc} (hr : r ∉ W_c19) :
    after (c19 (F := F)) X (no_index (Proc.devRef .tc r)) = X (Proc.devRef .tc r) :=
  after_of_writes_sub c19 X
    (writes_sub (y := main_v19) (by decide)) hr

/-- Operations 152 … 175 of the list. -/
def w6 : List (HloOp τ sig (Elt F)) :=
  [
    reshape main_arg3 main_v20 rfl shapeCasts_S16384x1_S16384,
    TRef.nullary main_call6.c (constantI S_ 32 0#32),
    TRef.unary main_call6.c main_call6.v0 (broadcastInDim S16384 ![] bcast_S_S16384),
    TRef.binary (.of main_v20 : TRef sig ⟨S16384, .i32⟩) main_call6.v0 main_call6.v1 (cmpi .slt),
    TRef.nullary main_call6.c_0 (constantI S_ 32 4#32),
    TRef.unary main_call6.c_0 main_call6.v2 (broadcastInDim S16384 ![] bcast_S_S16384),
    TRef.binary (.of main_v20 : TRef sig ⟨S16384, .i32⟩) main_call6.v2 main_call6.v3 addi,
    TRef.ternary main_call6.v1 main_call6.v3 (.of main_v20 : TRef sig ⟨S16384, .i32⟩) main_call6.call0.v0 select,
    TRef.unary main_call6.call0.v0 main_call6.v5 (broadcastInDim S16384x1 ![0] bcast_S16384_S16384x1_0),
    TRef.nullary main_call6.c_1 (constantI S1 32 3#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary (.of main_arg10 : TRef sig ⟨S4x8, .f32⟩) main_call6.v5 main_call6.v13 (fun x i => Host.gather gather_S4x8_S16384x1_S16384x8_1_0_n_n_0_1_18 x i),
    TRef.unary main_call6.v12 main_call6.v14 (broadcastInDim S16384x8 ![0] bcast_S16384_S16384x8_0),
    TRef.nullary main_call6.cst (constant S_ .f32 0x7FC00000#32),
    TRef.unary main_call6.cst main_call6.v15 (broadcastInDim S16384x8 ![] bcast_S_S16384x8),
    TRef.ternary main_call6.v14 main_call6.v13 main_call6.v15 main_call6.v16 select ]

/-- The buffers they write. -/
def W_w6 : List (Ref sig .tc) := [main_v20, main_call6.c.ref, main_call6.v0.ref, main_call6.v1.ref, main_call6.c_0.ref, main_call6.v2.ref, main_call6.v3.ref, main_call6.call0.v0.ref, main_call6.v5.ref, main_call6.c_1.ref, main_call6.c_2.ref, main_call6.v6.ref, main_call6.v7.ref, main_call6.v8.ref, main_call6.v9.ref, main_call6.v10.ref, main_call6.v11.ref, main_call6.c_3.ref, main_call6.v12.ref, main_call6.v13.ref, main_call6.v14.ref, main_call6.cst.ref, main_call6.v15.ref, main_call6.v16.ref]

/-- Any other buffer keeps its contents through them. -/
theorem frame_w6 (X : Valuation τ sig (Elt F)) {r : Ref sig .tc} (hr : r ∉ W_w6) :
    after (w6 (F := F)) X (no_index (Proc.devRef .tc r)) = X (Proc.devRef .tc r) :=
  after_of_writes_sub w6 X
    ⟨writes_sub (y := main_v20) (by decide),
     writes_sub (y := main_call6.c.ref) (by decide),
     writes_sub (y := main_call6.v0.ref) (by decide),
     writes_sub (y := main_call6.v1.ref) (by decide),
     writes_sub (y := main_call6.c_0.ref) (by decide),
     writes_sub (y := main_call6.v2.ref) (by decide),
     writes_sub (y := main_call6.v3.ref) (by decide),
     writes_sub (y := main_call6.call0.v0.ref) (by decide),
     writes_sub (y := main_call6.v5.ref) (by decide),
     writes_sub (y := main_call6.c_1.ref) (by decide),
     writes_sub (y := main_call6.c_2.ref) (by decide),
     writes_sub (y := main_call6.v6.ref) (by decide),
     writes_sub (y := main_call6.v7.ref) (by decide),
     writes_sub (y := main_call6.v8.ref) (by decide),
     writes_sub (y := main_call6.v9.ref) (by decide),
     writes_sub (y := main_call6.v10.ref) (by decide),
     writes_sub (y := main_call6.v11.ref) (by decide),
     writes_sub (y := main_call6.c_3.ref) (by decide),
     writes_sub (y := main_call6.v12.ref) (by decide),
     writes_sub (y := main_call6.v13.ref) (by decide),
     writes_sub (y := main_call6.v14.ref) (by decide),
     writes_sub (y := main_call6.cst.ref) (by decide),
     writes_sub (y := main_call6.v15.ref) (by decide),
     writes_sub (y := main_call6.v16.ref) (by decide)⟩ hr

/-- Operations 176 … 199 of the list. -/
def wt : List (HloOp τ sig (Elt F)) :=
  [
    nary ![main_v9, main_v19, main_v21] main_v22 (fun u => concatenate S16384x38 1 [⟨S16384x12, u 0⟩, ⟨S16384x18, u 1⟩, ⟨S16384x8, u 2⟩] concatenates_S16384x12_S16384x18_S16384x8_S16384x38_d1),
    binary main_v22 main_arg0 main_v23 ((fun a b => concatenate S16384x44 1 [⟨S16384x38, a⟩, ⟨S16384x6, b⟩] concatenates_S16384x38_S16384x6_S16384x44_d1) : (⟨S16384x38, .f32⟩ : BufTy).Contents (Elt F) → (⟨S16384x6, .f32⟩ : BufTy).Contents (Elt F) → (⟨S16384x44, .f32⟩ : BufTy).Contents (Elt F)),
    binary main_v23 main_arg11 main_v24 ((fun l r => Host.dotGeneral dot_S16384x44_S44x256_S16384x256_1_0_0_1_n_n none l r) : (⟨S16384x44, .f32⟩ : BufTy).Contents (Elt F) → (⟨S44x256, .f32⟩ : BufTy).Contents (Elt F) → (⟨S16384x256, .f32⟩ : BufTy).Contents (Elt F)),
    unary main_arg12 main_v25 (broadcastInDim S1x256 ![1] bcast_S256_S1x256_1 : (⟨S256, .f32⟩ : BufTy).Contents (Elt F) → (⟨S1x256, .f32⟩ : BufTy).Contents (Elt F)),
    unary main_v25 main_v26 (broadcastInDim S16384x256 ![0, 1] bcast_S1x256_S16384x256_0_1 : (⟨S1x256, .f32⟩ : BufTy).Contents (Elt F) → (⟨S16384x256, .f32⟩ : BufTy).Contents (Elt F)),
    binary main_v24 main_v26 main_v27 (addf : (⟨S16384x256, .f32⟩ : BufTy).Contents (Elt F) → (⟨S16384x256, .f32⟩ : BufTy).Contents (Elt F) → (⟨S16384x256, .f32⟩ : BufTy).Contents (Elt F)),
    unary main_v27 main_v28 (Host.tanh : (⟨S16384x256, .f32⟩ : BufTy).Contents (Elt F) → (⟨S16384x256, .f32⟩ : BufTy).Contents (Elt F)),
    binary main_v28 main_arg13 main_v29 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg14 main_v30 (broadcastInDim S1x128 ![1] bcast_S128_S1x128_1 : (⟨S128, .f32⟩ : BufTy).Contents (Elt F) → (⟨S1x128, .f32⟩ : BufTy).Contents (Elt F)),
    unary main_v30 main_v31 (broadcastInDim S16384x128 ![0, 1] bcast_S1x128_S16384x128_0_1 : (⟨S1x128, .f32⟩ : BufTy).Contents (Elt F) → (⟨S16384x128, .f32⟩ : BufTy).Contents (Elt F)),
    binary main_v29 main_v31 main_v32 (addf : (⟨S16384x128, .f32⟩ : BufTy).Contents (Elt F) → (⟨S16384x128, .f32⟩ : BufTy).Contents (Elt F) → (⟨S16384x128, .f32⟩ : BufTy).Contents (Elt F)),
    unary main_v32 main_v33 (Host.tanh : (⟨S16384x128, .f32⟩ : BufTy).Contents (Elt F) → (⟨S16384x128, .f32⟩ : BufTy).Contents (Elt F)),
    binary main_v33 main_arg15 main_v34 ((fun l r => Host.dotGeneral dot_S16384x128_S128x2_S16384x2_1_0_0_1_n_n none l r) : (⟨S16384x128, .f32⟩ : BufTy).Contents (Elt F) → (⟨S128x2, .f32⟩ : BufTy).Contents (Elt F) → (⟨S16384x2, .f32⟩ : BufTy).Contents (Elt F)),
    unary main_arg16 main_v35 (broadcastInDim S1x2 ![1] bcast_S2_S1x2_1 : (⟨S2, .f32⟩ : BufTy).Contents (Elt F) → (⟨S1x2, .f32⟩ : BufTy).Contents (Elt F)),
    unary main_v35 main_v36 (broadcastInDim S16384x2 ![0, 1] bcast_S1x2_S16384x2_0_1 : (⟨S1x2, .f32⟩ : BufTy).Contents (Elt F) → (⟨S16384x2, .f32⟩ : BufTy).Contents (Elt F)),
    binary main_v34 main_v36 main_v37 (addf : (⟨S16384x2, .f32⟩ : BufTy).Contents (Elt F) → (⟨S16384x2, .f32⟩ : BufTy).Contents (Elt F) → (⟨S16384x2, .f32⟩ : BufTy).Contents (Elt F)),
    unary main_v37 main_v38 (Host.negf : (⟨S16384x2, .f32⟩ : BufTy).Contents (Elt F) → (⟨S16384x2, .f32⟩ : BufTy).Contents (Elt F)),
    unary main_v38 main_v39 (Host.exp : (⟨S16384x2, .f32⟩ : BufTy).Contents (Elt F) → (⟨S16384x2, .f32⟩ : BufTy).Contents (Elt F)),
    nullary main_cst (constant S_ .f32 0x3F800000#32),
    unary main_cst main_v40 (broadcastInDim S16384x2 ![] bcast_S_S16384x2 : (⟨S_, .f32⟩ : BufTy).Contents (Elt F) → (⟨S16384x2, .f32⟩ : BufTy).Contents (Elt F)),
    binary main_v40 main_v39 main_v41 (addf : (⟨S16384x2, .f32⟩ : BufTy).Contents (Elt F) → (⟨S16384x2, .f32⟩ : BufTy).Contents (Elt F) → (⟨S16384x2, .f32⟩ : BufTy).Contents (Elt F)),
    nullary main_cst_0 (constant S_ .f32 0x3F800000#32),
    unary main_cst_0 main_v42 (broadcastInDim S16384x2 ![] bcast_S_S16384x2 : (⟨S_, .f32⟩ : BufTy).Contents (Elt F) → (⟨S16384x2, .f32⟩ : BufTy).Contents (Elt F)),
    binary main_v42 main_v41 main_v43 (Host.divf : (⟨S16384x2, .f32⟩ : BufTy).Contents (Elt F) → (⟨S16384x2, .f32⟩ : BufTy).Contents (Elt F) → (⟨S16384x2, .f32⟩ : BufTy).Contents (Elt F)) ]

/-- The buffers they write. -/
def W_wt : List (Ref sig .tc) := [main_v22, main_v23, main_v24, main_v25, main_v26, main_v27, main_v28, main_v29, main_v30, main_v31, main_v32, main_v33, main_v34, main_v35, main_v36, main_v37, main_v38, main_v39, main_cst, main_v40, main_v41, main_cst_0, main_v42, main_v43]

/-- Any other buffer keeps its contents through them. -/
theorem frame_wt (X : Valuation τ sig (Elt F)) {r : Ref sig .tc} (hr : r ∉ W_wt) :
    after (wt (F := F)) X (no_index (Proc.devRef .tc r)) = X (Proc.devRef .tc r) :=
  after_of_writes_sub wt X
    ⟨writes_sub (y := main_v22) (by decide),
     writes_sub (y := main_v23) (by decide),
     writes_sub (y := main_v24) (by decide),
     writes_sub (y := main_v25) (by decide),
     writes_sub (y := main_v26) (by decide),
     writes_sub (y := main_v27) (by decide),
     writes_sub (y := main_v28) (by decide),
     writes_sub (y := main_v29) (by decide),
     writes_sub (y := main_v30) (by decide),
     writes_sub (y := main_v31) (by decide),
     writes_sub (y := main_v32) (by decide),
     writes_sub (y := main_v33) (by decide),
     writes_sub (y := main_v34) (by decide),
     writes_sub (y := main_v35) (by decide),
     writes_sub (y := main_v36) (by decide),
     writes_sub (y := main_v37) (by decide),
     writes_sub (y := main_v38) (by decide),
     writes_sub (y := main_v39) (by decide),
     writes_sub (y := main_cst) (by decide),
     writes_sub (y := main_v40) (by decide),
     writes_sub (y := main_v41) (by decide),
     writes_sub (y := main_cst_0) (by decide),
     writes_sub (y := main_v42) (by decide),
     writes_sub (y := main_v43) (by decide)⟩ hr

set_option maxRecDepth 100000 in
/-- The lookup these operations make, as a function of the table and the index array they read. -/
theorem val_w0 (X : Valuation τ sig (Elt F)) :
    after (w0 (F := F)) X (no_index (Proc.devRef .tc main_v2)) = RefTerm.take4 (X (Proc.devRef .tc main_arg4)) (RefTerm.col0 (X (Proc.devRef .tc main_arg1))) := by
  unfold w0
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w1 (X : Valuation τ sig (Elt F)) :
    after (w1 (F := F)) X (no_index (Proc.devRef .tc main_v5)) = RefTerm.take4 (X (Proc.devRef .tc main_arg5)) (RefTerm.col1 (X (Proc.devRef .tc main_arg1))) := by
  unfold w1
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w2 (X : Valuation τ sig (Elt F)) :
    after (w2 (F := F)) X (no_index (Proc.devRef .tc main_v8)) = RefTerm.take4 (X (Proc.devRef .tc main_arg6)) (RefTerm.col2 (X (Proc.devRef .tc main_arg1))) := by
  unfold w2
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w3 (X : Valuation τ sig (Elt F)) :
    after (w3 (F := F)) X (no_index (Proc.devRef .tc main_v12)) = RefTerm.take6 (X (Proc.devRef .tc main_arg7)) (RefTerm.col0 (X (Proc.devRef .tc main_arg2))) := by
  unfold w3
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w4 (X : Valuation τ sig (Elt F)) :
    after (w4 (F := F)) X (no_index (Proc.devRef .tc main_v15)) = RefTerm.take6 (X (Proc.devRef .tc main_arg8)) (RefTerm.col1 (X (Proc.devRef .tc main_arg2))) := by
  unfold w4
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w5 (X : Valuation τ sig (Elt F)) :
    after (w5 (F := F)) X (no_index (Proc.devRef .tc main_v18)) = RefTerm.take6 (X (Proc.devRef .tc main_arg9)) (RefTerm.col2 (X (Proc.devRef .tc main_arg2))) := by
  unfold w5
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
/-- The lookup these operations make, as a function of the table and the index array they read. -/
theorem val_w6 (X : Valuation τ sig (Elt F)) :
    after (w6 (F := F)) X (no_index (Proc.devRef .tc main_v21)) = RefTerm.take8 (X (Proc.devRef .tc main_arg10)) (RefTerm.colOnly (X (Proc.devRef .tc main_arg3))) := by
  unfold w6
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
theorem val_c9 (X : Valuation τ sig (Elt F)) :
    after (c9 (F := F)) X (no_index (Proc.devRef .tc main_v9)) = cat12 (X (Proc.devRef .tc main_v2)) (X (Proc.devRef .tc main_v5)) (X (Proc.devRef .tc main_v8)) := by
  unfold c9
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
theorem val_c19 (X : Valuation τ sig (Elt F)) :
    after (c19 (F := F)) X (no_index (Proc.devRef .tc main_v19)) = cat18 (X (Proc.devRef .tc main_v12)) (X (Proc.devRef .tc main_v15)) (X (Proc.devRef .tc main_v18)) := by
  unfold c19
  simp (disch := decide) only [after_cons, after_nil, cast_eq,
    nullary_result', unary_result', binary_result', ternary_result', reshape_result', nary3_result',
    nullary_result_ne', unary_result_ne', binary_result_ne', ternary_result_ne', reshape_result_ne', nary_result_ne']
  rfl

set_option maxRecDepth 100000 in
set_option maxHeartbeats 1000000 in
/-- The last stretch: the two outer concatenations, the three affine layers and the logistic function. -/
theorem val_wt (X : Valuation τ sig (Elt F)) :
    after (wt (F := F)) X (no_index (Proc.devRef .tc main_v43))
      = RefTerm.logistic (RefTerm.layer3 (RefTerm.layer2 (RefTerm.layer1
          (cat44 (cat38 (X (Proc.devRef .tc main_v9)) (X (Proc.devRef .tc main_v19)) (X (Proc.devRef .tc main_v21))) (X (Proc.devRef .tc main_arg0)))
          (X (Proc.devRef .tc main_arg11)) (X (Proc.devRef .tc main_arg12))) (X (Proc.devRef .tc main_arg13)) (X (Proc.devRef .tc main_arg14))) (X (Proc.devRef .tc main_arg15)) (X (Proc.devRef .tc main_arg16))) := by
  unfold wt
  rw [keep_binary main_v22 main_arg0 main_v23]
  simp (disch := decide) only [after_cons, after_nil, cast_eq,
    nullary_result', unary_result', binary_result', ternary_result', reshape_result', nary3_result',
    nullary_result_ne', unary_result_ne', binary_result_ne', ternary_result_ne', reshape_result_ne', nary_result_ne']
  rfl

end Cert.ReferenceIdeal.RefRun
end
-- ==== Proof.RefRunArgs.lean ====
/-
  The reference's seventeen argument arrays are not written by any of its operations: each operation writes one
  array, and that array is one of the values the program computes (numbered from 17 on), never an argument
  (numbered 0 to 16). So the arguments hold, after the whole line of operations, what they held before it.
-/
import proofs.«154124_g78426102825261_cont_9to1_m_135_12_alg».proof.Proof.RefRunOps
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
/-- Every operation writes exactly one array, and it is a computed value: its number is at least 17. -/
theorem ops_writes : (ops : List (HloOp τ sig (Elt F))).Forall fun op =>
    ∃ y : Ref sig .tc, op.writes = {Proc.devRef (τ := τ) .tc y} ∧ 17 ≤ y.idx.val :=
  ⟨
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

/-- An array numbered below 17 holds after the operations what it held before them. -/
theorem after_ops_of_lt (V : Valuation τ sig (Elt F)) (b : Ref sig .tc) (hb : b.idx.val < 17) :
    after ops V (Proc.devRef .tc b) = V (Proc.devRef .tc b) :=
  after_of_forall_not_mem ops V fun op hop hmem => by
    obtain ⟨y, hw, hy⟩ := (List.forall_iff_forall_mem.mp ops_writes) op hop
    rw [hw, Finset.mem_singleton] at hmem
    have e : b = y := Proc.devRef_injective _ hmem
    subst e
    omega

/-- No operation writes argument 0. -/
theorem arg0_eq (V : Valuation τ sig (Elt F)) :
    after ops V (main_arg0 : DevRef τ sig) = V (main_arg0 : DevRef τ sig) :=
  after_ops_of_lt V main_arg0 (by decide)

/-- No operation writes argument 1. -/
theorem arg1_eq (V : Valuation τ sig (Elt F)) :
    after ops V (main_arg1 : DevRef τ sig) = V (main_arg1 : DevRef τ sig) :=
  after_ops_of_lt V main_arg1 (by decide)

/-- No operation writes argument 2. -/
theorem arg2_eq (V : Valuation τ sig (Elt F)) :
    after ops V (main_arg2 : DevRef τ sig) = V (main_arg2 : DevRef τ sig) :=
  after_ops_of_lt V main_arg2 (by decide)

/-- No operation writes argument 3. -/
theorem arg3_eq (V : Valuation τ sig (Elt F)) :
    after ops V (main_arg3 : DevRef τ sig) = V (main_arg3 : DevRef τ sig) :=
  after_ops_of_lt V main_arg3 (by decide)

/-- No operation writes argument 4. -/
theorem arg4_eq (V : Valuation τ sig (Elt F)) :
    after ops V (main_arg4 : DevRef τ sig) = V (main_arg4 : DevRef τ sig) :=
  after_ops_of_lt V main_arg4 (by decide)

/-- No operation writes argument 5. -/
theorem arg5_eq (V : Valuation τ sig (Elt F)) :
    after ops V (main_arg5 : DevRef τ sig) = V (main_arg5 : DevRef τ sig) :=
  after_ops_of_lt V main_arg5 (by decide)

/-- No operation writes argument 6. -/
theorem arg6_eq (V : Valuation τ sig (Elt F)) :
    after ops V (main_arg6 : DevRef τ sig) = V (main_arg6 : DevRef τ sig) :=
  after_ops_of_lt V main_arg6 (by decide)

/-- No operation writes argument 7. -/
theorem arg7_eq (V : Valuation τ sig (Elt F)) :
    after ops V (main_arg7 : DevRef τ sig) = V (main_arg7 : DevRef τ sig) :=
  after_ops_of_lt V main_arg7 (by decide)

/-- No operation writes argument 8. -/
theorem arg8_eq (V : Valuation τ sig (Elt F)) :
    after ops V (main_arg8 : DevRef τ sig) = V (main_arg8 : DevRef τ sig) :=
  after_ops_of_lt V main_arg8 (by decide)

/-- No operation writes argument 9. -/
theorem arg9_eq (V : Valuation τ sig (Elt F)) :
    after ops V (main_arg9 : DevRef τ sig) = V (main_arg9 : DevRef τ sig) :=
  after_ops_of_lt V main_arg9 (by decide)

/-- No operation writes argument 10. -/
theorem arg10_eq (V : Valuation τ sig (Elt F)) :
    after ops V (main_arg10 : DevRef τ sig) = V (main_arg10 : DevRef τ sig) :=
  after_ops_of_lt V main_arg10 (by decide)

/-- No operation writes argument 11. -/
theorem arg11_eq (V : Valuation τ sig (Elt F)) :
    after ops V (main_arg11 : DevRef τ sig) = V (main_arg11 : DevRef τ sig) :=
  after_ops_of_lt V main_arg11 (by decide)

/-- No operation writes argument 12. -/
theorem arg12_eq (V : Valuation τ sig (Elt F)) :
    after ops V (main_arg12 : DevRef τ sig) = V (main_arg12 : DevRef τ sig) :=
  after_ops_of_lt V main_arg12 (by decide)

/-- No operation writes argument 13. -/
theorem arg13_eq (V : Valuation τ sig (Elt F)) :
    after ops V (main_arg13 : DevRef τ sig) = V (main_arg13 : DevRef τ sig) :=
  after_ops_of_lt V main_arg13 (by decide)

/-- No operation writes argument 14. -/
theorem arg14_eq (V : Valuation τ sig (Elt F)) :
    after ops V (main_arg14 : DevRef τ sig) = V (main_arg14 : DevRef τ sig) :=
  after_ops_of_lt V main_arg14 (by decide)

/-- No operation writes argument 15. -/
theorem arg15_eq (V : Valuation τ sig (Elt F)) :
    after ops V (main_arg15 : DevRef τ sig) = V (main_arg15 : DevRef τ sig) :=
  after_ops_of_lt V main_arg15 (by decide)

/-- No operation writes argument 16. -/
theorem arg16_eq (V : Valuation τ sig (Elt F)) :
    after ops V (main_arg16 : DevRef τ sig) = V (main_arg16 : DevRef τ sig) :=
  after_ops_of_lt V main_arg16 (by decide)

end Cert.ReferenceIdeal.RefRun

end
-- ==== Proof.RefRun.lean ====
/-
  The reference's run read back. Its list of operations is the ten stretches of the previous module, one after the
  other; reading the result buffer back through them — each stretch's value where it writes, its frame elsewhere —
  gives the reference term of the arguments' contents at launch. Every weakly fair execution of @main therefore
  terminates with the result buffer at that term and the seventeen argument buffers unchanged.
-/
import proofs.«154124_g78426102825261_cont_9to1_m_135_12_alg».proof.Proof.RefTerm
import proofs.«154124_g78426102825261_cont_9to1_m_135_12_alg».proof.Proof.RefRunOps
import proofs.«154124_g78426102825261_cont_9to1_m_135_12_alg».proof.Proof.RefRunWin
import proofs.«154124_g78426102825261_cont_9to1_m_135_12_alg».proof.Proof.RefRunArgs
import Idealize.ShloMosaic.Lib.StableHlo.Run
noncomputable section
namespace Cert.ReferenceIdeal.RefRun
open Cert.ReferenceIdeal Idealize.ShloMosaic Idealize.ShloMosaic.TcCoe Idealize.SL.Sem Idealize.ShloMosaic.StableHlo
open Cert.ReferenceIdeal.Facts₀ Cert.ReferenceIdeal.Facts
variable {F : FTy → Type} [FloatOps F] [Facts]

/-- Running two lists one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 100000 in
/-- The list is its ten stretches in order. -/
theorem ops_split : (ops : List (HloOp τ sig (Elt F)))
    = w0 ++ (w1 ++ (w2 ++ (c9 ++ (w3 ++ (w4 ++ (w5 ++ (c19 ++ (w6 ++ wt)))))))) := rfl

set_option maxRecDepth 100000 in
set_option maxHeartbeats 1000000 in
/-- The result buffer after the whole list is the reference term of the arguments' contents before it. -/
theorem out_eq (V : Valuation τ sig (Elt F)) :
    after ops V (main_v43 : DevRef τ sig) = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [ops_split]
  simp only [after_append]
  simp (disch := decide) only [val_wt, val_w6, val_c19, val_w5, val_w4, val_w3, val_c9, val_w2, val_w1, val_w0,
    frame_wt, frame_w6, frame_c19, frame_w5, frame_w4, frame_w3, frame_c9, frame_w2, frame_w1, frame_w0]
  rfl

/-- On every device, for any float values, from any memory with zero counters: every weakly fair execution of
    @main terminates with the result at the reference term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = RefTerm.refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩)
    (run_seq scopedRefs_eq scopedSems_eq defs main (fun _ => ops) main_eq (fun _ => ops_sub) m ρ)

end Cert.ReferenceIdeal.RefRun
end
-- ==== Proof.RefFrame.lean ====
/-
  The reference runs and leaves its arguments unchanged: the frame half of its run.
-/
import proofs.«154124_g78426102825261_cont_9to1_m_135_12_alg».proof.Defs
import proofs.«154124_g78426102825261_cont_9to1_m_135_12_alg».proof.Proof.RefRun

namespace Cert.Proof.RefClaims

open Idealize.ShloMosaic Idealize.ShloMosaic.TcCoe Idealize.SL.Sem

/-- Every weakly fair execution of the reference terminates, and its seventeen argument arrays end unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.RefRun.run (F := Ideal) m ρ)

end Cert.Proof.RefClaims
-- ==== Proof.KValueBlocks.lean ====
/-
  The blocks the kernel region reads, as entries of the arrays the region finds: the block of packed rows at a grid
  point is that point's 4096 rows of the packed array; every other input block is its whole array.
-/
import proofs.«154124_g78426102825261_cont_9to1_m_135_12_alg».proof.Proof.KFrameDefsIdeal
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The printed index maps, decided over the four grid points: the packed rows and the result move with the point
    along the rows; every other window sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = t.val ∧ win0_15.index t (1 : Fin 2) = 0 :=
  (by decide +kernel : ∀ t : Fin grid0.N, _)

/-- The block of packed rows at point `t` is rows `4096 t … 4096 t + 4095` of the packed array. -/
theorem iblk0_apply (t : Fin cfg0.N) (p : Fin 4096) (l : Fin 18) (r : Fin 16384) (hr : r.val = t.val * 4096 + p.val) :
    (Hand.iblk m c 0 t : S4096x18.Idx → EReal) (ix2 p l) = (Hand.V m c main_v4 : S16384x18.Idx → EReal) (ix2 r l) := by
  obtain ⟨e0, e1, -, -, -, -, -, -, -, -, -, -, -, -, -, -, -, -, -, -, -, -, -, -, -, -, -, -, -, -, -, -⟩ := idx_facts t
  unfold Hand.iblk
  rw [View.read_apply]
  show Hand.V m c main_v4 _ = Hand.V m c main_v4 _
  congr 1
  funext a
  apply Fin.ext
  match a with
  | ⟨0, _⟩ => show win0_0.index t (0 : Fin 2) * 4096 + 1 * p.val = r.val; omega
  | ⟨1, _⟩ => show win0_0.index t (1 : Fin 2) * 18 + 1 * l.val = l.val; omega

/-- Window 1's block is its whole array at every point. -/
theorem iblk1_eq (t : Fin cfg0.N) : (Hand.iblk m c 1 t : S1x18.Idx → EReal) = (Hand.V m c main_v0 : S1x18.Idx → EReal) := by
  obtain ⟨-, -, e0, e1, -, -, -, -, -, -, -, -, -, -, -, -, -, -, -, -, -, -, -, -, -, -, -, -, -, -, -, -⟩ := idx_facts t
  funext y
  unfold Hand.iblk
  rw [View.read_apply]
  show Hand.V m c main_v0 _ = Hand.V m c main_v0 y
  congr 1
  funext a
  apply Fin.ext
  match a with
  | ⟨0, _⟩ => show win0_1.index t (0 : Fin 2) * 1 + 1 * (y 0).val = (y 0).val; omega
  | ⟨1, _⟩ => show win0_1.index t (1 : Fin 2) * 18 + 1 * (y 1).val = (y 1).val; omega

/-- Window 2's block is its whole array at every point. -/
theorem iblk2_eq (t : Fin cfg0.N) : (Hand.iblk m c 2 t : S2x4.Idx → EReal) = (Hand.V m c main_arg4 : S2x4.Idx → EReal) := by
  obtain ⟨-, -, -, -, e0, e1, -, -, -, -, -, -, -, -, -, -, -, -, -, -, -, -, -, -, -, -, -, -, -, -, -, -⟩ := idx_facts t
  funext y
  unfold Hand.iblk
  rw [View.read_apply]
  show Hand.V m c main_arg4 _ = Hand.V m c main_arg4 y
  congr 1
  funext a
  apply Fin.ext
  match a with
  | ⟨0, _⟩ => show win0_2.index t (0 : Fin 2) * 2 + 1 * (y 0).val = (y 0).val; omega
  | ⟨1, _⟩ => show win0_2.index t (1 : Fin 2) * 4 + 1 * (y 1).val = (y 1).val; omega

/-- Window 3's block is its whole array at every point. -/
theorem iblk3_eq (t : Fin cfg0.N) : (Hand.iblk m c 3 t : S2x4.Idx → EReal) = (Hand.V m c main_arg5 : S2x4.Idx → EReal) := by
  obtain ⟨-, -, -, -, -, -, e0, e1, -, -, -, -, -, -, -, -, -, -, -, -, -, -, -, -, -, -, -, -, -, -, -, -⟩ := idx_facts t
  funext y
  unfold Hand.iblk
  rw [View.read_apply]
  show Hand.V m c main_arg5 _ = Hand.V m c main_arg5 y
  congr 1
  funext a
  apply Fin.ext
  match a with
  | ⟨0, _⟩ => show win0_3.index t (0 : Fin 2) * 2 + 1 * (y 0).val = (y 0).val; omega
  | ⟨1, _⟩ => show win0_3.index t (1 : Fin 2) * 4 + 1 * (y 1).val = (y 1).val; omega

/-- Window 4's block is its whole array at every point. -/
theorem iblk4_eq (t : Fin cfg0.N) : (Hand.iblk m c 4 t : S2x4.Idx → EReal) = (Hand.V m c main_arg6 : S2x4.Idx → EReal) := by
  obtain ⟨-, -, -, -, -, -, -, -, e0, e1, -, -, -, -, -, -, -, -, -, -, -, -, -, -, -, -, -, -, -, -, -, -⟩ := idx_facts t
  funext y
  unfold Hand.iblk
  rw [View.read_apply]
  show Hand.V m c main_arg6 _ = Hand.V m c main_arg6 y
  congr 1
  funext a
  apply Fin.ext
  match a with
  | ⟨0, _⟩ => show win0_4.index t (0 : Fin 2) * 2 + 1 * (y 0).val = (y 0).val; omega
  | ⟨1, _⟩ => show win0_4.index t (1 : Fin 2) * 4 + 1 * (y 1).val = (y 1).val; omega

/-- Window 5's block is its whole array at every point. -/
theorem iblk5_eq (t : Fin cfg0.N) : (Hand.iblk m c 5 t : S3x6.Idx → EReal) = (Hand.V m c main_arg7 : S3x6.Idx → EReal) := by
  obtain ⟨-, -, -, -, -, -, -, -, -, -, e0, e1, -, -, -, -, -, -, -, -, -, -, -, -, -, -, -, -, -, -, -, -⟩ := idx_facts t
  funext y
  unfold Hand.iblk
  rw [View.read_apply]
  show Hand.V m c main_arg7 _ = Hand.V m c main_arg7 y
  congr 1
  funext a
  apply Fin.ext
  match a with
  | ⟨0, _⟩ => show win0_5.index t (0 : Fin 2) * 3 + 1 * (y 0).val = (y 0).val; omega
  | ⟨1, _⟩ => show win0_5.index t (1 : Fin 2) * 6 + 1 * (y 1).val = (y 1).val; omega

/-- Window 6's block is its whole array at every point. -/
theorem iblk6_eq (t : Fin cfg0.N) : (Hand.iblk m c 6 t : S3x6.Idx → EReal) = (Hand.V m c main_arg8 : S3x6.Idx → EReal) := by
  obtain ⟨-, -, -, -, -, -, -, -, -, -, -, -, e0, e1, -, -, -, -, -, -, -, -, -, -, -, -, -, -, -, -, -, -⟩ := idx_facts t
  funext y
  unfold Hand.iblk
  rw [View.read_apply]
  show Hand.V m c main_arg8 _ = Hand.V m c main_arg8 y
  congr 1
  funext a
  apply Fin.ext
  match a with
  | ⟨0, _⟩ => show win0_6.index t (0 : Fin 2) * 3 + 1 * (y 0).val = (y 0).val; omega
  | ⟨1, _⟩ => show win0_6.index t (1 : Fin 2) * 6 + 1 * (y 1).val = (y 1).val; omega

/-- Window 7's block is its whole array at every point. -/
theorem iblk7_eq (t : Fin cfg0.N) : (Hand.iblk m c 7 t : S3x6.Idx → EReal) = (Hand.V m c main_arg9 : S3x6.Idx → EReal) := by
  obtain ⟨-, -, -, -, -, -, -, -, -, -, -, -, -, -, e0, e1, -, -, -, -, -, -, -, -, -, -, -, -, -, -, -, -⟩ := idx_facts t
  funext y
  unfold Hand.iblk
  rw [View.read_apply]
  show Hand.V m c main_arg9 _ = Hand.V m c main_arg9 y
  congr 1
  funext a
  apply Fin.ext
  match a with
  | ⟨0, _⟩ => show win0_7.index t (0 : Fin 2) * 3 + 1 * (y 0).val = (y 0).val; omega
  | ⟨1, _⟩ => show win0_7.index t (1 : Fin 2) * 6 + 1 * (y 1).val = (y 1).val; omega

/-- Window 8's block is its whole array at every point. -/
theorem iblk8_eq (t : Fin cfg0.N) : (Hand.iblk m c 8 t : S4x8.Idx → EReal) = (Hand.V m c main_arg10 : S4x8.Idx → EReal) := by
  obtain ⟨-, -, -, -, -, -, -, -, -, -, -, -, -, -, -, -, e0, e1, -, -, -, -, -, -, -, -, -, -, -, -, -, -⟩ := idx_facts t
  funext y
  unfold Hand.iblk
  rw [View.read_apply]
  show Hand.V m c main_arg10 _ = Hand.V m c main_arg10 y
  congr 1
  funext a
  apply Fin.ext
  match a with
  | ⟨0, _⟩ => show win0_8.index t (0 : Fin 2) * 4 + 1 * (y 0).val = (y 0).val; omega
  | ⟨1, _⟩ => show win0_8.index t (1 : Fin 2) * 8 + 1 * (y 1).val = (y 1).val; omega

/-- Window 9's block is its whole array at every point. -/
theorem iblk9_eq (t : Fin cfg0.N) : (Hand.iblk m c 9 t : S44x256.Idx → EReal) = (Hand.V m c main_arg11 : S44x256.Idx → EReal) := by
  obtain ⟨-, -, -, -, -, -, -, -, -, -, -, -, -, -, -, -, -, -, e0, e1, -, -, -, -, -, -, -, -, -, -, -, -⟩ := idx_facts t
  funext y
  unfold Hand.iblk
  rw [View.read_apply]
  show Hand.V m c main_arg11 _ = Hand.V m c main_arg11 y
  congr 1
  funext a
  apply Fin.ext
  match a with
  | ⟨0, _⟩ => show win0_9.index t (0 : Fin 2) * 44 + 1 * (y 0).val = (y 0).val; omega
  | ⟨1, _⟩ => show win0_9.index t (1 : Fin 2) * 256 + 1 * (y 1).val = (y 1).val; omega

/-- Window 10's block is its whole array at every point. -/
theorem iblk10_eq (t : Fin cfg0.N) : (Hand.iblk m c 10 t : S1x256.Idx → EReal) = (Hand.V m c main_v5 : S1x256.Idx → EReal) := by
  obtain ⟨-, -, -, -, -, -, -, -, -, -, -, -, -, -, -, -, -, -, -, -, e0, e1, -, -, -, -, -, -, -, -, -, -⟩ := idx_facts t
  funext y
  unfold Hand.iblk
  rw [View.read_apply]
  show Hand.V m c main_v5 _ = Hand.V m c main_v5 y
  congr 1
  funext a
  apply Fin.ext
  match a with
  | ⟨0, _⟩ => show win0_10.index t (0 : Fin 2) * 1 + 1 * (y 0).val = (y 0).val; omega
  | ⟨1, _⟩ => show win0_10.index t (1 : Fin 2) * 256 + 1 * (y 1).val = (y 1).val; omega

/-- Window 11's block is its whole array at every point. -/
theorem iblk11_eq (t : Fin cfg0.N) : (Hand.iblk m c 11 t : S256x128.Idx → EReal) = (Hand.V m c main_arg13 : S256x128.Idx → EReal) := by
  obtain ⟨-, -, -, -, -, -, -, -, -, -, -, -, -, -, -, -, -, -, -, -, -, -, e0, e1, -, -, -, -, -, -, -, -⟩ := idx_facts t
  funext y
  unfold Hand.iblk
  rw [View.read_apply]
  show Hand.V m c main_arg13 _ = Hand.V m c main_arg13 y
  congr 1
  funext a
  apply Fin.ext
  match a with
  | ⟨0, _⟩ => show win0_11.index t (0 : Fin 2) * 256 + 1 * (y 0).val = (y 0).val; omega
  | ⟨1, _⟩ => show win0_11.index t (1 : Fin 2) * 128 + 1 * (y 1).val = (y 1).val; omega

/-- Window 12's block is its whole array at every point. -/
theorem iblk12_eq (t : Fin cfg0.N) : (Hand.iblk m c 12 t : S1x128.Idx → EReal) = (Hand.V m c main_v6 : S1x128.Idx → EReal) := by
  obtain ⟨-, -, -, -, -, -, -, -, -, -, -, -, -, -, -, -, -, -, -, -, -, -, -, -, e0, e1, -, -, -, -, -, -⟩ := idx_facts t
  funext y
  unfold Hand.iblk
  rw [View.read_apply]
  show Hand.V m c main_v6 _ = Hand.V m c main_v6 y
  congr 1
  funext a
  apply Fin.ext
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13's block is its whole array at every point. -/
theorem iblk13_eq (t : Fin cfg0.N) : (Hand.iblk m c 13 t : S128x2.Idx → EReal) = (Hand.V m c main_arg15 : S128x2.Idx → EReal) := by
  obtain ⟨-, -, -, -, -, -, -, -, -, -, -, -, -, -, -, -, -, -, -, -, -, -, -, -, -, -, e0, e1, -, -, -, -⟩ := idx_facts t
  funext y
  unfold Hand.iblk
  rw [View.read_apply]
  show Hand.V m c main_arg15 _ = Hand.V m c main_arg15 y
  congr 1
  funext a
  apply Fin.ext
  match a with
  | ⟨0, _⟩ => show win0_13.index t (0 : Fin 2) * 128 + 1 * (y 0).val = (y 0).val; omega
  | ⟨1, _⟩ => show win0_13.index t (1 : Fin 2) * 2 + 1 * (y 1).val = (y 1).val; omega

/-- Window 14's block is its whole array at every point. -/
theorem iblk14_eq (t : Fin cfg0.N) : (Hand.iblk m c 14 t : S1x2.Idx → EReal) = (Hand.V m c main_v7 : S1x2.Idx → EReal) := by
  obtain ⟨-, -, -, -, -, -, -, -, -, -, -, -, -, -, -, -, -, -, -, -, -, -, -, -, -, -, -, -, e0, e1, -, -⟩ := idx_facts t
  funext y
  unfold Hand.iblk
  rw [View.read_apply]
  show Hand.V m c main_v7 _ = Hand.V m c main_v7 y
  congr 1
  funext a
  apply Fin.ext
  match a with
  | ⟨0, _⟩ => show win0_14.index t (0 : Fin 2) * 1 + 1 * (y 0).val = (y 0).val; omega
  | ⟨1, _⟩ => show win0_14.index t (1 : Fin 2) * 2 + 1 * (y 1).val = (y 1).val; omega

end Cert.KernelIdeal.HandValue

end
-- ==== Proof.Spec.lean ====
/-
  The mathematics of the two programs, stated once over plain functions of finite indices and extended reals.

  Both programs are a three-layer perceptron applied to each of 16384 rows. They differ only in how the first
  layer's pre-activation of a row is formed. The reference looks up one row in each of seven small embedding
  tables, lays the looked-up rows side by side with six continuous features (44 numbers), and multiplies by
  W1. The kernel first multiplies each table by its band of rows of W1 (T = table · band), and then, since
  a table has at most four rows, selects row `a` of T by a THERMOMETER code: T a = T 0 + Σ_{1 ≤ k ≤ a} (T k − T (k−1)),
  written as a product of the 0/1 row ([a ≥ 1], [a ≥ 2], [a ≥ 3]) with the rows of successive differences.
-/
import Idealize.ShloMosaic.PureOps.Ideal
import Idealize.ShloMosaic.PureOps.Ideal.Laws
import Idealize.ShloMosaic.Lib.ValueIdx

noncomputable section

open scoped BigOperators

namespace Cert.HeartMlp

open Idealize.ShloMosaic

/-- Layers two and three on one row, from the first layer's pre-activation `z` of that row: tanh, times W2 plus
    b2, tanh, times W3 plus b3, logistic; result column `c`. -/
def tail (z : Fin 256 → EReal) (W2 : Fin 256 → Fin 128 → EReal) (b2 : Fin 128 → EReal)
    (W3 : Fin 128 → Fin 2 → EReal) (b3 : Fin 2 → EReal) (c : Fin 2) : EReal :=
  Ideal.logistic ((∑ k : Fin 128, Ideal.tanh ((∑ j : Fin 256, Ideal.tanh (z j) * W2 j k) + b2 k) * W3 k c) + b3 c)

/-- The reference's first layer on a row `x` of 44 features. -/
def refZ (x : Fin 44 → EReal) (W1 : Fin 44 → Fin 256 → EReal) (b1 : Fin 256 → EReal) (j : Fin 256) : EReal :=
  (∑ k : Fin 44, x k * W1 k j) + b1 j

/-- The kernel's first layer on a row `s` of 18 numbers (12 thermometer bits, 6 features), against the folded
    weights `wf` and the folded bias `base`. -/
def kerZ (s : Fin 18 → EReal) (wf : Fin 18 → Fin 256 → EReal) (base : Fin 256 → EReal) (j : Fin 256) : EReal :=
  (∑ l : Fin 18, s l * wf l j) + base j

/-- A table of `n` rows of `d` numbers times the band of `d` rows of W1 starting at row `off`. -/
def fold {n d : Nat} (e : Fin n → Fin d → EReal) (W1 : Fin 44 → Fin 256 → EReal) (off : Nat) (h : off + d ≤ 44)
    (a : Fin n) (j : Fin 256) : EReal :=
  ∑ k : Fin d, e a k * W1 ⟨off + k.val, by have := k.isLt; omega⟩ j

/-- A 32-bit word read as a signed integer, as an extended real. -/
def ofInt (v : BitVec 32) : EReal := ((v.toInt : ℝ) : EReal)

/-- The table row a 32-bit index word selects: its signed value, kept inside the table. -/
def rowSel (n : Nat) (hn : 0 < n) (v : BitVec 32) : Fin n := ⟨min v.toInt.toNat (n - 1), by omega⟩

/-- The seven index columns and the six features of row `r`, as the kernel's wrapper packs them: the columns of
    cat_2, cat_3, cat_4 (7), again cat_3 and cat_4 (4), again cat_4 (1), then the features (6). -/
def packed (con : Fin 16384 → Fin 6 → EReal) (c2 c3 : Fin 16384 → Fin 3 → BitVec 32) (c4 : Fin 16384 → Fin 1 → BitVec 32)
    (r : Fin 16384) (l : Fin 18) : EReal :=
  if h : l.val < 3 then ofInt (c2 r ⟨l.val, h⟩)
  else if h1 : l.val < 6 then ofInt (c3 r ⟨l.val - 3, by omega⟩)
  else if l.val < 7 then ofInt (c4 r 0)
  else if h3 : l.val < 10 then ofInt (c3 r ⟨l.val - 7, by omega⟩)
  else if l.val < 12 then ofInt (c4 r 0)
  else con r ⟨l.val - 12, by have := l.isLt; omega⟩

/-- The kernel's row: in the first twelve positions the bit [threshold ≤ packed entry], in the last six the entry. -/
def sRow (xp : Fin 18 → EReal) (thr : Fin 18 → EReal) (l : Fin 18) : EReal :=
  if l.val < 12 then (if thr l ≤ xp l then 1 else 0) else xp l

/-- The thresholds: 1 seven times, 2 four times, 3 once, 99 six times. -/
def thrLit (l : Fin 18) : EReal :=
  if l.val < 7 then 1 else if l.val < 11 then 2 else if l.val < 12 then 3 else 99

/-- The reference's row of 44 features: the looked-up rows of the seven tables side by side (4, 4, 4, 6, 6, 6, 8
    numbers), then the six continuous features. -/
def refRow (con : Fin 6 → EReal) (e20 e21 e22 : Fin 2 → Fin 4 → EReal) (e30 e31 e32 : Fin 3 → Fin 6 → EReal)
    (e4 : Fin 4 → Fin 8 → EReal) (i20 i21 i22 : Fin 2) (i30 i31 i32 : Fin 3) (i4 : Fin 4) (k : Fin 44) : EReal :=
  if h : k.val < 4 then e20 i20 ⟨k.val, h⟩
  else if h1 : k.val < 8 then e21 i21 ⟨k.val - 4, by omega⟩
  else if h2 : k.val < 12 then e22 i22 ⟨k.val - 8, by omega⟩
  else if h3 : k.val < 18 then e30 i30 ⟨k.val - 12, by omega⟩
  else if h4 : k.val < 24 then e31 i31 ⟨k.val - 18, by omega⟩
  else if h5 : k.val < 30 then e32 i32 ⟨k.val - 24, by omega⟩
  else if h6 : k.val < 38 then e4 i4 ⟨k.val - 30, by omega⟩
  else con ⟨k.val - 38, by have := k.isLt; omega⟩

/-- The kernel's folded weights: twelve rows of successive differences of the folded tables, in the order of the
    packed thermometer columns, then the six rows of W1 that multiply the continuous features. -/
def wfoldS (e20 e21 e22 : Fin 2 → Fin 4 → EReal) (e30 e31 e32 : Fin 3 → Fin 6 → EReal) (e4 : Fin 4 → Fin 8 → EReal)
    (W1 : Fin 44 → Fin 256 → EReal) (l : Fin 18) (j : Fin 256) : EReal :=
  match l with
  | ⟨0, _⟩ => fold e20 W1 0 (by omega) 1 j - fold e20 W1 0 (by omega) 0 j
  | ⟨1, _⟩ => fold e21 W1 4 (by omega) 1 j - fold e21 W1 4 (by omega) 0 j
  | ⟨2, _⟩ => fold e22 W1 8 (by omega) 1 j - fold e22 W1 8 (by omega) 0 j
  | ⟨3, _⟩ => fold e30 W1 12 (by omega) 1 j - fold e30 W1 12 (by omega) 0 j
  | ⟨4, _⟩ => fold e31 W1 18 (by omega) 1 j - fold e31 W1 18 (by omega) 0 j
  | ⟨5, _⟩ => fold e32 W1 24 (by omega) 1 j - fold e32 W1 24 (by omega) 0 j
  | ⟨6, _⟩ => fold e4 W1 30 (by omega) 1 j - fold e4 W1 30 (by omega) 0 j
  | ⟨7, _⟩ => fold e30 W1 12 (by omega) 2 j - fold e30 W1 12 (by omega) 1 j
  | ⟨8, _⟩ => fold e31 W1 18 (by omega) 2 j - fold e31 W1 18 (by omega) 1 j
  | ⟨9, _⟩ => fold e32 W1 24 (by omega) 2 j - fold e32 W1 24 (by omega) 1 j
  | ⟨10, _⟩ => fold e4 W1 30 (by omega) 2 j - fold e4 W1 30 (by omega) 1 j
  | ⟨11, _⟩ => fold e4 W1 30 (by omega) 3 j - fold e4 W1 30 (by omega) 2 j
  | ⟨n + 12, h⟩ => W1 ⟨38 + n, by omega⟩ j

/-- The kernel's folded bias: b1 plus row 0 of every folded table, added left to right. -/
def baseS (e20 e21 e22 : Fin 2 → Fin 4 → EReal) (e30 e31 e32 : Fin 3 → Fin 6 → EReal) (e4 : Fin 4 → Fin 8 → EReal)
    (W1 : Fin 44 → Fin 256 → EReal) (b1 : Fin 256 → EReal) (j : Fin 256) : EReal :=
  b1 j + fold e20 W1 0 (by omega) 0 j + fold e21 W1 4 (by omega) 0 j + fold e22 W1 8 (by omega) 0 j
    + fold e30 W1 12 (by omega) 0 j + fold e31 W1 18 (by omega) 0 j + fold e32 W1 24 (by omega) 0 j
    + fold e4 W1 30 (by omega) 0 j

end Cert.HeartMlp

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.KPayFold.lean ====
/-
  The seven folded tables read at an index.

  Each embedding table e (n rows of d numbers) is multiplied by the band of d rows of W1 that its columns meet in the
  reference's 44-column row. At row a and column j the product is  ∑ k < d, e a k * W1 (off + k) j : a band of whole
  rows cut out of W1 reads W1 at the row shifted by the band's offset, and the product into a zero accumulator is the
  plain sum over the contracted axis.
-/
import proofs.«154124_g78426102825261_cont_9to1_m_135_12_alg».proof.Proof.Gen.KernelIdeal.Skeleton
import proofs.«154124_g78426102825261_cont_9to1_m_135_12_alg».proof.Proof.Spec
import proofs.«154124_g78426102825261_cont_9to1_m_135_12_alg».proof.Proof.LibPlainDot
import Idealize.ShloMosaic.Lib.Pipeline.Value

noncomputable section

open scoped BigOperators

namespace Cert.KernelIdeal.PayRead

open Idealize.ShloMosaic Idealize.ShloMosaic.ValueIdx Cert.KernelIdeal Cert.KernelIdeal.Gen Cert.HeartMlp

/-- A block of m whole rows cut out of a matrix from row off on, read at (a, j): the matrix at (off + a, j). -/
theorem sliceRows_apply {α : Type} {M N m : Nat} (off : Nat) (x : (⟨2, ![M, N]⟩ : Shape).Idx → α)
    (h : (⟨2, ![M, N]⟩ : Shape).Slices ![off, 0] ⟨2, ![m, N]⟩) (a : Fin m) (j : Fin N) (hb : off + a.val < M) :
    extractStridedSlice ⟨2, ![m, N]⟩ ![off, 0] x h (ix2 a j) = x (ix2 ⟨off + a.val, hb⟩ j) :=
  extractStridedSlice_apply ![off, 0] x h (ix2 a j) (ix2 ⟨off + a.val, hb⟩ j) fun b =>
    match b with
    | ⟨0, _⟩ => rfl
    | ⟨1, _⟩ => (Nat.zero_add _).symm

/-- A table times a band of W1, into the zero accumulator, at (a, j): the folded table. -/
theorem foldProduct_apply {n d : Nat} (off : Nat) (hoff : off + d ≤ 44) (x9 : Vec Ideal S44x256 .f32)
    (e : FVec Ideal ⟨2, ![n, d]⟩ .f32) (D : DotDims ⟨2, ![n, d]⟩ ⟨2, ![d, 256]⟩ ⟨2, ![n, 256]⟩)
    (hD : D = DotDims.plain n d 256) (h : S44x256.Slices ![off, 0] ⟨2, ![d, 256]⟩) (a : Fin n) (j : Fin 256) :
    FloatOps.matmul D none e (extractStridedSlice ⟨2, ![d, 256]⟩ ![off, 0] x9 h : FVec Ideal ⟨2, ![d, 256]⟩ .f32)
        (constant (F := Ideal) ⟨2, ![n, 256]⟩ .f32 0x00000000#32) (ix2 a j)
      = fold (fun a k => e (ix2 a k)) (fun k j => x9 (ix2 k j)) off hoff a j := by
  refine (PlainDot.matmul_zero_apply D hD none e _ a j).trans ?_
  unfold fold
  refine Finset.sum_congr rfl fun k _ => ?_
  exact congrArg (e (ix2 a k) * ·) (sliceRows_apply off x9 h k j (by have := k.isLt; omega))

/-- The first 2-row table folded through rows 0 … 3 of W1. -/
theorem pay2_apply (x9 : Vec Ideal S44x256 .f32) (x2 : Vec Ideal S2x4 .f32) (a : Fin 2) (j : Fin 256) :
    k0_pay2 (F := Ideal) x9 x2 (ix2 a j)
      = fold (fun a k => x2 (ix2 a k)) (fun k j => x9 (ix2 k j)) 0 (by omega) a j := by
  unfold k0_pay2
  exact foldProduct_apply 0 (by omega) x9 x2 _ (PlainDot.eq_plain _ rfl rfl rfl rfl rfl rfl) _ a j

/-- The second 2-row table folded through rows 4 … 7 of W1. -/
theorem pay3_apply (x9 : Vec Ideal S44x256 .f32) (x3 : Vec Ideal S2x4 .f32) (a : Fin 2) (j : Fin 256) :
    k0_pay3 (F := Ideal) x9 x3 (ix2 a j)
      = fold (fun a k => x3 (ix2 a k)) (fun k j => x9 (ix2 k j)) 4 (by omega) a j := by
  unfold k0_pay3
  exact foldProduct_apply 4 (by omega) x9 x3 _ (PlainDot.eq_plain _ rfl rfl rfl rfl rfl rfl) _ a j

/-- The third 2-row table folded through rows 8 … 11 of W1. -/
theorem pay4_apply (x9 : Vec Ideal S44x256 .f32) (x4 : Vec Ideal S2x4 .f32) (a : Fin 2) (j : Fin 256) :
    k0_pay4 (F := Ideal) x9 x4 (ix2 a j)
      = fold (fun a k => x4 (ix2 a k)) (fun k j => x9 (ix2 k j)) 8 (by omega) a j := by
  unfold k0_pay4
  exact foldProduct_apply 8 (by omega) x9 x4 _ (PlainDot.eq_plain _ rfl rfl rfl rfl rfl rfl) _ a j

/-- The first 3-row table folded through rows 12 … 17 of W1. -/
theorem pay5_apply (x9 : Vec Ideal S44x256 .f32) (x5 : Vec Ideal S3x6 .f32) (a : Fin 3) (j : Fin 256) :
    k0_pay5 (F := Ideal) x9 x5 (ix2 a j)
      = fold (fun a k => x5 (ix2 a k)) (fun k j => x9 (ix2 k j)) 12 (by omega) a j := by
  unfold k0_pay5
  exact foldProduct_apply 12 (by omega) x9 x5 _ (PlainDot.eq_plain _ rfl rfl rfl rfl rfl rfl) _ a j

/-- The second 3-row table folded through rows 18 … 23 of W1. -/
theorem pay6_apply (x9 : Vec Ideal S44x256 .f32) (x6 : Vec Ideal S3x6 .f32) (a : Fin 3) (j : Fin 256) :
    k0_pay6 (F := Ideal) x9 x6 (ix2 a j)
      = fold (fun a k => x6 (ix2 a k)) (fun k j => x9 (ix2 k j)) 18 (by omega) a j := by
  unfold k0_pay6
  exact foldProduct_apply 18 (by omega) x9 x6 _ (PlainDot.eq_plain _ rfl rfl rfl rfl rfl rfl) _ a j

/-- The third 3-row table folded through rows 24 … 29 of W1. -/
theorem pay7_apply (x9 : Vec Ideal S44x256 .f32) (x7 : Vec Ideal S3x6 .f32) (a : Fin 3) (j : Fin 256) :
    k0_pay7 (F := Ideal) x9 x7 (ix2 a j)
      = fold (fun a k => x7 (ix2 a k)) (fun k j => x9 (ix2 k j)) 24 (by omega) a j := by
  unfold k0_pay7
  exact foldProduct_apply 24 (by omega) x9 x7 _ (PlainDot.eq_plain _ rfl rfl rfl rfl rfl rfl) _ a j

/-- The 4-row table folded through rows 30 … 37 of W1. -/
theorem pay8_apply (x9 : Vec Ideal S44x256 .f32) (x8 : Vec Ideal S4x8 .f32) (a : Fin 4) (j : Fin 256) :
    k0_pay8 (F := Ideal) x9 x8 (ix2 a j)
      = fold (fun a k => x8 (ix2 a k)) (fun k j => x9 (ix2 k j)) 30 (by omega) a j := by
  unfold k0_pay8
  exact foldProduct_apply 30 (by omega) x9 x8 _ (PlainDot.eq_plain _ rfl rfl rfl rfl rfl rfl) _ a j

end Cert.KernelIdeal.PayRead

end
-- ==== Proof.KPayRows.lean ====
/-
  The difference rows and the bias row read at an index.

  A folded table T has at most four rows, and the kernel keeps the rows T 1 − T 0 (and, for the taller tables,
  T 2 − T 1, T 3 − T 2) as one-row matrices; two of them it keeps as the single rows T 1 and T 0 and subtracts later.
  The bias row is b1 plus row 0 of each of the seven folded tables, the additions taken from left to right.
-/
import proofs.«154124_g78426102825261_cont_9to1_m_135_12_alg».proof.Proof.KPayFold

noncomputable section

open scoped BigOperators

namespace Cert.KernelIdeal.PayRead

open Idealize.ShloMosaic Idealize.ShloMosaic.ValueIdx Cert.KernelIdeal Cert.KernelIdeal.Gen Cert.HeartMlp

/-- One row r cut out of a matrix, read at (0, j): the matrix at (r, j). -/
theorem sliceRow_apply {α : Type} {M N : Nat} (r : Nat) (x : (⟨2, ![M, N]⟩ : Shape).Idx → α)
    (h : (⟨2, ![M, N]⟩ : Shape).Slices ![r, 0] ⟨2, ![1, N]⟩) (j : Fin N) (hr : r < M) :
    extractStridedSlice ⟨2, ![1, N]⟩ ![r, 0] x h (ix2 (0 : Fin 1) j) = x (ix2 ⟨r, hr⟩ j) :=
  sliceRows_apply r x h (0 : Fin 1) j hr

/-- The difference of two rows of one matrix, each cut out as a one-row matrix, at (0, j). -/
theorem rowDiff_apply {M : Nat} (r s : Nat) (T : FVec Ideal ⟨2, ![M, 256]⟩ .f32)
    (hr : (⟨2, ![M, 256]⟩ : Shape).Slices ![r, 0] S1x256) (hs : (⟨2, ![M, 256]⟩ : Shape).Slices ![s, 0] S1x256)
    (j : Fin 256) (hrM : r < M) (hsM : s < M) :
    subf (extractStridedSlice S1x256 ![r, 0] T hr : FVec Ideal S1x256 .f32) (extractStridedSlice S1x256 ![s, 0] T hs)
        (ix2 (0 : Fin 1) j)
      = T (ix2 ⟨r, hrM⟩ j) - T (ix2 ⟨s, hsM⟩ j) :=
  congrArg₂ (· - ·) (sliceRow_apply r T hr j hrM) (sliceRow_apply s T hs j hsM)

/-- Row 1 less row 0 of the first folded 2-row table. -/
theorem pay9_apply (x9 : Vec Ideal S44x256 .f32) (x2 : Vec Ideal S2x4 .f32) (j : Fin 256) :
    k0_pay9 (F := Ideal) x9 x2 (ix2 (0 : Fin 1) j)
      = fold (fun a k => x2 (ix2 a k)) (fun k j => x9 (ix2 k j)) 0 (by omega) 1 j - fold (fun a k => x2 (ix2 a k)) (fun k j => x9 (ix2 k j)) 0 (by omega) 0 j := by
  unfold k0_pay9
  exact (rowDiff_apply 1 0 (k0_pay2 x9 x2) _ _ j (by omega) (by omega)).trans
    (congrArg₂ (· - ·) (pay2_apply x9 x2 1 j) (pay2_apply x9 x2 0 j))

/-- Row 1 less row 0 of the second folded 2-row table. -/
theorem pay10_apply (x9 : Vec Ideal S44x256 .f32) (x3 : Vec Ideal S2x4 .f32) (j : Fin 256) :
    k0_pay10 (F := Ideal) x9 x3 (ix2 (0 : Fin 1) j)
      = fold (fun a k => x3 (ix2 a k)) (fun k j => x9 (ix2 k j)) 4 (by omega) 1 j - fold (fun a k => x3 (ix2 a k)) (fun k j => x9 (ix2 k j)) 4 (by omega) 0 j := by
  unfold k0_pay10
  exact (rowDiff_apply 1 0 (k0_pay3 x9 x3) _ _ j (by omega) (by omega)).trans
    (congrArg₂ (· - ·) (pay3_apply x9 x3 1 j) (pay3_apply x9 x3 0 j))

/-- Row 1 less row 0 of the third folded 2-row table. -/
theorem pay11_apply (x9 : Vec Ideal S44x256 .f32) (x4 : Vec Ideal S2x4 .f32) (j : Fin 256) :
    k0_pay11 (F := Ideal) x9 x4 (ix2 (0 : Fin 1) j)
      = fold (fun a k => x4 (ix2 a k)) (fun k j => x9 (ix2 k j)) 8 (by omega) 1 j - fold (fun a k => x4 (ix2 a k)) (fun k j => x9 (ix2 k j)) 8 (by omega) 0 j := by
  unfold k0_pay11
  exact (rowDiff_apply 1 0 (k0_pay4 x9 x4) _ _ j (by omega) (by omega)).trans
    (congrArg₂ (· - ·) (pay4_apply x9 x4 1 j) (pay4_apply x9 x4 0 j))

/-- Row 1 less row 0 of the first folded 3-row table. -/
theorem pay12_apply (x9 : Vec Ideal S44x256 .f32) (x5 : Vec Ideal S3x6 .f32) (j : Fin 256) :
    k0_pay12 (F := Ideal) x9 x5 (ix2 (0 : Fin 1) j)
      = fold (fun a k => x5 (ix2 a k)) (fun k j => x9 (ix2 k j)) 12 (by omega) 1 j - fold (fun a k => x5 (ix2 a k)) (fun k j => x9 (ix2 k j)) 12 (by omega) 0 j := by
  unfold k0_pay12
  exact (rowDiff_apply 1 0 (k0_pay5 x9 x5) _ _ j (by omega) (by omega)).trans
    (congrArg₂ (· - ·) (pay5_apply x9 x5 1 j) (pay5_apply x9 x5 0 j))

/-- Row 1 of the second folded 3-row table. -/
theorem pay13_apply (x9 : Vec Ideal S44x256 .f32) (x6 : Vec Ideal S3x6 .f32) (j : Fin 256) :
    k0_pay13 (F := Ideal) x9 x6 (ix2 (0 : Fin 1) j) = fold (fun a k => x6 (ix2 a k)) (fun k j => x9 (ix2 k j)) 18 (by omega) 1 j := by
  unfold k0_pay13
  exact (sliceRow_apply 1 (k0_pay6 x9 x6) _ j (by omega)).trans (pay6_apply x9 x6 1 j)

/-- Row 0 of the second folded 3-row table. -/
theorem pay14_apply (x9 : Vec Ideal S44x256 .f32) (x6 : Vec Ideal S3x6 .f32) (j : Fin 256) :
    k0_pay14 (F := Ideal) x9 x6 (ix2 (0 : Fin 1) j) = fold (fun a k => x6 (ix2 a k)) (fun k j => x9 (ix2 k j)) 18 (by omega) 0 j := by
  unfold k0_pay14
  exact (sliceRow_apply 0 (k0_pay6 x9 x6) _ j (by omega)).trans (pay6_apply x9 x6 0 j)

/-- The bias row over any seven matrices: b1 plus row 0 of each, added left to right. -/
theorem pay15_apply (v3 v6 v9 : FVec Ideal S2x256 .f32) (v12 v15 v18 : FVec Ideal S3x256 .f32)
    (v21 : FVec Ideal S4x256 .f32) (v60 : Vec Ideal S1x256 .f32) (j : Fin 256) :
    k0_pay15 (F := Ideal) v3 v6 v9 v12 v15 v18 v21 v60 (ix2 (0 : Fin 1) j)
      = v60 (ix2 (0 : Fin 1) j) + v3 (ix2 (0 : Fin 2) j) + v6 (ix2 (0 : Fin 2) j) + v9 (ix2 (0 : Fin 2) j)
          + v12 (ix2 (0 : Fin 3) j) + v15 (ix2 (0 : Fin 3) j) + v18 (ix2 (0 : Fin 3) j) + v21 (ix2 (0 : Fin 4) j) := by
  unfold k0_pay15
  rw [shapeCast_self]
  exact congrArg₂ (· + ·) (congrArg₂ (· + ·) (congrArg₂ (· + ·) (congrArg₂ (· + ·) (congrArg₂ (· + ·)
    (congrArg₂ (· + ·) (congrArg (v60 (ix2 (0 : Fin 1) j) + ·) (sliceRow_apply 0 v3 _ j (by omega)))
      (sliceRow_apply 0 v6 _ j (by omega))) (sliceRow_apply 0 v9 _ j (by omega))) (sliceRow_apply 0 v12 _ j (by omega)))
    (sliceRow_apply 0 v15 _ j (by omega))) (sliceRow_apply 0 v18 _ j (by omega))) (sliceRow_apply 0 v21 _ j (by omega))

/-- The kernel's bias row is the folded bias. -/
theorem bias_apply (x2 x3 x4 : Vec Ideal S2x4 .f32) (x5 x6 x7 : Vec Ideal S3x6 .f32) (x8 : Vec Ideal S4x8 .f32)
    (x9 : Vec Ideal S44x256 .f32) (x10 : Vec Ideal S1x256 .f32) (j : Fin 256) :
    k0_pay15 (F := Ideal) (k0_pay2 x9 x2) (k0_pay3 x9 x3) (k0_pay4 x9 x4) (k0_pay5 x9 x5) (k0_pay6 x9 x6) (k0_pay7 x9 x7)
        (k0_pay8 x9 x8) x10 (ix2 (0 : Fin 1) j)
      = baseS (fun a k => x2 (ix2 a k)) (fun a k => x3 (ix2 a k)) (fun a k => x4 (ix2 a k)) (fun a k => x5 (ix2 a k)) (fun a k => x6 (ix2 a k)) (fun a k => x7 (ix2 a k)) (fun a k => x8 (ix2 a k)) (fun k j => x9 (ix2 k j)) (fun j => x10 (ix2 (0 : Fin 1) j)) j := by
  refine (pay15_apply _ _ _ _ _ _ _ x10 j).trans ?_
  rw [pay2_apply, pay3_apply, pay4_apply, pay5_apply, pay6_apply, pay7_apply, pay8_apply]
  rfl

end Cert.KernelIdeal.PayRead

end
-- ==== Proof.KPayBits.lean ====
/-
  The thermometer row read at an index.

  A packed row holds twelve integer codes and six continuous features. In the first twelve lanes the kernel
  replaces the code x by the bit [threshold ≤ x]: it compares as floats, widens the one-bit answer to a 32-bit word and
  converts that word to a float, which is 1 or 0. The last six lanes keep the entry. Which lanes are the first twelve is
  decided on 32-bit words: the lane number, counted along the row, compared signed with 12.
-/
import proofs.«154124_g78426102825261_cont_9to1_m_135_12_alg».proof.Proof.Gen.KernelIdeal.Skeleton
import proofs.«154124_g78426102825261_cont_9to1_m_135_12_alg».proof.Proof.Spec
import Idealize.ShloMosaic.Lib.Pipeline.Value

noncomputable section

open scoped BigOperators

namespace Cert.KernelIdeal.PayRead

open Idealize.ShloMosaic Idealize.ShloMosaic.ValueIdx Cert.KernelIdeal Cert.KernelIdeal.Gen Cert.HeartMlp

/-- Lane l of a row of 18 lanes is below 12, as decided on 32-bit words read signed. -/
theorem lane_lt (l : Fin 18) : IntOp.cmpi .slt (BitVec.ofNat 32 l.val) 12#32 = if l.val < 12 then 1#1 else 0#1 := by
  revert l
  decide

/-- The bit 1 widened to a word reads 1. -/
theorem bitTrue_toInt : ((BitVec.ofBool true).setWidth 32).toInt = 1 := by decide

/-- The bit 0 widened to a word reads 0. -/
theorem bitFalse_toInt : ((BitVec.ofBool false).setWidth 32).toInt = 0 := by decide

/-- The comparison t ≤ x, widened to a word and converted to a float: 1 when it holds, else 0. -/
theorem thermBit_apply {s : Shape} (x t : FVec Ideal s .f32) (h4 : 1 < 32) (i : s.Idx) :
    (sitofp .f32 (extui 32 (cmpf .oge x t) h4) : FVec Ideal s .f32) i = if t i ≤ x i then 1 else 0 := by
  show ((((BitVec.ofBool (decide (t i ≤ x i))).setWidth 32).toInt : ℝ) : EReal) = _
  by_cases h : t i ≤ x i
  · rw [decide_eq_true h, if_pos h, bitTrue_toInt]
    simp
  · rw [decide_eq_false h, if_neg h, bitFalse_toInt]
    simp

/-- The row the kernel multiplies by the folded weights, at (p, l): the thermometer bit in the first twelve lanes,
    the packed entry in the last six. -/
theorem selRow_apply (v76 : Vec Ideal S4096x18 .f32) (v81 : Vec Ideal S1x18 .f32) (h1 : S4096x18.ShapeCasts S4096x18)
    (h2 : S4096x18.Iotas .tc 32 [1]) (h3 : S1x18.Broadcasts S4096x18) (h4 : 1 < 32) (p : Fin 4096) (l : Fin 18) :
    select (cmpi .slt (iota .tc S4096x18 32 [1] h2) (broadcast S4096x18 12#32))
        (sitofp .f32 (extui 32 (cmpf .oge (shapeCast S4096x18 v76 h1 : FVec Ideal S4096x18 .f32)
          (broadcastTo S4096x18 v81 h3)) h4) : FVec Ideal S4096x18 .f32)
        (shapeCast S4096x18 v76 h1) (ix2 p l)
      = sRow (fun l => v76 (ix2 p l)) (fun l => v81 (ix2 (0 : Fin 1) l)) l := by
  rw [shapeCast_self]
  have hb : broadcastTo S4096x18 v81 h3 (ix2 p l) = v81 (ix2 (0 : Fin 1) l) :=
    broadcastTo_apply v81 h3 (ix2 p l) (ix2 (0 : Fin 1) l) fun a =>
      match a with
      | ⟨0, _⟩ => rfl
      | ⟨1, _⟩ => rfl
  rw [select_apply]
  show Scalar.select (IntOp.cmpi .slt (iota .tc S4096x18 32 [1] h2 (ix2 p l)) 12#32) _ _ = _
  rw [iota_single_apply]
  show Scalar.select (IntOp.cmpi .slt (BitVec.ofNat 32 l.val) 12#32) _ _ = _
  rw [lane_lt, thermBit_apply, hb]
  unfold sRow
  by_cases hl : l.val < 12
  · rw [if_pos hl, if_pos hl, select_one]
  · rw [if_neg hl, if_neg hl, select_zero]

end Cert.KernelIdeal.PayRead

end
-- ==== Proof.KPayStack.lean ====
/-
  The kernel's first product read at an index.

  The right operand is a matrix of 18 rows stacked from thirteen pieces: twelve one-row matrices (differences of
  successive rows of the folded tables, in the order of the packed thermometer columns) and the six rows 38 … 43 of W1
  that multiply the continuous features. Read at row l it is piece l for l < 12 and row l − 12 of the last piece
  otherwise. The left operand is the thermometer row. The product into the zero accumulator is the plain sum over the
  18 lanes.
-/
import proofs.«154124_g78426102825261_cont_9to1_m_135_12_alg».proof.Proof.KPayRows
import proofs.«154124_g78426102825261_cont_9to1_m_135_12_alg».proof.Proof.KPayBits

noncomputable section

open scoped BigOperators

namespace Cert.KernelIdeal.PayRead

open Idealize.ShloMosaic Idealize.ShloMosaic.ValueIdx Cert.KernelIdeal Cert.KernelIdeal.Gen Cert.HeartMlp

/-- The stacked weights over any folded tables: the four rows kept as differences, the difference of the two rows
    kept singly, the seven differences taken of rows of the tables t30, t31, t32 (three rows each) and t4 (four rows),
    then rows 38 … 43 of W1. -/
def wStack (W1 : Fin 44 → Fin 256 → EReal) (t30 t31 t32 : Fin 3 → Fin 256 → EReal) (t4 : Fin 4 → Fin 256 → EReal)
    (d20 d21 d22 d30 r1 r0 : Fin 256 → EReal) (l : Fin 18) (j : Fin 256) : EReal :=
  match l with
  | ⟨0, _⟩ => d20 j
  | ⟨1, _⟩ => d21 j
  | ⟨2, _⟩ => d22 j
  | ⟨3, _⟩ => d30 j
  | ⟨4, _⟩ => r1 j - r0 j
  | ⟨5, _⟩ => t32 1 j - t32 0 j
  | ⟨6, _⟩ => t4 1 j - t4 0 j
  | ⟨7, _⟩ => t30 2 j - t30 1 j
  | ⟨8, _⟩ => t31 2 j - t31 1 j
  | ⟨9, _⟩ => t32 2 j - t32 1 j
  | ⟨10, _⟩ => t4 2 j - t4 1 j
  | ⟨11, _⟩ => t4 3 j - t4 2 j
  | ⟨n + 12, h⟩ => W1 ⟨38 + n, by omega⟩ j

/-- Over the folded tables themselves the stacked weights are the folded weights. -/
theorem wStack_fold (e20 e21 e22 : Fin 2 → Fin 4 → EReal) (e30 e31 e32 : Fin 3 → Fin 6 → EReal) (e4 : Fin 4 → Fin 8 → EReal)
    (W1 : Fin 44 → Fin 256 → EReal) (l : Fin 18) (j : Fin 256) :
    wStack W1 (fold e30 W1 12 (by omega)) (fold e31 W1 18 (by omega)) (fold e32 W1 24 (by omega)) (fold e4 W1 30 (by omega))
        (fun j => fold e20 W1 0 (by omega) 1 j - fold e20 W1 0 (by omega) 0 j)
        (fun j => fold e21 W1 4 (by omega) 1 j - fold e21 W1 4 (by omega) 0 j)
        (fun j => fold e22 W1 8 (by omega) 1 j - fold e22 W1 8 (by omega) 0 j)
        (fun j => fold e30 W1 12 (by omega) 1 j - fold e30 W1 12 (by omega) 0 j)
        (fold e31 W1 18 (by omega) 1) (fold e31 W1 18 (by omega) 0) l j
      = wfoldS e20 e21 e22 e30 e31 e32 e4 W1 l j :=
  match l with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨_ + 12, _⟩ => rfl

/-- A stack of pieces along the rows, read at a row that one of its one-row pieces fills: that piece at (0, j). -/
theorem stackRow_apply (xs : List ((s : Shape) × (s.Idx → EReal))) (h : Shape.Concatenates (xs.map (·.1)) S18x256 0)
    (k : Nat) (hk : k < xs.length) (r : S1x256.Idx → EReal) (hxk : xs[k] = ⟨S1x256, r⟩)
    (hpre : (((xs.take k).map (·.1)).map fun s : Shape =>
      if h : s.rank = S18x256.rank then s.size ((0 : Fin S18x256.rank).cast h.symm) else 0).sum = k)
    (hk18 : k < 18) (j : Fin 256) :
    concatenate S18x256 0 xs h (ix2 (⟨k, hk18⟩ : Fin 18) j) = r (ix2 (0 : Fin 1) j) :=
  concatenate_apply_piece 0 xs h (ix2 (⟨k, hk18⟩ : Fin 18) j) k hk S1x256 r hxk rfl k hpre (ix2 (0 : Fin 1) j)
    (fun b hb =>
      match b, hb with
      | ⟨0, _⟩, hb => absurd rfl hb
      | ⟨1, _⟩, _ => rfl)
    rfl

/-- The same stack read at a row of its last piece, the six-row one that starts at row 12. -/
theorem stackTail_apply (xs : List ((s : Shape) × (s.Idx → EReal))) (h : Shape.Concatenates (xs.map (·.1)) S18x256 0)
    (hk : 12 < xs.length) (w : S6x256.Idx → EReal) (hxk : xs[12] = ⟨S6x256, w⟩)
    (hpre : (((xs.take 12).map (·.1)).map fun s : Shape =>
      if h : s.rank = S18x256.rank then s.size ((0 : Fin S18x256.rank).cast h.symm) else 0).sum = 12)
    (n : Nat) (hn : n + 12 < 18) (j : Fin 256) :
    concatenate S18x256 0 xs h (ix2 (⟨n + 12, hn⟩ : Fin 18) j) = w (ix2 (⟨n, by omega⟩ : Fin 6) j) :=
  concatenate_apply_piece 0 xs h (ix2 (⟨n + 12, hn⟩ : Fin 18) j) 12 hk S6x256 w hxk rfl 12 hpre
    (ix2 (⟨n, by omega⟩ : Fin 6) j)
    (fun b hb =>
      match b, hb with
      | ⟨0, _⟩, hb => absurd rfl hb
      | ⟨1, _⟩, _ => rfl)
    (Nat.add_comm 12 n)

/-- The first layer's product at (p, j): the sum over the 18 lanes of the thermometer row times the stacked weights. -/
theorem pay16_apply (v0 : Vec Ideal S44x256 .f32) (v12 v15 v18 : FVec Ideal S3x256 .f32) (v21 : FVec Ideal S4x256 .f32)
    (v24 v27 v30 v33 v34 v35 : FVec Ideal S1x256 .f32) (v76 : Vec Ideal S4096x18 .f32) (v81 : Vec Ideal S1x18 .f32)
    (p : Fin 4096) (j : Fin 256) :
    k0_pay16 (F := Ideal) v0 v12 v15 v18 v21 v24 v27 v30 v33 v34 v35 v76 v81 (ix2 p j)
      = ∑ l : Fin 18, sRow (fun l => v76 (ix2 p l)) (fun l => v81 (ix2 (0 : Fin 1) l)) l
          * wStack (fun k j => v0 (ix2 k j)) (fun a j => v12 (ix2 a j)) (fun a j => v15 (ix2 a j))
              (fun a j => v18 (ix2 a j)) (fun a j => v21 (ix2 a j)) (fun j => v24 (ix2 (0 : Fin 1) j))
              (fun j => v27 (ix2 (0 : Fin 1) j)) (fun j => v30 (ix2 (0 : Fin 1) j)) (fun j => v33 (ix2 (0 : Fin 1) j))
              (fun j => v34 (ix2 (0 : Fin 1) j)) (fun j => v35 (ix2 (0 : Fin 1) j)) l j := by
  unfold k0_pay16
  refine (PlainDot.matmul_zero_apply _ (PlainDot.eq_plain _ rfl rfl rfl rfl rfl rfl) none _ _ p j).trans ?_
  refine Finset.sum_congr rfl fun l _ => ?_
  refine congrArg₂ (· * ·) (selRow_apply v76 v81 _ _ _ _ p l) ?_
  match l with
  | ⟨0, _⟩ => exact (stackRow_apply _ _ 0 (by show 0 < 13; decide) _ rfl rfl _ j).trans rfl
  | ⟨1, _⟩ => exact (stackRow_apply _ _ 1 (by show 1 < 13; decide) _ rfl rfl _ j).trans rfl
  | ⟨2, _⟩ => exact (stackRow_apply _ _ 2 (by show 2 < 13; decide) _ rfl rfl _ j).trans rfl
  | ⟨3, _⟩ => exact (stackRow_apply _ _ 3 (by show 3 < 13; decide) _ rfl rfl _ j).trans rfl
  | ⟨4, _⟩ => exact (stackRow_apply _ _ 4 (by show 4 < 13; decide) _ rfl rfl _ j).trans rfl
  | ⟨5, _⟩ =>
    exact (stackRow_apply _ _ 5 (by show 5 < 13; decide) _ rfl rfl _ j).trans (rowDiff_apply 1 0 v18 _ _ j (by omega) (by omega))
  | ⟨6, _⟩ =>
    exact (stackRow_apply _ _ 6 (by show 6 < 13; decide) _ rfl rfl _ j).trans (rowDiff_apply 1 0 v21 _ _ j (by omega) (by omega))
  | ⟨7, _⟩ =>
    exact (stackRow_apply _ _ 7 (by show 7 < 13; decide) _ rfl rfl _ j).trans (rowDiff_apply 2 1 v12 _ _ j (by omega) (by omega))
  | ⟨8, _⟩ =>
    exact (stackRow_apply _ _ 8 (by show 8 < 13; decide) _ rfl rfl _ j).trans (rowDiff_apply 2 1 v15 _ _ j (by omega) (by omega))
  | ⟨9, _⟩ =>
    exact (stackRow_apply _ _ 9 (by show 9 < 13; decide) _ rfl rfl _ j).trans (rowDiff_apply 2 1 v18 _ _ j (by omega) (by omega))
  | ⟨10, _⟩ =>
    exact (stackRow_apply _ _ 10 (by show 10 < 13; decide) _ rfl rfl _ j).trans (rowDiff_apply 2 1 v21 _ _ j (by omega) (by omega))
  | ⟨11, _⟩ =>
    exact (stackRow_apply _ _ 11 (by show 11 < 13; decide) _ rfl rfl _ j).trans (rowDiff_apply 3 2 v21 _ _ j (by omega) (by omega))
  | ⟨n + 12, hn⟩ =>
    exact (stackTail_apply _ _ (by show 12 < 13; decide) _ rfl rfl n hn j).trans
      (sliceRows_apply 38 v0 _ (⟨n, by omega⟩ : Fin 6) j (by omega))

end Cert.KernelIdeal.PayRead

end
-- ==== Proof.KPay.lean ====
/-
  The stored block read at an index.

  After the first product the kernel adds the bias row down the rows and applies tanh, multiplies by W2 and adds b2 down
  the rows, applies tanh, multiplies by W3 and adds b3, and applies the logistic function. Each product is the plain sum
  over the contracted axis and each bias a one-row matrix read at row 0. Put together with the first product (the
  thermometer row against the folded weights, plus the folded bias), the stored block at row p and column q is the
  perceptron's tail applied to the kernel's first-layer pre-activation of row p.
-/
import proofs.«154124_g78426102825261_cont_9to1_m_135_12_alg».proof.Proof.KOutIdeal
import proofs.«154124_g78426102825261_cont_9to1_m_135_12_alg».proof.Proof.KPayStack

noncomputable section

open scoped BigOperators

namespace Cert.KernelIdeal.PayRead

open Idealize.ShloMosaic Idealize.ShloMosaic.ValueIdx Cert.KernelIdeal Cert.KernelIdeal.Gen Cert.HeartMlp

/-- A one-row matrix broadcast down the rows, at (p, j): the row at (0, j). -/
theorem bcastRow_apply {α : Type} {M N : Nat} (x : (⟨2, ![1, N]⟩ : Shape).Idx → α)
    (h : (⟨2, ![1, N]⟩ : Shape).Broadcasts ⟨2, ![M, N]⟩) (hN : N ≠ 1) (p : Fin M) (j : Fin N) :
    broadcastTo ⟨2, ![M, N]⟩ x h (ix2 p j) = x (ix2 (0 : Fin 1) j) :=
  broadcastTo_apply x h (ix2 p j) (ix2 (0 : Fin 1) j) fun a =>
    match a with
    | ⟨0, _⟩ => rfl
    | ⟨1, _⟩ => (if_neg hN).symm

/-- A product into the zero accumulator plus a bias row, at (p, q). -/
theorem layer_apply {M K N : Nat} (D : DotDims ⟨2, ![M, K]⟩ ⟨2, ![K, N]⟩ ⟨2, ![M, N]⟩) (hD : D = DotDims.plain M K N)
    (x : FVec Ideal ⟨2, ![M, K]⟩ .f32) (W : FVec Ideal ⟨2, ![K, N]⟩ .f32) (b : FVec Ideal ⟨2, ![1, N]⟩ .f32)
    (h : (⟨2, ![1, N]⟩ : Shape).Broadcasts ⟨2, ![M, N]⟩) (hN : N ≠ 1) (p : Fin M) (q : Fin N) :
    addf (FloatOps.matmul D none x W (constant (F := Ideal) ⟨2, ![M, N]⟩ .f32 0x00000000#32))
        (broadcastTo ⟨2, ![M, N]⟩ b h) (ix2 p q)
      = (∑ k : Fin K, x (ix2 p k) * W (ix2 k q)) + b (ix2 (0 : Fin 1) q) :=
  congrArg₂ (· + ·) (PlainDot.matmul_zero_apply D hD none x W p q) (bcastRow_apply b h hN p q)

/-- A bias row added down the rows, then tanh, at (p, j). -/
theorem tanhBias_apply {M N : Nat} (y : FVec Ideal ⟨2, ![M, N]⟩ .f32) (b : FVec Ideal ⟨2, ![1, N]⟩ .f32)
    (h : (⟨2, ![1, N]⟩ : Shape).Broadcasts ⟨2, ![M, N]⟩) (hN : N ≠ 1) (p : Fin M) (j : Fin N) :
    tanh (addf y (broadcastTo ⟨2, ![M, N]⟩ b h)) (ix2 p j) = Ideal.tanh (y (ix2 p j) + b (ix2 (0 : Fin 1) j)) :=
  congrArg Ideal.tanh (congrArg (y (ix2 p j) + ·) (bcastRow_apply b h hN p j))

/-- The three layers over any first product v87 and bias row v75: the perceptron's tail of v87 + v75. -/
theorem pay1_apply (v75 : FVec Ideal S1x256 .f32) (v87 : FVec Ideal S4096x256 .f32) (v91 : Vec Ideal S256x128 .f32)
    (v93 : Vec Ideal S1x128 .f32) (v98 : Vec Ideal S128x2 .f32) (v100 : Vec Ideal S1x2 .f32) (p : Fin 4096) (q : Fin 2) :
    k0_pay1 (F := Ideal) v75 v87 v91 v93 v98 v100 (ix2 p q)
      = tail (fun j => v87 (ix2 p j) + v75 (ix2 (0 : Fin 1) j)) (fun j k => v91 (ix2 j k))
          (fun k => v93 (ix2 (0 : Fin 1) k)) (fun k q' => v98 (ix2 k q')) (fun q' => v100 (ix2 (0 : Fin 1) q')) q := by
  unfold k0_pay1 tail
  rw [shapeCast_self, shapeCast_self]
  refine (congrArg Ideal.logistic
    (layer_apply _ (PlainDot.eq_plain _ rfl rfl rfl rfl rfl rfl) _ v98 v100 _ (by decide) p q)).trans ?_
  refine congrArg Ideal.logistic (congrArg (· + v100 (ix2 (0 : Fin 1) q))
    (Finset.sum_congr rfl fun k _ => congrArg (· * v98 (ix2 k q)) ?_))
  refine (congrArg Ideal.tanh
    (layer_apply _ (PlainDot.eq_plain _ rfl rfl rfl rfl rfl rfl) _ v91 v93 _ (by decide) p k)).trans ?_
  refine congrArg Ideal.tanh (congrArg (· + v93 (ix2 (0 : Fin 1) k))
    (Finset.sum_congr rfl fun j _ => congrArg (· * v91 (ix2 j k)) ?_))
  exact tanhBias_apply v87 v75 _ (by decide) p j

/-- **The stored block at (p, q)**: the perceptron's tail of the kernel's first layer on packed row p — the thermometer
    row against the folded weights, plus the folded bias. -/
theorem kOut_apply (x0 : Vec Ideal S4096x18 .f32) (x1 : Vec Ideal S1x18 .f32) (x2 x3 x4 : Vec Ideal S2x4 .f32)
    (x5 x6 x7 : Vec Ideal S3x6 .f32) (x8 : Vec Ideal S4x8 .f32) (x9 : Vec Ideal S44x256 .f32)
    (x10 : Vec Ideal S1x256 .f32) (x11 : Vec Ideal S256x128 .f32) (x12 : Vec Ideal S1x128 .f32)
    (x13 : Vec Ideal S128x2 .f32) (x14 : Vec Ideal S1x2 .f32) (p : Fin 4096) (q : Fin 2) :
    Cert.KernelIdeal.Hand.kOut (F := Ideal) x0 x1 x2 x3 x4 x5 x6 x7 x8 x9 x10 x11 x12 x13 x14 (ix2 p q)
      = Cert.HeartMlp.tail
          (Cert.HeartMlp.kerZ
            (Cert.HeartMlp.sRow (fun l => x0 (ix2 p l)) (fun l => x1 (ix2 0 l)))
            (Cert.HeartMlp.wfoldS (fun a k => x2 (ix2 a k)) (fun a k => x3 (ix2 a k)) (fun a k => x4 (ix2 a k)) (fun a k => x5 (ix2 a k)) (fun a k => x6 (ix2 a k)) (fun a k => x7 (ix2 a k)) (fun a k => x8 (ix2 a k)) (fun k j => x9 (ix2 k j)))
            (Cert.HeartMlp.baseS (fun a k => x2 (ix2 a k)) (fun a k => x3 (ix2 a k)) (fun a k => x4 (ix2 a k)) (fun a k => x5 (ix2 a k)) (fun a k => x6 (ix2 a k)) (fun a k => x7 (ix2 a k)) (fun a k => x8 (ix2 a k)) (fun k j => x9 (ix2 k j)) (fun j => x10 (ix2 0 j))))
          (fun j k => x11 (ix2 j k)) (fun k => x12 (ix2 0 k)) (fun k q' => x13 (ix2 k q')) (fun q' => x14 (ix2 0 q')) q := by
  unfold Cert.KernelIdeal.Hand.kOut
  refine (pay1_apply _ _ x11 x12 x13 x14 p q).trans ?_
  refine congrArg (fun z => tail z (fun j k => x11 (ix2 j k)) (fun k => x12 (ix2 0 k)) (fun k q' => x13 (ix2 k q'))
    (fun q' => x14 (ix2 0 q')) q) (funext fun j => ?_)
  unfold kerZ
  refine congrArg₂ (· + ·) ?_ (bias_apply x2 x3 x4 x5 x6 x7 x8 x9 x10 j)
  refine (pay16_apply x9 _ _ _ _ _ _ _ _ _ _ x0 x1 p j).trans ?_
  refine Finset.sum_congr rfl fun l _ => congrArg (sRow (fun l => x0 (ix2 p l)) (fun l => x1 (ix2 0 l)) l * ·) ?_
  have e5 : (fun a j => k0_pay5 (F := Ideal) x9 x5 (ix2 a j)) = fold (fun a k => x5 (ix2 a k)) (fun k j => x9 (ix2 k j)) 12 (by omega) :=
    funext fun a => funext fun j => pay5_apply x9 x5 a j
  have e6 : (fun a j => k0_pay6 (F := Ideal) x9 x6 (ix2 a j)) = fold (fun a k => x6 (ix2 a k)) (fun k j => x9 (ix2 k j)) 18 (by omega) :=
    funext fun a => funext fun j => pay6_apply x9 x6 a j
  have e7 : (fun a j => k0_pay7 (F := Ideal) x9 x7 (ix2 a j)) = fold (fun a k => x7 (ix2 a k)) (fun k j => x9 (ix2 k j)) 24 (by omega) :=
    funext fun a => funext fun j => pay7_apply x9 x7 a j
  have e8 : (fun a j => k0_pay8 (F := Ideal) x9 x8 (ix2 a j)) = fold (fun a k => x8 (ix2 a k)) (fun k j => x9 (ix2 k j)) 30 (by omega) :=
    funext fun a => funext fun j => pay8_apply x9 x8 a j
  have e9 : (fun j => k0_pay9 (F := Ideal) x9 x2 (ix2 (0 : Fin 1) j))
      = fun j => fold (fun a k => x2 (ix2 a k)) (fun k j => x9 (ix2 k j)) 0 (by omega) 1 j - fold (fun a k => x2 (ix2 a k)) (fun k j => x9 (ix2 k j)) 0 (by omega) 0 j :=
    funext fun j => pay9_apply x9 x2 j
  have e10 : (fun j => k0_pay10 (F := Ideal) x9 x3 (ix2 (0 : Fin 1) j))
      = fun j => fold (fun a k => x3 (ix2 a k)) (fun k j => x9 (ix2 k j)) 4 (by omega) 1 j - fold (fun a k => x3 (ix2 a k)) (fun k j => x9 (ix2 k j)) 4 (by omega) 0 j :=
    funext fun j => pay10_apply x9 x3 j
  have e11 : (fun j => k0_pay11 (F := Ideal) x9 x4 (ix2 (0 : Fin 1) j))
      = fun j => fold (fun a k => x4 (ix2 a k)) (fun k j => x9 (ix2 k j)) 8 (by omega) 1 j - fold (fun a k => x4 (ix2 a k)) (fun k j => x9 (ix2 k j)) 8 (by omega) 0 j :=
    funext fun j => pay11_apply x9 x4 j
  have e12 : (fun j => k0_pay12 (F := Ideal) x9 x5 (ix2 (0 : Fin 1) j))
      = fun j => fold (fun a k => x5 (ix2 a k)) (fun k j => x9 (ix2 k j)) 12 (by omega) 1 j - fold (fun a k => x5 (ix2 a k)) (fun k j => x9 (ix2 k j)) 12 (by omega) 0 j :=
    funext fun j => pay12_apply x9 x5 j
  have e13 : (fun j => k0_pay13 (F := Ideal) x9 x6 (ix2 (0 : Fin 1) j)) = fold (fun a k => x6 (ix2 a k)) (fun k j => x9 (ix2 k j)) 18 (by omega) 1 :=
    funext fun j => pay13_apply x9 x6 j
  have e14 : (fun j => k0_pay14 (F := Ideal) x9 x6 (ix2 (0 : Fin 1) j)) = fold (fun a k => x6 (ix2 a k)) (fun k j => x9 (ix2 k j)) 18 (by omega) 0 :=
    funext fun j => pay14_apply x9 x6 j
  rw [e5, e6, e7, e8, e9, e10, e11, e12, e13, e14]
  exact wStack_fold (fun a k => x2 (ix2 a k)) (fun a k => x3 (ix2 a k)) (fun a k => x4 (ix2 a k)) (fun a k => x5 (ix2 a k)) (fun a k => x6 (ix2 a k)) (fun a k => x7 (ix2 a k)) (fun a k => x8 (ix2 a k)) (fun k j => x9 (ix2 k j)) l j

end Cert.KernelIdeal.PayRead

end
-- ==== Proof.KValueAt.lean ====
/-
  The value the kernel computes at a row and a result column, over the arguments read by coordinates, and a stored
  block at one of its entries as that value once every input block is known by coordinates.
-/
import proofs.«154124_g78426102825261_cont_9to1_m_135_12_alg».proof.Proof.KPay
import proofs.«154124_g78426102825261_cont_9to1_m_135_12_alg».proof.Proof.KOutIdeal
import proofs.«154124_g78426102825261_cont_9to1_m_135_12_alg».proof.Proof.Spec
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## The arguments, by coordinates -/

/-- The six continuous features of each row. -/
abbrev CON : Fin 16384 → Fin 6 → EReal := fun r k => (m ((c : Thread nD τ).loc main_arg0) : S16384x6.Idx → EReal) (ix2 r k)
/-- The three index columns of the two-row tables. -/
abbrev C2 : Fin 16384 → Fin 3 → BitVec 32 := fun r k => (m ((c : Thread nD τ).loc main_arg1) : S16384x3.Idx → BitVec 32) (ix2 r k)
/-- The three index columns of the three-row tables. -/
abbrev C3 : Fin 16384 → Fin 3 → BitVec 32 := fun r k => (m ((c : Thread nD τ).loc main_arg2) : S16384x3.Idx → BitVec 32) (ix2 r k)
/-- The index column of the four-row table. -/
abbrev C4 : Fin 16384 → Fin 1 → BitVec 32 := fun r k => (m ((c : Thread nD τ).loc main_arg3) : S16384x1.Idx → BitVec 32) (ix2 r k)
/-- The seven embedding tables. -/
abbrev E20 : Fin 2 → Fin 4 → EReal := fun a k => (m ((c : Thread nD τ).loc main_arg4) : S2x4.Idx → EReal) (ix2 a k)
abbrev E21 : Fin 2 → Fin 4 → EReal := fun a k => (m ((c : Thread nD τ).loc main_arg5) : S2x4.Idx → EReal) (ix2 a k)
abbrev E22 : Fin 2 → Fin 4 → EReal := fun a k => (m ((c : Thread nD τ).loc main_arg6) : S2x4.Idx → EReal) (ix2 a k)
abbrev E30 : Fin 3 → Fin 6 → EReal := fun a k => (m ((c : Thread nD τ).loc main_arg7) : S3x6.Idx → EReal) (ix2 a k)
abbrev E31 : Fin 3 → Fin 6 → EReal := fun a k => (m ((c : Thread nD τ).loc main_arg8) : S3x6.Idx → EReal) (ix2 a k)
abbrev E32 : Fin 3 → Fin 6 → EReal := fun a k => (m ((c : Thread nD τ).loc main_arg9) : S3x6.Idx → EReal) (ix2 a k)
abbrev E4 : Fin 4 → Fin 8 → EReal := fun a k => (m ((c : Thread nD τ).loc main_arg10) : S4x8.Idx → EReal) (ix2 a k)
/-- The three layers' weights and biases. -/
abbrev W1 : Fin 44 → Fin 256 → EReal := fun k j => (m ((c : Thread nD τ).loc main_arg11) : S44x256.Idx → EReal) (ix2 k j)
abbrev B1 : Fin 256 → EReal := fun j => (m ((c : Thread nD τ).loc main_arg12) : S256.Idx → EReal) (ix1 j)
abbrev W2 : Fin 256 → Fin 128 → EReal := fun j k => (m ((c : Thread nD τ).loc main_arg13) : S256x128.Idx → EReal) (ix2 j k)
abbrev B2 : Fin 128 → EReal := fun k => (m ((c : Thread nD τ).loc main_arg14) : S128.Idx → EReal) (ix1 k)
abbrev W3 : Fin 128 → Fin 2 → EReal := fun k q => (m ((c : Thread nD τ).loc main_arg15) : S128x2.Idx → EReal) (ix2 k q)
abbrev B3 : Fin 2 → EReal := fun q => (m ((c : Thread nD τ).loc main_arg16) : S2.Idx → EReal) (ix1 q)

/-- The kernel's value at row `r`, result column `q`: the two last layers on the first layer formed the kernel's way —
    the thermometer row of the packed row against the folded weights, plus the folded bias. -/
def valAt (r : Fin 16384) (q : Fin 2) : EReal :=
  Cert.HeartMlp.tail
    (Cert.HeartMlp.kerZ (Cert.HeartMlp.sRow (Cert.HeartMlp.packed (CON m c) (C2 m c) (C3 m c) (C4 m c) r) Cert.HeartMlp.thrLit)
      (Cert.HeartMlp.wfoldS (E20 m c) (E21 m c) (E22 m c) (E30 m c) (E31 m c) (E32 m c) (E4 m c) (W1 m c))
      (Cert.HeartMlp.baseS (E20 m c) (E21 m c) (E22 m c) (E30 m c) (E31 m c) (E32 m c) (E4 m c) (W1 m c) (B1 m c)))
    (W2 m c) (B2 m c) (W3 m c) (B3 m c) q

/-- The result array the kernel leaves: `valAt` at every row and column. -/
def G : S16384x2.Idx → EReal := fun i => valAt m c ⟨(i 0).val, idx2_lt0 i⟩ ⟨(i 1).val, idx2_lt1 i⟩

/-- A stored block at one of its entries, once every input block is known by coordinates: the value at the row
    the entry's block row stands for. -/
theorem block_value (x0 : Vec Ideal S4096x18 .f32) (x1 : Vec Ideal S1x18 .f32) (x2 x3 x4 : Vec Ideal S2x4 .f32) (x5 x6 x7 : Vec Ideal S3x6 .f32) (x8 : Vec Ideal S4x8 .f32) (x9 : Vec Ideal S44x256 .f32) (x10 : Vec Ideal S1x256 .f32) (x11 : Vec Ideal S256x128 .f32) (x12 : Vec Ideal S1x128 .f32) (x13 : Vec Ideal S128x2 .f32) (x14 : Vec Ideal S1x2 .f32)
    (y : S4096x2.Idx) (r : Fin 16384)
    (h0 : ∀ l, x0 (ix2 (y 0) l) = Cert.HeartMlp.packed (CON m c) (C2 m c) (C3 m c) (C4 m c) r l)
    (h1 : ∀ l, x1 (ix2 0 l) = Cert.HeartMlp.thrLit l)
    (h2 : ∀ a k, x2 (ix2 a k) = E20 m c a k) (h3 : ∀ a k, x3 (ix2 a k) = E21 m c a k) (h4 : ∀ a k, x4 (ix2 a k) = E22 m c a k)
    (h5 : ∀ a k, x5 (ix2 a k) = E30 m c a k) (h6 : ∀ a k, x6 (ix2 a k) = E31 m c a k) (h7 : ∀ a k, x7 (ix2 a k) = E32 m c a k)
    (h8 : ∀ a k, x8 (ix2 a k) = E4 m c a k) (h9 : ∀ k j, x9 (ix2 k j) = W1 m c k j) (h10 : ∀ j, x10 (ix2 0 j) = B1 m c j)
    (h11 : ∀ j k, x11 (ix2 j k) = W2 m c j k) (h12 : ∀ k, x12 (ix2 0 k) = B2 m c k)
    (h13 : ∀ k q, x13 (ix2 k q) = W3 m c k q) (h14 : ∀ q, x14 (ix2 0 q) = B3 m c q) :
    Cert.KernelIdeal.Hand.kOut (F := Ideal) x0 x1 x2 x3 x4 x5 x6 x7 x8 x9 x10 x11 x12 x13 x14 y = valAt m c r (y 1) := by
  refine (congrArg (Cert.KernelIdeal.Hand.kOut (F := Ideal) x0 x1 x2 x3 x4 x5 x6 x7 x8 x9 x10 x11 x12 x13 x14) (eq_ix2 y)).trans ?_
  refine (Cert.KernelIdeal.PayRead.kOut_apply x0 x1 x2 x3 x4 x5 x6 x7 x8 x9 x10 x11 x12 x13 x14 (y 0) (y 1)).trans ?_
  have f0 : (fun l => x0 (ix2 (y 0) l)) = Cert.HeartMlp.packed (CON m c) (C2 m c) (C3 m c) (C4 m c) r := funext h0
  have f1 : (fun l => x1 (ix2 0 l)) = Cert.HeartMlp.thrLit := funext h1
  have f2 : (fun a k => x2 (ix2 a k)) = E20 m c := funext fun a => funext (h2 a)
  have f3 : (fun a k => x3 (ix2 a k)) = E21 m c := funext fun a => funext (h3 a)
  have f4 : (fun a k => x4 (ix2 a k)) = E22 m c := funext fun a => funext (h4 a)
  have f5 : (fun a k => x5 (ix2 a k)) = E30 m c := funext fun a => funext (h5 a)
  have f6 : (fun a k => x6 (ix2 a k)) = E31 m c := funext fun a => funext (h6 a)
  have f7 : (fun a k => x7 (ix2 a k)) = E32 m c := funext fun a => funext (h7 a)
  have f8 : (fun a k => x8 (ix2 a k)) = E4 m c := funext fun a => funext (h8 a)
  have f9 : (fun k j => x9 (ix2 k j)) = W1 m c := funext fun k => funext (h9 k)
  have f10 : (fun j => x10 (ix2 0 j)) = B1 m c := funext h10
  have f11 : (fun j k => x11 (ix2 j k)) = W2 m c := funext fun j => funext (h11 j)
  have f12 : (fun k => x12 (ix2 0 k)) = B2 m c := funext h12
  have f13 : (fun k q' => x13 (ix2 k q')) = W3 m c := funext fun k => funext (h13 k)
  have f14 : (fun q' => x14 (ix2 0 q')) = B3 m c := funext h14
  rw [f0, f1, f2, f3, f4, f5, f6, f7, f8, f9, f10, f11, f12, f13, f14]
  rfl

end Cert.KernelIdeal.HandValue

end
-- ==== Proof.KHost.lean ====
/-
  The arrays the host operations write before the kernel region, read at an index: the three biases as rows, the row
  of thresholds, and the packed 18-column array.
-/
import proofs.«154124_g78426102825261_cont_9to1_m_135_12_alg».proof.Proof.KVIdeal
import proofs.«154124_g78426102825261_cont_9to1_m_135_12_alg».proof.Proof.Spec
import Idealize.ShloMosaic.Lib.Pipeline.Value
import Idealize.ShloMosaic.Lib.ValueLayout
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- The f32 word `0x3F800000` is `1`. -/
theorem ofBits_one : Ideal.ofBits .f32 0x3F800000#32 = (1 : EReal) := by
  simp [Ideal.ofBits, Ideal.ieee]
  rw [← EReal.coe_mul, ← EReal.coe_one]
  congr 1
  norm_num

/-- The f32 word `0x40000000` is `2`. -/
theorem ofBits_two : Ideal.ofBits .f32 0x40000000#32 = (2 : EReal) := by
  simp [Ideal.ofBits, Ideal.ieee]
  rw [← EReal.coe_mul, show (2 : EReal) = ((2 : ℝ) : EReal) from rfl]
  congr 1
  norm_num

/-- The f32 word `0x40400000` is `3`. -/
theorem ofBits_three : Ideal.ofBits .f32 0x40400000#32 = (3 : EReal) := by
  simp [Ideal.ofBits, Ideal.ieee]
  rw [← EReal.coe_mul, show (3 : EReal) = ((3 : ℝ) : EReal) from rfl]
  congr 1
  norm_num

/-- The f32 word `0x42C60000` is `99`. -/
theorem ofBits_ninety_nine : Ideal.ofBits .f32 0x42C60000#32 = (99 : EReal) := by
  simp [Ideal.ofBits, Ideal.ieee]
  rw [← EReal.coe_mul, show (99 : EReal) = ((99 : ℝ) : EReal) from rfl]
  congr 1
  norm_num

/-- The first bias as a row is the bias. -/
theorem V_b1 (j : Fin 256) :
    (Hand.V m c main_v5 : S1x256.Idx → EReal) (ix2 0 j) = (m ((c : Thread nD τ).loc main_arg12) : S256.Idx → EReal) (ix1 j) := by
  have e : (Hand.V m c main_v5 : S1x256.Idx → EReal)
      = shapeCast S1x256 (m ((c : Thread nD τ).loc main_arg12) : S256.Idx → EReal) shapeCasts_S256_S1x256 := by
    dsimp only [Hand.V, Gen.hostOps0]; after_results; rfl
  rw [e]
  exact shapeCast_a_1a_apply _ _ 0 j

/-- The second bias as a row is the bias. -/
theorem V_b2 (k : Fin 128) :
    (Hand.V m c main_v6 : S1x128.Idx → EReal) (ix2 0 k) = (m ((c : Thread nD τ).loc main_arg14) : S128.Idx → EReal) (ix1 k) := by
  have e : (Hand.V m c main_v6 : S1x128.Idx → EReal)
      = shapeCast S1x128 (m ((c : Thread nD τ).loc main_arg14) : S128.Idx → EReal) shapeCasts_S128_S1x128 := by
    dsimp only [Hand.V, Gen.hostOps0]; after_results; rfl
  rw [e]
  exact shapeCast_a_1a_apply _ _ 0 k

/-- The third bias as a row is the bias. -/
theorem V_b3 (q : Fin 2) :
    (Hand.V m c main_v7 : S1x2.Idx → EReal) (ix2 0 q) = (m ((c : Thread nD τ).loc main_arg16) : S2.Idx → EReal) (ix1 q) := by
  have e : (Hand.V m c main_v7 : S1x2.Idx → EReal)
      = shapeCast S1x2 (m ((c : Thread nD τ).loc main_arg16) : S2.Idx → EReal) shapeCasts_S2_S1x2 := by
    dsimp only [Hand.V, Gen.hostOps0]; after_results; rfl
  rw [e]
  exact shapeCast_a_1a_apply _ _ 0 q

/-- The row of thresholds holds 1 seven times, 2 four times, 3 once and 99 six times. -/
theorem V_thr (l : Fin 18) : (Hand.V m c main_v0 : S1x18.Idx → EReal) (ix2 0 l) = Cert.HeartMlp.thrLit l := by
  have e : (Hand.V m c main_v0 : S1x18.Idx → EReal)
      = broadcastInDim S1x18 ![1] bcast_S18_S1x18_1
          (fun i : S18.Idx => (FloatOps.ofBits (F := Ideal) .f32 (lit0 (S18.rowMajor i)) : EReal)) := by
    dsimp only [Hand.V, Gen.hostOps0]; after_results; rfl
  rw [e, broadcastInDim_apply (![1] : Fin 1 → Fin S1x18.rank) bcast_S18_S1x18_1 _ (ix2 0 l) (ix1 l)
    (fun a => by
      have ha : a = 0 := Subsingleton.elim _ _
      subst ha
      rfl)]
  have hl : S18.rowMajor (ix1 l) = l := Fin.ext (by rw [Shape.rowMajor_val_one])
  show (FloatOps.ofBits (F := Ideal) .f32 (lit0 (S18.rowMajor (ix1 l))) : EReal) = _
  rw [hl]
  unfold Cert.HeartMlp.thrLit
  match l with
  | ⟨0, _⟩ | ⟨1, _⟩ | ⟨2, _⟩ | ⟨3, _⟩ | ⟨4, _⟩ | ⟨5, _⟩ | ⟨6, _⟩ => exact ofBits_one.trans (if_pos (by simp)).symm
  | ⟨7, _⟩ | ⟨8, _⟩ | ⟨9, _⟩ | ⟨10, _⟩ =>
    exact ofBits_two.trans ((if_neg (by simp)).trans (if_pos (by simp))).symm
  | ⟨11, _⟩ => exact ofBits_three.trans ((if_neg (by simp)).trans ((if_neg (by simp)).trans (if_pos (by simp)))).symm
  | ⟨12, _⟩ | ⟨13, _⟩ | ⟨14, _⟩ | ⟨15, _⟩ | ⟨16, _⟩ | ⟨17, _⟩ =>
    exact ofBits_ninety_nine.trans ((if_neg (by simp)).trans ((if_neg (by simp)).trans (if_neg (by simp)))).symm
  | ⟨n + 18, h⟩ => exact absurd h (by omega)

/-- The packed array is the concatenation of the converted index columns and the features. -/
theorem V_main_v4_eq :
    (Hand.V m c main_v4 : S16384x18.Idx → EReal)
      = concatenate S16384x18 1
          [⟨S16384x3, (sitofp (F := Ideal) .f32 (m ((c : Thread nD τ).loc main_arg1) : S16384x3.Idx → BitVec 32) : S16384x3.Idx → EReal)⟩,
           ⟨S16384x3, (sitofp (F := Ideal) .f32 (m ((c : Thread nD τ).loc main_arg2) : S16384x3.Idx → BitVec 32) : S16384x3.Idx → EReal)⟩,
           ⟨S16384x1, (sitofp (F := Ideal) .f32 (m ((c : Thread nD τ).loc main_arg3) : S16384x1.Idx → BitVec 32) : S16384x1.Idx → EReal)⟩,
           ⟨S16384x3, (sitofp (F := Ideal) .f32 (m ((c : Thread nD τ).loc main_arg2) : S16384x3.Idx → BitVec 32) : S16384x3.Idx → EReal)⟩,
           ⟨S16384x1, (sitofp (F := Ideal) .f32 (m ((c : Thread nD τ).loc main_arg3) : S16384x1.Idx → BitVec 32) : S16384x1.Idx → EReal)⟩,
           ⟨S16384x1, (sitofp (F := Ideal) .f32 (m ((c : Thread nD τ).loc main_arg3) : S16384x1.Idx → BitVec 32) : S16384x1.Idx → EReal)⟩,
           ⟨S16384x6, (m ((c : Thread nD τ).loc main_arg0) : S16384x6.Idx → EReal)⟩]
          concatenates_S16384x3_S16384x3_S16384x1_S16384x3_S16384x1_S16384x1_S16384x6_S16384x18_d1 := by
  dsimp only [Hand.V, Gen.hostOps0]
  after_results
  rfl

/-- The packed array at row `r`, column `l`: the index columns of cat_2, cat_3, cat_4, again cat_3 and cat_4, again
    cat_4, each read as a signed integer, then the six features. -/
theorem V_packed (r : Fin 16384) (l : Fin 18) :
    (Hand.V m c main_v4 : S16384x18.Idx → EReal) (ix2 r l)
      = Cert.HeartMlp.packed (fun r k => (m ((c : Thread nD τ).loc main_arg0) : S16384x6.Idx → EReal) (ix2 r k))
          (fun r k => (m ((c : Thread nD τ).loc main_arg1) : S16384x3.Idx → BitVec 32) (ix2 r k))
          (fun r k => (m ((c : Thread nD τ).loc main_arg2) : S16384x3.Idx → BitVec 32) (ix2 r k))
          (fun r k => (m ((c : Thread nD τ).loc main_arg3) : S16384x1.Idx → BitVec 32) (ix2 r k)) r l := by
  rw [V_main_v4_eq]
  unfold Cert.HeartMlp.packed
  have hl := l.isLt
  have hcases : l.val < 3 ∨ (3 ≤ l.val ∧ l.val < 6) ∨ l.val = 6 ∨ (7 ≤ l.val ∧ l.val < 10) ∨ l.val = 10 ∨ l.val = 11
      ∨ 12 ≤ l.val := by omega
  rcases hcases with h | h | h | h | h | h | h
  · rw [dif_pos h]
    refine (concatenate_apply_piece (1 : Fin S16384x18.rank) _ _ (ix2 r l) 0 (by show 0 < 7; omega) S16384x3 _ rfl rfl 0 rfl
      (ix2 r ⟨l.val, h⟩) (fun b hb => ?_) ?_).trans rfl
    · match b with
      | ⟨0, _⟩ => rfl
      | ⟨1, _⟩ => exact absurd rfl hb
    · show 0 + l.val = l.val
      omega
  · rw [dif_neg (show ¬ l.val < 3 by omega), dif_pos (show l.val < 6 by omega)]
    refine (concatenate_apply_piece (1 : Fin S16384x18.rank) _ _ (ix2 r l) 1 (by show 1 < 7; omega) S16384x3 _ rfl rfl 3 rfl
      (ix2 r ⟨l.val - 3, by omega⟩) (fun b hb => ?_) ?_).trans rfl
    · match b with
      | ⟨0, _⟩ => rfl
      | ⟨1, _⟩ => exact absurd rfl hb
    · show 3 + (l.val - 3) = l.val
      omega
  · rw [dif_neg (show ¬ l.val < 3 by omega), dif_neg (show ¬ l.val < 6 by omega), if_pos (show l.val < 7 by omega)]
    refine (concatenate_apply_piece (1 : Fin S16384x18.rank) _ _ (ix2 r l) 2 (by show 2 < 7; omega) S16384x1 _ rfl rfl 6 rfl
      (ix2 r (0 : Fin 1)) (fun b hb => ?_) ?_).trans rfl
    · match b with
      | ⟨0, _⟩ => rfl
      | ⟨1, _⟩ => exact absurd rfl hb
    · show 6 + 0 = l.val
      omega
  · rw [dif_neg (show ¬ l.val < 3 by omega), dif_neg (show ¬ l.val < 6 by omega), if_neg (show ¬ l.val < 7 by omega), dif_pos (show l.val < 10 by omega)]
    refine (concatenate_apply_piece (1 : Fin S16384x18.rank) _ _ (ix2 r l) 3 (by show 3 < 7; omega) S16384x3 _ rfl rfl 7 rfl
      (ix2 r ⟨l.val - 7, by omega⟩) (fun b hb => ?_) ?_).trans rfl
    · match b with
      | ⟨0, _⟩ => rfl
      | ⟨1, _⟩ => exact absurd rfl hb
    · show 7 + (l.val - 7) = l.val
      omega
  · rw [dif_neg (show ¬ l.val < 3 by omega), dif_neg (show ¬ l.val < 6 by omega), if_neg (show ¬ l.val < 7 by omega), dif_neg (show ¬ l.val < 10 by omega), if_pos (show l.val < 12 by omega)]
    refine (concatenate_apply_piece (1 : Fin S16384x18.rank) _ _ (ix2 r l) 4 (by show 4 < 7; omega) S16384x1 _ rfl rfl 10 rfl
      (ix2 r (0 : Fin 1)) (fun b hb => ?_) ?_).trans rfl
    · match b with
      | ⟨0, _⟩ => rfl
      | ⟨1, _⟩ => exact absurd rfl hb
    · show 10 + 0 = l.val
      omega
  · rw [dif_neg (show ¬ l.val < 3 by omega), dif_neg (show ¬ l.val < 6 by omega), if_neg (show ¬ l.val < 7 by omega), dif_neg (show ¬ l.val < 10 by omega), if_pos (show l.val < 12 by omega)]
    refine (concatenate_apply_piece (1 : Fin S16384x18.rank) _ _ (ix2 r l) 5 (by show 5 < 7; omega) S16384x1 _ rfl rfl 11 rfl
      (ix2 r (0 : Fin 1)) (fun b hb => ?_) ?_).trans rfl
    · match b with
      | ⟨0, _⟩ => rfl
      | ⟨1, _⟩ => exact absurd rfl hb
    · show 11 + 0 = l.val
      omega
  · rw [dif_neg (show ¬ l.val < 3 by omega), dif_neg (show ¬ l.val < 6 by omega), if_neg (show ¬ l.val < 7 by omega), dif_neg (show ¬ l.val < 10 by omega), if_neg (show ¬ l.val < 12 by omega)]
    refine (concatenate_apply_piece (1 : Fin S16384x18.rank) _ _ (ix2 r l) 6 (by show 6 < 7; omega) S16384x6 _ rfl rfl 12 rfl
      (ix2 r ⟨l.val - 12, by omega⟩) (fun b hb => ?_) ?_).trans rfl
    · match b with
      | ⟨0, _⟩ => rfl
      | ⟨1, _⟩ => exact absurd rfl hb
    · show 12 + (l.val - 12) = l.val
      omega

end Cert.KernelIdeal.HandValue

end
-- ==== Proof.KValue.lean ====
/-
  The kernel program's result array as a function of its arguments: every block the region writes back is the
  perceptron's value on the rows the block holds, the four blocks cover the array, so the array holds that value
  row by row.
-/
import proofs.«154124_g78426102825261_cont_9to1_m_135_12_alg».proof.Proof.KValueBlocks
import proofs.«154124_g78426102825261_cont_9to1_m_135_12_alg».proof.Proof.KValueAt
import proofs.«154124_g78426102825261_cont_9to1_m_135_12_alg».proof.Proof.KHost
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- What grid point `t` writes back is block `t` of `G`: the stored block's entry `(p, q)` is the value at row
    `4096 t + p`, since the block of packed rows is those rows of the packed array and every other block is its whole
    array. -/
theorem flushed_eq (t : Fin cfg0.N) :
    (Hand.dats m 0 c).flushed 15 t = ((cfg0.win 15).blk t).view.read (Elt Ideal) (G m c) := by
  show (cfg0.win 15).cut (grid0.coords t) ((Hand.dats m 0 c).after 15 t) = _
  rw [Hand.after_15, Hand.outBlock_eq]
  obtain ⟨-, -, -, -, -, -, -, -, -, -, -, -, -, -, -, -, -, -, -, -, -, -, -, -, -, -, -, -, -, -, e0, e1⟩ := idx_facts t
  have ht : t.val < 4 := lt_of_lt_of_eq t.isLt (show cfg0.N = 4 from N_0)
  funext y
  have hy0 : (y 0).val < 4096 := (y 0).isLt
  have hy1 : (y 1).val < 2 := (y 1).isLt
  show Cert.KernelIdeal.Hand.kOut (F := Ideal) (Hand.iblk m c 0 t) (Hand.iblk m c 1 t) (Hand.iblk m c 2 t) (Hand.iblk m c 3 t) (Hand.iblk m c 4 t) (Hand.iblk m c 5 t) (Hand.iblk m c 6 t) (Hand.iblk m c 7 t) (Hand.iblk m c 8 t) (Hand.iblk m c 9 t) (Hand.iblk m c 10 t) (Hand.iblk m c 11 t) (Hand.iblk m c 12 t) (Hand.iblk m c 13 t) (Hand.iblk m c 14 t) y = G m c (((cfg0.win 15).blk t).view.emb y)
  have H0 : ∀ l, (Hand.iblk m c 0 t : S4096x18.Idx → EReal) (ix2 (⟨(y 0).val, hy0⟩ : Fin 4096) l)
      = Cert.HeartMlp.packed (CON m c) (C2 m c) (C3 m c) (C4 m c) ⟨t.val * 4096 + (y 0).val, by omega⟩ l := fun l =>
    (iblk0_apply m c t ⟨(y 0).val, hy0⟩ l ⟨t.val * 4096 + (y 0).val, by omega⟩ rfl).trans (V_packed m c _ l)
  have H1 : ∀ l, (Hand.iblk m c 1 t : S1x18.Idx → EReal) (ix2 0 l) = Cert.HeartMlp.thrLit l := fun l =>
    (congrFun (iblk1_eq m c t) (ix2 0 l)).trans (V_thr m c l)
  have H2 : ∀ a k, (Hand.iblk m c 2 t : S2x4.Idx → EReal) (ix2 a k) = E20 m c a k := fun a k =>
    (congrFun (iblk2_eq m c t) (ix2 a k)).trans (congrFun (Hand.V_main_arg4 m c) (ix2 a k))
  have H3 : ∀ a k, (Hand.iblk m c 3 t : S2x4.Idx → EReal) (ix2 a k) = E21 m c a k := fun a k =>
    (congrFun (iblk3_eq m c t) (ix2 a k)).trans (congrFun (Hand.V_main_arg5 m c) (ix2 a k))
  have H4 : ∀ a k, (Hand.iblk m c 4 t : S2x4.Idx → EReal) (ix2 a k) = E22 m c a k := fun a k =>
    (congrFun (iblk4_eq m c t) (ix2 a k)).trans (congrFun (Hand.V_main_arg6 m c) (ix2 a k))
  have H5 : ∀ a k, (Hand.iblk m c 5 t : S3x6.Idx → EReal) (ix2 a k) = E30 m c a k := fun a k =>
    (congrFun (iblk5_eq m c t) (ix2 a k)).trans (congrFun (Hand.V_main_arg7 m c) (ix2 a k))
  have H6 : ∀ a k, (Hand.iblk m c 6 t : S3x6.Idx → EReal) (ix2 a k) = E31 m c a k := fun a k =>
    (congrFun (iblk6_eq m c t) (ix2 a k)).trans (congrFun (Hand.V_main_arg8 m c) (ix2 a k))
  have H7 : ∀ a k, (Hand.iblk m c 7 t : S3x6.Idx → EReal) (ix2 a k) = E32 m c a k := fun a k =>
    (congrFun (iblk7_eq m c t) (ix2 a k)).trans (congrFun (Hand.V_main_arg9 m c) (ix2 a k))
  have H8 : ∀ a k, (Hand.iblk m c 8 t : S4x8.Idx → EReal) (ix2 a k) = E4 m c a k := fun a k =>
    (congrFun (iblk8_eq m c t) (ix2 a k)).trans (congrFun (Hand.V_main_arg10 m c) (ix2 a k))
  have H9 : ∀ k j, (Hand.iblk m c 9 t : S44x256.Idx → EReal) (ix2 k j) = W1 m c k j := fun k j =>
    (congrFun (iblk9_eq m c t) (ix2 k j)).trans (congrFun (Hand.V_main_arg11 m c) (ix2 k j))
  have H10 : ∀ j, (Hand.iblk m c 10 t : S1x256.Idx → EReal) (ix2 0 j) = B1 m c j := fun j =>
    (congrFun (iblk10_eq m c t) (ix2 0 j)).trans (V_b1 m c j)
  have H11 : ∀ j k, (Hand.iblk m c 11 t : S256x128.Idx → EReal) (ix2 j k) = W2 m c j k := fun j k =>
    (congrFun (iblk11_eq m c t) (ix2 j k)).trans (congrFun (Hand.V_main_arg13 m c) (ix2 j k))
  have H12 : ∀ k, (Hand.iblk m c 12 t : S1x128.Idx → EReal) (ix2 0 k) = B2 m c k := fun k =>
    (congrFun (iblk12_eq m c t) (ix2 0 k)).trans (V_b2 m c k)
  have H13 : ∀ k q, (Hand.iblk m c 13 t : S128x2.Idx → EReal) (ix2 k q) = W3 m c k q := fun k q =>
    (congrFun (iblk13_eq m c t) (ix2 k q)).trans (congrFun (Hand.V_main_arg15 m c) (ix2 k q))
  have H14 : ∀ q, (Hand.iblk m c 14 t : S1x2.Idx → EReal) (ix2 0 q) = B3 m c q := fun q =>
    (congrFun (iblk14_eq m c t) (ix2 0 q)).trans (V_b3 m c q)
  have hb := block_value m c (Hand.iblk m c 0 t) (Hand.iblk m c 1 t) (Hand.iblk m c 2 t) (Hand.iblk m c 3 t) (Hand.iblk m c 4 t) (Hand.iblk m c 5 t) (Hand.iblk m c 6 t) (Hand.iblk m c 7 t) (Hand.iblk m c 8 t) (Hand.iblk m c 9 t) (Hand.iblk m c 10 t) (Hand.iblk m c 11 t) (Hand.iblk m c 12 t) (Hand.iblk m c 13 t) (Hand.iblk m c 14 t) y ⟨t.val * 4096 + (y 0).val, by omega⟩ H0 H1 H2 H3 H4 H5 H6 H7 H8 H9 H10 H11 H12 H13 H14
  unfold G
  refine hb.trans (congr (congrArg (valAt m c) (Fin.ext ?_)) (Fin.ext ?_))
  · show t.val * 4096 + (y 0).val = win0_15.index t (0 : Fin 2) * 4096 + 1 * (y 0).val
    omega
  · show (y 1).val = win0_15.index t (1 : Fin 2) * 2 + 1 * (y 1).val
    omega

/-- An index of the result array is in point `t`'s block iff each coordinate is in the block's range on its axis. -/
theorem mem_blk (t : Fin cfg0.N) (i : S16384x2.Idx) :
    i ∈ ((cfg0.win 15).blk t).view.set ↔ ∀ a : Fin 2, win0_15.index t a * S4096x2.size a ≤ (i a).val ∧ (i a).val < win0_15.index t a * S4096x2.size a + S4096x2.size a := by
  show i ∈ ((View.whole main_v8).slice (win0_15.rect t)).set ↔ _
  rw [View.set_slice_whole, Rect.mem_set_unit]
  exact Iff.rfl

/-- Every index of the result array is in the block of the point its row falls to: row `r` in point `r / 4096`. -/
theorem cover (i : S16384x2.Idx) :
    ∃ t : Fin cfg0.N, (cfg0.win 15).flush t = true ∧ i ∈ ((cfg0.win 15).blk t).view.set := by
  have hi0 : (i 0).val < 16384 := idx2_lt0 i
  have hi1 : (i 1).val < 2 := idx2_lt1 i
  have hlt : (i 0).val / 4096 < cfg0.N := by rw [show cfg0.N = 4 from N_0]; omega
  obtain ⟨t, ht⟩ : ∃ t : Fin cfg0.N, t.val = (i 0).val / 4096 := ⟨⟨_, hlt⟩, rfl⟩
  obtain ⟨-, -, -, -, -, -, -, -, -, -, -, -, -, -, -, -, -, -, -, -, -, -, -, -, -, -, -, -, -, -, e0, e1⟩ := idx_facts t
  refine ⟨t, flush0_15 t, ?_⟩
  rw [mem_blk]
  intro a
  match a with
  | ⟨0, _⟩ =>
    show win0_15.index t (0 : Fin 2) * 4096 ≤ (i 0).val ∧ (i 0).val < win0_15.index t (0 : Fin 2) * 4096 + 4096
    omega
  | ⟨1, _⟩ =>
    show win0_15.index t (1 : Fin 2) * 2 ≤ (i 1).val ∧ (i 1).val < win0_15.index t (1 : Fin 2) * 2 + 2
    omega

/-- The result array after the region is `G`. -/
theorem final : (Hand.dats m 0 c).arrAt 15 cfg0.N = G m c :=
  (Hand.dats m 0 c).arrAt_eq_of_cover 15 (G m c) (fun t _ => flushed_eq m c t) cover

/-- **The kernel program's result array, entry by entry**: at row `r`, column `q`, the two last layers on the first
    layer formed from the thermometer row of packed row `r`, the folded weights and the folded bias. -/
theorem kernel_value (r : Fin 16384) (q : Fin 2) :
    ((Hand.dats m 0 c).arrAt 15 cfg0.N : S16384x2.Idx → EReal) (ix2 r q)
      = Cert.HeartMlp.tail
          (Cert.HeartMlp.kerZ
            (Cert.HeartMlp.sRow (Cert.HeartMlp.packed (CON m c) (C2 m c) (C3 m c) (C4 m c) r) Cert.HeartMlp.thrLit)
            (Cert.HeartMlp.wfoldS (E20 m c) (E21 m c) (E22 m c) (E30 m c) (E31 m c) (E32 m c) (E4 m c) (W1 m c))
            (Cert.HeartMlp.baseS (E20 m c) (E21 m c) (E22 m c) (E30 m c) (E31 m c) (E32 m c) (E4 m c) (W1 m c) (B1 m c)))
          (W2 m c) (B2 m c) (W3 m c) (B3 m c) q := by
  rw [final m c]
  rfl

end Cert.KernelIdeal.HandValue

end
-- ==== Proof.LibConcatRead.lean ====
/-
  A general lemma: a concatenation read at an index.

  A concatenation of n pieces along one axis, read at an index, is the piece that holds the index, read at the index
  shifted back along that axis by the extents of the pieces before it: if the axis coordinate is the sum of the first p
  pieces' extents plus an offset below the extent of piece p, the value is piece p at that offset, the other
  coordinates unchanged. Corollaries: two and three blocks of columns of rank-2 arrays laid side by side, read in
  each block.
-/
import Idealize.ShloMosaic.Lib.ValueIdx
import Idealize.ShloMosaic.Lib.Pipeline.Value

noncomputable section

namespace Cert.Lib.ConcatRead

open Idealize.ShloMosaic Idealize.ShloMosaic.ValueIdx

/-- Where a position falls among extents laid end to end: if it is the first `p` extents' sum plus an offset below
    extent `p`, it falls in piece `p` at that offset. -/
theorem locate_eq_of : ∀ (ns : List Nat) (c : Nat) (h : c < ns.sum) (p : Nat) (hp : p < ns.length) (off : Nat)
    (hoff : off < ns[p]) (_ : (ns.take p).sum + off = c), locate ns c h = ⟨⟨p, hp⟩, ⟨off, hoff⟩⟩
  | [], _, h, _, _, _, _, _ => absurd h (Nat.not_lt_zero _)
  | n :: ns, c, h, 0, hp, off, hoff, hs => by
    have hc : c < n := by simp at hs hoff; omega
    rw [locate, dif_pos hc]
    simp at hs
    subst hs
    rfl
  | n :: ns, c, h, p + 1, hp, off, hoff, hs => by
    have hs' : n + ((ns.take p).sum + off) = c := by simpa [List.take_succ_cons, Nat.add_assoc] using hs
    have hc : ¬ c < n := by omega
    have hp' : p < ns.length := by simpa using hp
    have hoff' : off < ns[p] := by simpa using hoff
    have ih := locate_eq_of ns (c - n) (by rw [List.sum_cons] at h; omega) p hp' off hoff' (by omega)
    rw [locate, dif_neg hc]
    have key : ∀ x : (k : Fin ns.length) × Fin ns[k], x = ⟨⟨p, hp'⟩, ⟨off, hoff'⟩⟩ →
        (⟨x.1.succ, x.2⟩ : (k : Fin (n :: ns).length) × Fin (n :: ns)[k]) = ⟨⟨p + 1, hp⟩, ⟨off, hoff⟩⟩ := by
      rintro _ rfl; rfl
    exact key _ ih

variable {α : Type}

/-- A CONCATENATION READ AT `j`: if `j`'s coordinate on the axis is the first `p` pieces' extents plus the axis coordinate
    of an index `i` of piece `p`, and `i` has `j`'s coordinates on the other axes, the value is piece `p` at `i`. -/
theorem concatenate_apply_piece {t : Shape} (a : Fin t.rank) (xs : List ((s : Shape) × (s.Idx → α)))
    (h : Shape.Concatenates (xs.map (·.1)) t a) (j : t.Idx)
    (p : Nat) (hp : p < xs.length) (hr : (xs[p]).1.rank = t.rank) (i : (xs[p]).1.Idx)
    (hoff : ((xs.take p).map fun q => if h' : q.1.rank = t.rank then q.1.size (a.cast h'.symm) else 0).sum
        + (i (a.cast hr.symm)).val = (j a).val)
    (hi : ∀ b : Fin (xs[p]).1.rank, b.cast hr ≠ a → (i b).val = (j (b.cast hr)).val) :
    concatenate t a xs h j = (xs[p]).2 i := by
  let ns : List Nat := (xs.map (·.1)).map fun s => if h' : s.rank = t.rank then s.size (a.cast h'.symm) else 0
  have hlen : ns.length = xs.length := by simp [ns]
  have hpn : p < ns.length := by rw [hlen]; exact hp
  have hkx : ∀ kr : (k : Fin ns.length) × Fin ns[k], kr.1.val < xs.length := fun kr => by rw [← hlen]; exact kr.1.isLt
  have PF : (j a).val < ns.sum := by rw [h.2.2]; exact (j a).isLt
  have hnp : ns[p]'hpn = (xs[p]).1.size (a.cast hr.symm) := by simp [ns, dif_pos hr]
  have hns : ns = xs.map (fun q => if h' : q.1.rank = t.rank then q.1.size (a.cast h'.symm) else 0) := by
    simp only [ns, List.map_map]; rfl
  have htake : (ns.take p).sum + (i (a.cast hr.symm)).val = (j a).val := by
    rw [hns, ← List.map_take]; exact hoff
  have HL := locate_eq_of ns (j a).val PF p hpn (i (a.cast hr.symm)).val (by rw [hnp]; exact (i _).isLt) htake
  have HR : ∀ kr : (k : Fin ns.length) × Fin ns[k], (xs[kr.1.val]'(hkx kr)).1.rank = t.rank := fun kr =>
    (h.2.1 _ (List.mem_map.2 ⟨_, List.getElem_mem _, rfl⟩)).1
  have HK : ∀ kr : (k : Fin ns.length) × Fin ns[k], ∀ b : Fin (xs[kr.1.val]'(hkx kr)).1.rank, b.cast (HR kr) = a →
      ns[kr.1] = (xs[kr.1.val]'(hkx kr)).1.size b := fun kr b hb => by
    have e : ns[kr.1.val]'kr.1.isLt = if h' : (xs[kr.1.val]'(hkx kr)).1.rank = t.rank
        then (xs[kr.1.val]'(hkx kr)).1.size (a.cast h'.symm) else 0 := by simp [ns]
    rw [Fin.getElem_fin, e, dif_pos (HR kr)]
    refine congrArg _ (Fin.ext ?_)
    have := congrArg Fin.val hb
    simpa using this.symm
  have HB : ∀ kr : (k : Fin ns.length) × Fin ns[k], ∀ b : Fin (xs[kr.1.val]'(hkx kr)).1.rank, b.cast (HR kr) ≠ a →
      t.size (b.cast (HR kr)) = (xs[kr.1.val]'(hkx kr)).1.size b := fun kr b hb =>
    ((h.2.1 _ (List.mem_map.2 ⟨_, List.getElem_mem _, rfl⟩)).2 (b.cast (HR kr)) hb).symm
  show (fun kr : (k : Fin ns.length) × Fin ns[k] =>
      (xs[kr.1.val]'(hkx kr)).2 (fun b => if hb : b.cast (HR kr) = a then kr.2.cast (HK kr b hb) else (j (b.cast (HR kr))).cast (HB kr b hb)))
      (locate ns (j a).val PF) = (xs[p]).2 i
  rw [HL]
  show (xs[p]).2 _ = (xs[p]).2 i
  refine congrArg (xs[p]).2 (funext fun b => Fin.ext ?_)
  split
  · next hb =>
    have eb : b = a.cast hr.symm := Fin.ext (by have := congrArg Fin.val hb; simpa using this)
    subst eb
    rfl
  · next hb => exact (hi b hb).symm

/-! ## Blocks of columns side by side -/

section Cols

/-- Two blocks of columns side by side, read in the first block. -/
theorem cat2_cols_0 {m c0 c1 n : Nat} (x0 : (⟨2, ![m, c0]⟩ : Shape).Idx → α) (x1 : (⟨2, ![m, c1]⟩ : Shape).Idx → α)
    (h : Shape.Concatenates [⟨2, ![m, c0]⟩, ⟨2, ![m, c1]⟩] ⟨2, ![m, n]⟩ 1) (r : Fin m) (k : Fin n) (k' : Fin c0)
    (hk : k.val = k'.val) :
    concatenate ⟨2, ![m, n]⟩ 1 [⟨⟨2, ![m, c0]⟩, x0⟩, ⟨⟨2, ![m, c1]⟩, x1⟩] h (ix2 r k) = x0 (ix2 r k') :=
  concatenate_apply_piece 1 [⟨⟨2, ![m, c0]⟩, x0⟩, ⟨⟨2, ![m, c1]⟩, x1⟩] h (ix2 r k) 0 (Nat.zero_lt_succ _) rfl (ix2 r k')
    (by show 0 + k'.val = k.val; omega)
    (fun b hb => by
      match b with
      | ⟨0, _⟩ => rfl
      | ⟨1, _⟩ => exact absurd rfl hb)

/-- Two blocks of columns side by side, read in the second block. -/
theorem cat2_cols_1 {m c0 c1 n : Nat} (x0 : (⟨2, ![m, c0]⟩ : Shape).Idx → α) (x1 : (⟨2, ![m, c1]⟩ : Shape).Idx → α)
    (h : Shape.Concatenates [⟨2, ![m, c0]⟩, ⟨2, ![m, c1]⟩] ⟨2, ![m, n]⟩ 1) (r : Fin m) (k : Fin n) (k' : Fin c1)
    (hk : k.val = c0 + k'.val) :
    concatenate ⟨2, ![m, n]⟩ 1 [⟨⟨2, ![m, c0]⟩, x0⟩, ⟨⟨2, ![m, c1]⟩, x1⟩] h (ix2 r k) = x1 (ix2 r k') :=
  concatenate_apply_piece 1 [⟨⟨2, ![m, c0]⟩, x0⟩, ⟨⟨2, ![m, c1]⟩, x1⟩] h (ix2 r k) 1 (Nat.succ_lt_succ (Nat.zero_lt_succ _)) rfl (ix2 r k')
    (by show (c0 + 0) + k'.val = k.val; omega)
    (fun b hb => by
      match b with
      | ⟨0, _⟩ => rfl
      | ⟨1, _⟩ => exact absurd rfl hb)

/-- Three blocks of columns side by side, read in the first block. -/
theorem cat3_cols_0 {m c0 c1 c2 n : Nat} (x0 : (⟨2, ![m, c0]⟩ : Shape).Idx → α) (x1 : (⟨2, ![m, c1]⟩ : Shape).Idx → α)
    (x2 : (⟨2, ![m, c2]⟩ : Shape).Idx → α)
    (h : Shape.Concatenates [⟨2, ![m, c0]⟩, ⟨2, ![m, c1]⟩, ⟨2, ![m, c2]⟩] ⟨2, ![m, n]⟩ 1) (r : Fin m) (k : Fin n)
    (k' : Fin c0) (hk : k.val = k'.val) :
    concatenate ⟨2, ![m, n]⟩ 1 [⟨⟨2, ![m, c0]⟩, x0⟩, ⟨⟨2, ![m, c1]⟩, x1⟩, ⟨⟨2, ![m, c2]⟩, x2⟩] h (ix2 r k) = x0 (ix2 r k') :=
  concatenate_apply_piece 1 [⟨⟨2, ![m, c0]⟩, x0⟩, ⟨⟨2, ![m, c1]⟩, x1⟩, ⟨⟨2, ![m, c2]⟩, x2⟩] h (ix2 r k) 0 (Nat.zero_lt_succ _) rfl
    (ix2 r k') (by show 0 + k'.val = k.val; omega)
    (fun b hb => by
      match b with
      | ⟨0, _⟩ => rfl
      | ⟨1, _⟩ => exact absurd rfl hb)

/-- Three blocks of columns side by side, read in the second block. -/
theorem cat3_cols_1 {m c0 c1 c2 n : Nat} (x0 : (⟨2, ![m, c0]⟩ : Shape).Idx → α) (x1 : (⟨2, ![m, c1]⟩ : Shape).Idx → α)
    (x2 : (⟨2, ![m, c2]⟩ : Shape).Idx → α)
    (h : Shape.Concatenates [⟨2, ![m, c0]⟩, ⟨2, ![m, c1]⟩, ⟨2, ![m, c2]⟩] ⟨2, ![m, n]⟩ 1) (r : Fin m) (k : Fin n)
    (k' : Fin c1) (hk : k.val = c0 + k'.val) :
    concatenate ⟨2, ![m, n]⟩ 1 [⟨⟨2, ![m, c0]⟩, x0⟩, ⟨⟨2, ![m, c1]⟩, x1⟩, ⟨⟨2, ![m, c2]⟩, x2⟩] h (ix2 r k) = x1 (ix2 r k') :=
  concatenate_apply_piece 1 [⟨⟨2, ![m, c0]⟩, x0⟩, ⟨⟨2, ![m, c1]⟩, x1⟩, ⟨⟨2, ![m, c2]⟩, x2⟩] h (ix2 r k) 1 (Nat.succ_lt_succ (Nat.zero_lt_succ _)) rfl
    (ix2 r k') (by show (c0 + 0) + k'.val = k.val; omega)
    (fun b hb => by
      match b with
      | ⟨0, _⟩ => rfl
      | ⟨1, _⟩ => exact absurd rfl hb)

/-- Three blocks of columns side by side, read in the third block. -/
theorem cat3_cols_2 {m c0 c1 c2 n : Nat} (x0 : (⟨2, ![m, c0]⟩ : Shape).Idx → α) (x1 : (⟨2, ![m, c1]⟩ : Shape).Idx → α)
    (x2 : (⟨2, ![m, c2]⟩ : Shape).Idx → α)
    (h : Shape.Concatenates [⟨2, ![m, c0]⟩, ⟨2, ![m, c1]⟩, ⟨2, ![m, c2]⟩] ⟨2, ![m, n]⟩ 1) (r : Fin m) (k : Fin n)
    (k' : Fin c2) (hk : k.val = c0 + c1 + k'.val) :
    concatenate ⟨2, ![m, n]⟩ 1 [⟨⟨2, ![m, c0]⟩, x0⟩, ⟨⟨2, ![m, c1]⟩, x1⟩, ⟨⟨2, ![m, c2]⟩, x2⟩] h (ix2 r k) = x2 (ix2 r k') :=
  concatenate_apply_piece 1 [⟨⟨2, ![m, c0]⟩, x0⟩, ⟨⟨2, ![m, c1]⟩, x1⟩, ⟨⟨2, ![m, c2]⟩, x2⟩] h (ix2 r k) 2 (Nat.succ_lt_succ (Nat.succ_lt_succ (Nat.zero_lt_succ _))) rfl
    (ix2 r k') (by show (c0 + (c1 + 0)) + k'.val = k.val; omega)
    (fun b hb => by
      match b with
      | ⟨0, _⟩ => rfl
      | ⟨1, _⟩ => exact absurd rfl hb)

end Cols

end Cert.Lib.ConcatRead

end
-- ==== Proof.LibGatherRows.lean ====
/-
  A general lemma: the "row" gather read at an index.

  What `table[ids]` of a table `[B, C]` at an integer array `ids : [N]` lowers to: `stablehlo.gather` with
  offset_dims `[1]`, collapsed_slice_dims `[0]`, start_index_map `[0]`, slice_sizes `[1, C]` and index_vector_dim 1
  over the indices as `[N, 1]`. Result element `(n, c)` is the table's element `(r, c)` where the row `r` is the
  start index `ids[n, 0]` read as a signed integer and clamped into `[0, B − 1]`.
-/
import Idealize.ShloMosaic.Lib.ValueIdx

noncomputable section

namespace Cert.Lib.GatherRows

open Idealize.ShloMosaic Idealize.ShloMosaic.ValueIdx

variable {α : Type}

/-- The dimension numbers of a row gather: operand `[B, C]`, start indices `[N, 1]`, result `[N, C]`; the operand's
    axis 0 is collapsed and indexed, its axis 1 is copied whole (slice sizes `[1, C]`). The conditions `wf` are decided
    on a program's literal shapes. -/
abbrev rowsDims (B C N : Nat)
    (wf : GatherDims.WF ⟨2, ![B, C]⟩ ⟨2, ![N, 1]⟩ ⟨2, ![N, C]⟩ [1] [0] [] [0] [] 1 ![1, C]) :
    GatherDims ⟨2, ![B, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The start-indices index `[n, 0]` of the result index `(n, c)`. -/
abbrev rowIdx {N C : Nat} (y : (⟨2, ![N, C]⟩ : Shape).Idx) : (⟨2, ![N, 1]⟩ : Shape).Idx :=
  fun a => match a with | ⟨0, _⟩ => ⟨(y 0).val, idx2_lt0 y⟩ | ⟨1, _⟩ => ⟨0, Nat.one_pos⟩

/-- The operand index `(r, c)` from a row number `r < B` and the column of the result index `y = (n, c)`. -/
abbrev rowAt {B C N : Nat} (r : Nat) (hr : r < B) (y : (⟨2, ![N, C]⟩ : Shape).Idx) : (⟨2, ![B, C]⟩ : Shape).Idx :=
  fun a => match a with | ⟨0, _⟩ => ⟨r, hr⟩ | ⟨1, _⟩ => ⟨(y 1).val, idx2_lt1 y⟩

/-- THE ROW GATHER READ AT `(n, c)`: the operand at row `ids[n, 0]`, read signed and clamped into `[0, B − 1]`,
    and column `c`. -/
theorem gather_rows_apply {B C N w : Nat} (hB : 0 < B)
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx) :
    Host.gather (rowsDims B C N wf) x idx y
      = x (rowAt (min (idx (rowIdx y)).toInt.toNat (B - 1)) (by omega) y) := by
  unfold Host.gather
  congr 1
  funext a
  refine Fin.ext ?_
  match a with
  | ⟨0, _⟩ =>
    show (rowsDims B C N wf).start y idx 0 + (rowsDims B C N wf).batchCoord y 0 + (rowsDims B C N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims B C N wf).startIndexMap from List.mem_singleton.mpr rfl)]
    have hsi : (rowsDims B C N wf).siIdx y ⟨List.idxOf (0 : Fin 2) (rowsDims B C N wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowsDims B C N wf).start y idx 1 + (rowsDims B C N wf).batchCoord y 1 + (rowsDims B C N wf).offCoord y 1 = (y 1).val
    rw [GatherDims.batchCoord_eq_zero _ _ _ List.not_mem_nil]
    have hs : (rowsDims B C N wf).start y idx 1 = 0 := by
      unfold GatherDims.start
      rw [dif_neg (show (1 : Fin 2) ∉ (rowsDims B C N wf).startIndexMap from
        (by decide : (1 : Fin 2) ∉ ([0] : List (Fin 2))))]
    have hk : (1 : Fin 2) ∈ (rowsDims B C N wf).sKept :=
      (GatherDims.mem_sKept _ _).mpr ⟨(by decide : (1 : Fin 2) ∉ ([0] : List (Fin 2))), List.not_mem_nil⟩
    rw [hs]
    unfold GatherDims.offCoord
    rw [dif_pos hk]
    simp only [Nat.zero_add, Nat.add_zero]
    rfl

/-- The row gather with the start index inside the table: no clamping, the row read is `ids[n, 0]` itself. -/
theorem gather_rows_apply_of_inBounds {B C N w : Nat}
    (wf : GatherDims.WF ⟨2, ![B, C]⟩ ⟨2, ![N, 1]⟩ ⟨2, ![N, C]⟩ [1] [0] [] [0] [] 1 ![1, C])
    (x : (⟨2, ![B, C]⟩ : Shape).Idx → α) (idx : IVec ⟨2, ![N, 1]⟩ w) (y : (⟨2, ![N, C]⟩ : Shape).Idx)
    (h0 : 0 ≤ (idx (rowIdx y)).toInt) (hlt : (idx (rowIdx y)).toInt < B) :
    Host.gather (rowsDims B C N wf) x idx y = x (rowAt (idx (rowIdx y)).toInt.toNat (by omega) y) := by
  rw [gather_rows_apply (by omega) wf x idx y]
  congr 1
  funext a
  refine Fin.ext ?_
  match a with
  | ⟨0, _⟩ =>
    show min (idx (rowIdx y)).toInt.toNat (B - 1) = (idx (rowIdx y)).toInt.toNat
    omega
  | ⟨1, _⟩ => rfl

end Cert.Lib.GatherRows

end
-- ==== Proof.RefReadTake.lean ====
/-
  One embedding lookup read at an index.

  A lookup `jnp.take(table, idx, axis=0)` moves a negative index up by the table's row count, gathers the rows at the
  moved index (clamped into the table), and replaces by NaN the rows whose moved index lies outside the table. When
  every index word is a row number of the table, nothing is moved, clamped or replaced: the value at (r, k) is the
  table's entry at row `idx r`, column `k`. The index vectors are single columns of the integer arguments.
-/
import Idealize.ShloMosaic.Lib.ValueIdx
import Idealize.ShloMosaic.Lib.ValueLayout
import Idealize.ShloMosaic.Lib.Pipeline.Value
import Idealize.ShloMosaic.Lib.ReduceAll
import Idealize.ShloMosaic.Lib.WordArith
import proofs.«154124_g78426102825261_cont_9to1_m_135_12_alg».proof.Proof.LibGatherRows
import proofs.«154124_g78426102825261_cont_9to1_m_135_12_alg».proof.Proof.Spec
import proofs.«154124_g78426102825261_cont_9to1_m_135_12_alg».proof.Proof.RefTerm

noncomputable section

namespace Cert.ReferenceIdeal.RefRead

open Idealize.ShloMosaic Idealize.ShloMosaic.ValueIdx

/-- A left fold by `and` over one-bit words that are all 1, started at 1, is 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_all_one f l _ ?_ (fun n hn => hl n (List.mem_cons_of_mem _ hn))
    rw [h, hl a List.mem_cons_self]
    decide

/-- A reduction by `and`, started at 1, of an array of one-bit words that are all 1 is 1 everywhere. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl]
  exact foldl_andi_all_one x _ _ (hi _) (fun n _ => hx n)

section Take

variable (B C : Nat) (cB cB1 : BitVec 32)
  (hb0 : (⟨0, ![]⟩ : Shape).BroadcastsInDim ⟨1, ![16384]⟩ (![] : Fin 0 → Fin 1))
  (hb1 : (⟨1, ![16384]⟩ : Shape).BroadcastsInDim ⟨2, ![16384, 1]⟩ (![0] : Fin 1 → Fin 2))
  (hb2 : (⟨0, ![]⟩ : Shape).BroadcastsInDim ⟨2, ![16384, 1]⟩ (![] : Fin 0 → Fin 2))
  (hb3 : (⟨1, ![1]⟩ : Shape).BroadcastsInDim ⟨2, ![1, 1]⟩ (![1] : Fin 1 → Fin 2))
  (hb4 : (⟨2, ![1, 1]⟩ : Shape).BroadcastsInDim ⟨2, ![16384, 1]⟩ (![0, 1] : Fin 2 → Fin 2))
  (hred : (⟨2, ![16384, 1]⟩ : Shape).ReducesTo [1] ⟨1, ![16384]⟩)
  (hu : 0 < (⟨0, ![]⟩ : Shape).numel)
  (wf : GatherDims.WF ⟨2, ![B, C]⟩ ⟨2, ![16384, 1]⟩ ⟨2, ![16384, C]⟩ [1] [0] [] [0] [] 1 ![1, C])
  (hb5 : (⟨1, ![16384]⟩ : Shape).BroadcastsInDim ⟨2, ![16384, C]⟩ (![0] : Fin 1 → Fin 2))
  (hb6 : (⟨0, ![]⟩ : Shape).BroadcastsInDim ⟨2, ![16384, C]⟩ (![] : Fin 0 → Fin 2))

/-- The index column of a lookup: a negative index has the table's row count added, and the result is laid out
    as a column. -/
def gWrap (idx : IVec ⟨1, ![16384]⟩ 32) : IVec ⟨2, ![16384, 1]⟩ 32 :=
  broadcastInDim ⟨2, ![16384, 1]⟩ ![0] hb1
    (select (cmpi .slt idx (broadcastInDim ⟨1, ![16384]⟩ ![] hb0 (constantI ⟨0, ![]⟩ 32 0#32)))
      (addi idx (broadcastInDim ⟨1, ![16384]⟩ ![] hb0 (constantI ⟨0, ![]⟩ 32 cB))) idx)

/-- The in-bounds mask of a lookup: per row, whether the index column is at least 0 and at most the last row. -/
def gMask (v5 : IVec ⟨2, ![16384, 1]⟩ 32) : IVec ⟨1, ![16384]⟩ 1 :=
  Host.reduce IntOp.andi
    (andi (cmpi .sge v5 (broadcastInDim ⟨2, ![16384, 1]⟩ ![] hb2 (constantI ⟨0, ![]⟩ 32 0#32)))
      (cmpi .sle v5 (broadcastInDim ⟨2, ![16384, 1]⟩ ![0, 1] hb4
        (broadcastInDim ⟨2, ![1, 1]⟩ ![1] hb3 (constantI ⟨1, ![1]⟩ 32 cB1)))))
    (constantI ⟨0, ![]⟩ 1 1#1) hred hu

/-- The lookup: the gathered rows where the index is in bounds, a NaN elsewhere. -/
def gTake (tbl : FVec Ideal ⟨2, ![B, C]⟩ .f32) (idx : IVec ⟨1, ![16384]⟩ 32) : FVec Ideal ⟨2, ![16384, C]⟩ .f32 :=
  select (broadcastInDim ⟨2, ![16384, C]⟩ ![0] hb5 (gMask cB1 hb2 hb3 hb4 hred hu (gWrap cB hb0 hb1 idx)))
    (Host.gather (Cert.Lib.GatherRows.rowsDims B C 16384 wf) tbl (gWrap cB hb0 hb1 idx))
    (broadcastInDim ⟨2, ![16384, C]⟩ ![] hb6 (constant (F := Ideal) ⟨0, ![]⟩ .f32 0x7FC00000#32))

/-- The index column at row `a`: the index word itself when it is not negative. -/
theorem gWrap_apply (idx : IVec ⟨1, ![16384]⟩ 32) (a : Fin 16384) (b : Fin 1) (h0 : 0 ≤ (idx (ix1 a)).toInt) :
    gWrap cB hb0 hb1 idx (ix2 a b) = idx (ix1 a) := by
  unfold gWrap
  refine (broadcastInDim_apply _ hb1 _ (ix2 a b) (ix1 a) (fun ax => by
    match ax with
    | ⟨0, _⟩ => rfl)).trans ?_
  rw [select_apply]
  have hc : cmpi .slt idx (broadcastInDim ⟨1, ![16384]⟩ ![] hb0 (constantI ⟨0, ![]⟩ 32 0#32)) (ix1 a) = 0#1 := by
    show IntOp.cmpi .slt (idx (ix1 a)) 0#32 = 0#1
    have : ¬ (idx (ix1 a)).slt 0#32 = true := by
      rw [BitVec.slt_iff_toInt_lt]
      have : (0#32 : BitVec 32).toInt = 0 := by decide
      omega
    simp [IntOp.cmpi, this]
  rw [hc, select_zero]

/-- The in-bounds mask is 1 at every row when every index is inside the table. -/
theorem gMask_apply (hcB1 : cB1.toInt = (B : Int) - 1) (v5 : IVec ⟨2, ![16384, 1]⟩ 32)
    (hv : ∀ i, 0 ≤ (v5 i).toInt ∧ (v5 i).toInt < B) (j : (⟨1, ![16384]⟩ : Shape).Idx) :
    gMask cB1 hb2 hb3 hb4 hred hu v5 j = 1#1 := by
  unfold gMask
  refine reduce_andi_all_one _ _ hred hu (fun i => ?_) (fun _ => rfl) j
  show IntOp.andi (IntOp.cmpi .sge (v5 i) 0#32) (IntOp.cmpi .sle (v5 i) cB1) = 1#1
  have h1 : (0#32 : BitVec 32).sle (v5 i) = true := by
    rw [BitVec.sle_iff_toInt_le]
    have : (0#32 : BitVec 32).toInt = 0 := by decide
    have := (hv i).1
    omega
  have h2 : (v5 i).sle cB1 = true := by
    rw [BitVec.sle_iff_toInt_le, hcB1]
    have := (hv i).2
    omega
  simp [IntOp.cmpi, h1, h2, IntOp.andi]

/-- ONE LOOKUP READ AT (r, k), every index inside the table: row `idx r` of the table, column `k`. -/
theorem gTake_apply (hB : 0 < B) (hcB1 : cB1.toInt = (B : Int) - 1) (tbl : FVec Ideal ⟨2, ![B, C]⟩ .f32)
    (idx : IVec ⟨1, ![16384]⟩ 32) (hidx : ∀ i, 0 ≤ (idx i).toInt ∧ (idx i).toInt < B) (r : Fin 16384) (k : Fin C) :
    gTake B C cB cB1 hb0 hb1 hb2 hb3 hb4 hred hu wf hb5 hb6 tbl idx (ix2 r k)
      = tbl (ix2 (Cert.HeartMlp.rowSel B hB (idx (ix1 r))) k) := by
  unfold gTake
  rw [select_apply]
  have hw : ∀ i, gWrap cB hb0 hb1 idx i = idx (ix1 (i 0)) := fun i => by
    rw [eq_ix2 i]
    exact gWrap_apply cB hb0 hb1 idx (i 0) (i 1) (hidx _).1
  have hm : broadcastInDim ⟨2, ![16384, C]⟩ ![0] hb5 (gMask cB1 hb2 hb3 hb4 hred hu (gWrap cB hb0 hb1 idx)) (ix2 r k) = 1#1 := by
    refine (broadcastInDim_apply _ hb5 _ (ix2 r k) (ix1 r) (fun ax => by
      match ax with
      | ⟨0, _⟩ => rfl)).trans ?_
    exact gMask_apply B cB1 hb2 hb3 hb4 hred hu hcB1 _ (fun i => by rw [hw i]; exact hidx _) _
  rw [hm, select_one, Cert.Lib.GatherRows.gather_rows_apply hB wf tbl _ (ix2 r k)]
  refine congrArg tbl (funext fun ax => Fin.ext ?_)
  match ax with
  | ⟨0, _⟩ =>
    show min (gWrap cB hb0 hb1 idx (Cert.Lib.GatherRows.rowIdx (ix2 r k))).toInt.toNat (B - 1)
      = min (idx (ix1 r)).toInt.toNat (B - 1)
    rw [hw]
    rfl
  | ⟨1, _⟩ => rfl

end Take

section Cols

open Cert.ReferenceIdeal Cert.ReferenceIdeal.Facts₀ Cert.ReferenceIdeal.Facts

variable [Facts]

/-- A one-column array cast to a vector reads, at `r`, the column's entry at row `r`. -/
theorem colOnly_apply (a : IVec S16384x1 32) (r : Fin 16384) : RefTerm.colOnly a (ix1 r) = a (ix2 r 0) := by
  unfold RefTerm.colOnly
  exact shapeCast_apply a _ (ix1 r) (ix2 r 0) (by
    rw [Shape.rowMajor_val_two, Shape.rowMajor_val_one]
    show r.val * 1 + 0 = r.val
    omega)

/-- Column 0 of a three-column array, as a vector, at `r`. -/
theorem col0_apply (a : IVec S16384x3 32) (r : Fin 16384) : RefTerm.col0 a (ix1 r) = a (ix2 r 0) := by
  unfold RefTerm.col0
  refine (shapeCast_apply _ _ (ix1 r) (ix2 r 0) (by
    rw [Shape.rowMajor_val_two, Shape.rowMajor_val_one]
    show r.val * 1 + 0 = r.val
    omega)).trans ?_
  exact slice2_axis1_apply 0 a _ r 0 0 rfl

/-- Column 1 of a three-column array, as a vector, at `r`. -/
theorem col1_apply (a : IVec S16384x3 32) (r : Fin 16384) : RefTerm.col1 a (ix1 r) = a (ix2 r 1) := by
  unfold RefTerm.col1
  refine (shapeCast_apply _ _ (ix1 r) (ix2 r 0) (by
    rw [Shape.rowMajor_val_two, Shape.rowMajor_val_one]
    show r.val * 1 + 0 = r.val
    omega)).trans ?_
  exact slice2_axis1_apply 1 a _ r 0 1 rfl

/-- Column 2 of a three-column array, as a vector, at `r`. -/
theorem col2_apply (a : IVec S16384x3 32) (r : Fin 16384) : RefTerm.col2 a (ix1 r) = a (ix2 r 2) := by
  unfold RefTerm.col2
  refine (shapeCast_apply _ _ (ix1 r) (ix2 r 0) (by
    rw [Shape.rowMajor_val_two, Shape.rowMajor_val_one]
    show r.val * 1 + 0 = r.val
    omega)).trans ?_
  exact slice2_axis1_apply 2 a _ r 0 2 rfl

/-- A lookup in a 2 × 4 table at (r, k), every index 0 or 1. -/
theorem take4_apply (tbl : FVec Ideal S2x4 .f32) (idx : IVec S16384 32)
    (hidx : ∀ i, 0 ≤ (idx i).toInt ∧ (idx i).toInt < 2) (r : Fin 16384) (k : Fin 4) :
    RefTerm.take4 (F := Ideal) tbl idx (ix2 r k) = tbl (ix2 (Cert.HeartMlp.rowSel 2 (by decide) (idx (ix1 r))) k) :=
  gTake_apply 2 4 2#32 1#32 bcast_S_S16384 bcast_S16384_S16384x1_0 bcast_S_S16384x1 bcast_S1_S1x1_1
    bcast_S1x1_S16384x1_0_1 reducesTo_S16384x1_S16384_d1 h_S_ gather_S2x4_S16384x1_S16384x4_1_0_n_n_0_1_14_wf
    bcast_S16384_S16384x4_0 bcast_S_S16384x4 (by decide) (by decide) tbl idx hidx r k

/-- A lookup in a 3 × 6 table at (r, k), every index 0, 1 or 2. -/
theorem take6_apply (tbl : FVec Ideal S3x6 .f32) (idx : IVec S16384 32)
    (hidx : ∀ i, 0 ≤ (idx i).toInt ∧ (idx i).toInt < 3) (r : Fin 16384) (k : Fin 6) :
    RefTerm.take6 (F := Ideal) tbl idx (ix2 r k) = tbl (ix2 (Cert.HeartMlp.rowSel 3 (by decide) (idx (ix1 r))) k) :=
  gTake_apply 3 6 3#32 2#32 bcast_S_S16384 bcast_S16384_S16384x1_0 bcast_S_S16384x1 bcast_S1_S1x1_1
    bcast_S1x1_S16384x1_0_1 reducesTo_S16384x1_S16384_d1 h_S_ gather_S3x6_S16384x1_S16384x6_1_0_n_n_0_1_16_wf
    bcast_S16384_S16384x6_0 bcast_S_S16384x6 (by decide) (by decide) tbl idx hidx r k

/-- A lookup in a 4 × 8 table at (r, k), every index 0, 1, 2 or 3. -/
theorem take8_apply (tbl : FVec Ideal S4x8 .f32) (idx : IVec S16384 32)
    (hidx : ∀ i, 0 ≤ (idx i).toInt ∧ (idx i).toInt < 4) (r : Fin 16384) (k : Fin 8) :
    RefTerm.take8 (F := Ideal) tbl idx (ix2 r k) = tbl (ix2 (Cert.HeartMlp.rowSel 4 (by decide) (idx (ix1 r))) k) :=
  gTake_apply 4 8 4#32 3#32 bcast_S_S16384 bcast_S16384_S16384x1_0 bcast_S_S16384x1 bcast_S1_S1x1_1
    bcast_S1x1_S16384x1_0_1 reducesTo_S16384x1_S16384_d1 h_S_ gather_S4x8_S16384x1_S16384x8_1_0_n_n_0_1_18_wf
    bcast_S16384_S16384x8_0 bcast_S_S16384x8 (by decide) (by decide) tbl idx hidx r k

end Cols

end Cert.ReferenceIdeal.RefRead

end
-- ==== Proof.LibEdgeWeight.lean ====
import Idealize.ShloMosaic.PureOps.Ideal
import Idealize.ShloMosaic.PureOps.Ideal.Laws
import Idealize.ShloMosaic.Lib.ValueIdx
import Idealize.ShloMosaic.Lib.Pipeline.Value

noncomputable section

namespace Cert.Lib.EdgeWeight

open Idealize.ShloMosaic Idealize.ShloMosaic.ValueIdx

/-! ## The reciprocal square root of a quantity that is at least one -/

/-- The f32 word `0x3F800000` is `1`. -/
theorem ofBits_one_f32 : Ideal.ofBits .f32 0x3F800000#32 = (1 : EReal) := by
  simp [Ideal.ofBits, Ideal.ieee]
  rw [← EReal.coe_mul, ← EReal.coe_one]
  congr 1
  norm_num

/-- The reciprocal square root of a positive real number is a real number. -/
theorem rsqrt_coe_pos_real (t : ℝ) (ht : 0 < t) : ∃ r : ℝ, Ideal.rsqrt (t : EReal) = (r : EReal) := by
  refine ⟨(Real.sqrt t)⁻¹, ?_⟩
  rw [Ideal.rsqrt_coe, if_neg (not_lt.2 ht.le), if_neg ht.ne']

/-- `1 / √(max y 1)` is a real number for every extended real `y`: the maximum is a real number that is at least
    one, or `+∞`, whose reciprocal square root is `0`. -/
theorem rsqrt_max_one_real (y : EReal) :
    ∃ r : ℝ, Ideal.rsqrt (max y (Ideal.ofBits .f32 0x3F800000#32)) = (r : EReal) := by
  rw [ofBits_one_f32]
  induction y using EReal.rec with
  | bot =>
    rw [max_eq_right bot_le, ← EReal.coe_one]
    exact rsqrt_coe_pos_real 1 one_pos
  | coe t =>
    have hm : max (t : EReal) 1 = ((max t 1 : ℝ) : EReal) := by
      rw [← EReal.coe_one]; exact (EReal.coe_strictMono.monotone.map_max).symm
    rw [hm]
    exact rsqrt_coe_pos_real _ (lt_of_lt_of_le one_pos (le_max_right _ _))
  | top =>
    rw [max_eq_left le_top]
    exact ⟨0, by rw [Ideal.rsqrt_top, EReal.coe_zero]⟩

/-- A choice, entry by entry, between `1 / √(max d 1)` and a real number is a real number. -/
theorem inv_sqrt_deg_real {s : Shape} (cnd : IVec s 1) (d one z : FVec Ideal s .f32)
    (hone : ∀ i, one i = Ideal.ofBits .f32 0x3F800000#32) (hz : ∀ i, ∃ r : ℝ, z i = (r : EReal)) (i : s.Idx) :
    ∃ r : ℝ, select cnd (Host.rsqrt (F := Ideal) (maximumf (F := Ideal) d one)) z i = (r : EReal) := by
  rw [select_apply]
  by_cases hc : cnd i = 1#1
  · rw [hc, select_one]
    show ∃ r : ℝ, Ideal.rsqrt (max (d i) (one i)) = (r : EReal)
    rw [hone i]
    exact rsqrt_max_one_real _
  · rw [eq_zero_of_ne_one hc, select_zero]
    exact hz i

/-! ## A gathered entry is an entry of the table -/

/-- Every element of a gather's result is an element of its operand. -/
theorem gather_entry {α : Type} {s si so : Shape} {w : Nat} (g : GatherDims s si so) (T : s.Idx → α) (I : IVec si w)
    (y : so.Idx) : ∃ i, Host.gather g T I y = T i :=
  ⟨g.operandIdx y I, rfl⟩

/-! ## A splat constant read at an index -/

/-- A scalar constant broadcast to any shape reads, at every index, the value its word denotes. -/
theorem splat_apply {s : Shape} (h : (⟨0, ![]⟩ : Shape).BroadcastsInDim s (![] : Fin 0 → Fin s.rank)) (φ : FTy)
    (wd : BitVec φ.bits) (i : s.Idx) :
    broadcastInDim s ![] h (constant (F := Ideal) ⟨0, ![]⟩ φ wd) i = Ideal.ofBits φ wd := rfl

/-- The splat of the f32 word `0x00000000` is `0` everywhere. -/
theorem splat_zero_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (splat_apply h .f32 _ i).trans Ideal.ofBits_zero_f32

/-- The splat of the f32 word `0x3F800000` is `1` everywhere. -/
theorem splat_one_apply {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) :=
  (splat_apply h .f32 _ i).trans ofBits_one_f32

end Cert.Lib.EdgeWeight

end
-- ==== Proof.RefReadTail.lean ====
/-
  The three affine layers of the reference read at an index.

  A layer is a plain matrix product (row p, column q: the sum over k of x (p, k) * w (k, q)), plus the bias laid
  along the rows, under tanh for the first two layers; the last layer's result goes through
  1 / (1 + exp (−z)), which is the logistic function. Composed, the reference's result at (r, c) is the three-layer
  tail applied to the first layer's pre-activation of row r.
-/
import Idealize.ShloMosaic.Lib.ValueIdx
import Idealize.ShloMosaic.Lib.Pipeline.Value
import proofs.«154124_g78426102825261_cont_9to1_m_135_12_alg».proof.Proof.LibPlainDot
import proofs.«154124_g78426102825261_cont_9to1_m_135_12_alg».proof.Proof.LibEdgeWeight
import proofs.«154124_g78426102825261_cont_9to1_m_135_12_alg».proof.Proof.Spec
import proofs.«154124_g78426102825261_cont_9to1_m_135_12_alg».proof.Proof.RefTerm

noncomputable section

open scoped BigOperators

namespace Cert.ReferenceIdeal.RefRead

open Idealize.ShloMosaic Idealize.ShloMosaic.ValueIdx
open Cert.ReferenceIdeal Cert.ReferenceIdeal.Facts₀ Cert.ReferenceIdeal.Facts

/-- A vector of `n` numbers laid as one row and then along `m` rows reads, at (p, q), its entry `q`. -/
theorem bias2_apply {α : Type} {m n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (b : (⟨1, ![n]⟩ : Shape).Idx → α) (p : Fin m) (q : Fin n) :
    broadcastInDim ⟨2, ![m, n]⟩ ![0, 1] h2 (broadcastInDim ⟨2, ![1, n]⟩ ![1] h1 b) (ix2 p q) = b (ix1 q) := by
  refine (broadcastInDim_apply _ h2 _ (ix2 p q) (ix2 (0 : Fin 1) q) (fun ax => ?_)).trans
    (broadcastInDim_apply _ h1 _ (ix2 (0 : Fin 1) q) (ix1 q) (fun ax => ?_))
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

variable [Facts]

/-- The first layer at (r, j): tanh of row r of x times column j of w, plus b j. -/
theorem layer1_apply (x : FVec Ideal S16384x44 .f32) (w : FVec Ideal S44x256 .f32) (b : FVec Ideal S256 .f32)
    (r : Fin 16384) (j : Fin 256) :
    RefTerm.layer1 (F := Ideal) x w b (ix2 r j)
      = Ideal.tanh ((∑ k : Fin 44, x (ix2 r k) * w (ix2 k j)) + b (ix1 j)) := by
  unfold RefTerm.layer1
  show Ideal.tanh (FloatOps.dotGeneral dot_S16384x44_S44x256_S16384x256_1_0_0_1_n_n none .single x w (ix2 r j)
    + broadcastInDim S16384x256 ![0, 1] bcast_S1x256_S16384x256_0_1 (broadcastInDim S1x256 ![1] bcast_S256_S1x256_1 b) (ix2 r j)) = _
  rw [PlainDot.dotGeneral_apply _ (PlainDot.eq_plain _ rfl rfl rfl rfl rfl rfl) none .single x w r j,
    bias2_apply bcast_S256_S1x256_1 bcast_S1x256_S16384x256_0_1 b r j]

/-- The second layer at (r, k). -/
theorem layer2_apply (x : FVec Ideal S16384x256 .f32) (w : FVec Ideal S256x128 .f32) (b : FVec Ideal S128 .f32)
    (r : Fin 16384) (k : Fin 128) :
    RefTerm.layer2 (F := Ideal) x w b (ix2 r k)
      = Ideal.tanh ((∑ j : Fin 256, x (ix2 r j) * w (ix2 j k)) + b (ix1 k)) := by
  unfold RefTerm.layer2
  show Ideal.tanh (FloatOps.dotGeneral dot_S16384x256_S256x128_S16384x128_1_0_0_1_n_n none .single x w (ix2 r k)
    + broadcastInDim S16384x128 ![0, 1] bcast_S1x128_S16384x128_0_1 (broadcastInDim S1x128 ![1] bcast_S128_S1x128_1 b) (ix2 r k)) = _
  rw [PlainDot.dotGeneral_apply _ (PlainDot.eq_plain _ rfl rfl rfl rfl rfl rfl) none .single x w r k,
    bias2_apply bcast_S128_S1x128_1 bcast_S1x128_S16384x128_0_1 b r k]

/-- The third layer, before the logistic function, at (r, c). -/
theorem layer3_apply (x : FVec Ideal S16384x128 .f32) (w : FVec Ideal S128x2 .f32) (b : FVec Ideal S2 .f32)
    (r : Fin 16384) (c : Fin 2) :
    RefTerm.layer3 (F := Ideal) x w b (ix2 r c) = (∑ k : Fin 128, x (ix2 r k) * w (ix2 k c)) + b (ix1 c) := by
  unfold RefTerm.layer3
  show FloatOps.dotGeneral dot_S16384x128_S128x2_S16384x2_1_0_0_1_n_n none .single x w (ix2 r c)
    + broadcastInDim S16384x2 ![0, 1] bcast_S1x2_S16384x2_0_1 (broadcastInDim S1x2 ![1] bcast_S2_S1x2_1 b) (ix2 r c) = _
  rw [PlainDot.dotGeneral_apply _ (PlainDot.eq_plain _ rfl rfl rfl rfl rfl rfl) none .single x w r c,
    bias2_apply bcast_S2_S1x2_1 bcast_S1x2_S16384x2_0_1 b r c]

/-- `1 / (1 + exp (−z))`, entry by entry, is the logistic function. -/
theorem logistic_apply (z : FVec Ideal S16384x2 .f32) (i : S16384x2.Idx) :
    RefTerm.logistic (F := Ideal) z i = Ideal.logistic (z i) := by
  unfold RefTerm.logistic RefTerm.ones
  show Ideal.div (Ideal.ofBits .f32 0x3F800000#32) (Ideal.ofBits .f32 0x3F800000#32 + Ideal.exp (-(z i))) = _
  rw [Cert.Lib.EdgeWeight.ofBits_one_f32]
  rfl

/-- THE REFERENCE'S RESULT AT (r, c) over its first-layer input `x`: the three-layer tail of row r's
    pre-activation. -/
theorem layers_apply (x : FVec Ideal S16384x44 .f32) (a11 : FVec Ideal S44x256 .f32) (a12 : FVec Ideal S256 .f32)
    (a13 : FVec Ideal S256x128 .f32) (a14 : FVec Ideal S128 .f32) (a15 : FVec Ideal S128x2 .f32)
    (a16 : FVec Ideal S2 .f32) (r : Fin 16384) (c : Fin 2) :
    RefTerm.logistic (F := Ideal)
        (RefTerm.layer3 (RefTerm.layer2 (RefTerm.layer1 x a11 a12) a13 a14) a15 a16) (ix2 r c)
      = Cert.HeartMlp.tail
          (Cert.HeartMlp.refZ (fun k => x (ix2 r k)) (fun k j => a11 (ix2 k j)) (fun j => a12 (ix1 j)))
          (fun j k => a13 (ix2 j k)) (fun k => a14 (ix1 k)) (fun k q => a15 (ix2 k q)) (fun q => a16 (ix1 q)) c := by
  rw [logistic_apply, layer3_apply]
  unfold Cert.HeartMlp.tail Cert.HeartMlp.refZ
  refine congrArg Ideal.logistic (congrArg (· + a16 (ix1 c)) (Finset.sum_congr rfl fun k _ => ?_))
  rw [layer2_apply]
  refine congrArg (· * a15 (ix2 k c)) (congrArg Ideal.tanh (congrArg (· + a14 (ix1 k)) (Finset.sum_congr rfl fun j _ => ?_)))
  rw [layer1_apply]

end Cert.ReferenceIdeal.RefRead

end
-- ==== Proof.RefRead.lean ====
/-
  The reference's value read at an index.

  Row r of the first layer's input is the seven looked-up table rows side by side, then the six features; every
  index word being a row number of its table, each lookup reads the table's row itself. The reference's result at
  (r, c) is then the three-layer tail of the first layer's pre-activation of that row.
-/
import proofs.«154124_g78426102825261_cont_9to1_m_135_12_alg».proof.Proof.LibConcatRead
import proofs.«154124_g78426102825261_cont_9to1_m_135_12_alg».proof.Proof.RefReadTake
import proofs.«154124_g78426102825261_cont_9to1_m_135_12_alg».proof.Proof.RefReadTail

noncomputable section

open scoped BigOperators

namespace Cert.ReferenceIdeal.RefRead

open Idealize.ShloMosaic Idealize.ShloMosaic.ValueIdx
open Cert.ReferenceIdeal Cert.ReferenceIdeal.Facts₀ Cert.ReferenceIdeal.Facts
open Cert.Lib.ConcatRead

variable [Facts]

/-- THE FIRST LAYER'S INPUT AT (r, k): entry k of the row of 44 numbers made of the looked-up rows and the features. -/
theorem refX_apply (a0 : FVec Ideal S16384x6 .f32) (a1 a2 : IVec S16384x3 32) (a3 : IVec S16384x1 32)
    (a4 a5 a6 : FVec Ideal S2x4 .f32) (a7 a8 a9 : FVec Ideal S3x6 .f32) (a10 : FVec Ideal S4x8 .f32)
    (h1 : ∀ i, 0 ≤ (a1 i).toInt ∧ (a1 i).toInt < 2) (h2 : ∀ i, 0 ≤ (a2 i).toInt ∧ (a2 i).toInt < 3)
    (h3 : ∀ i, 0 ≤ (a3 i).toInt ∧ (a3 i).toInt < 4) (r : Fin 16384) (k : Fin 44) :
    RefTerm.refX (F := Ideal) a0 a1 a2 a3 a4 a5 a6 a7 a8 a9 a10 (ix2 r k)
      = Cert.HeartMlp.refRow (fun k => a0 (ix2 r k)) (fun a k => a4 (ix2 a k)) (fun a k => a5 (ix2 a k))
          (fun a k => a6 (ix2 a k)) (fun a k => a7 (ix2 a k)) (fun a k => a8 (ix2 a k)) (fun a k => a9 (ix2 a k))
          (fun a k => a10 (ix2 a k))
          (Cert.HeartMlp.rowSel 2 (by decide) (a1 (ix2 r 0))) (Cert.HeartMlp.rowSel 2 (by decide) (a1 (ix2 r 1)))
          (Cert.HeartMlp.rowSel 2 (by decide) (a1 (ix2 r 2)))
          (Cert.HeartMlp.rowSel 3 (by decide) (a2 (ix2 r 0))) (Cert.HeartMlp.rowSel 3 (by decide) (a2 (ix2 r 1)))
          (Cert.HeartMlp.rowSel 3 (by decide) (a2 (ix2 r 2)))
          (Cert.HeartMlp.rowSel 4 (by decide) (a3 (ix2 r 0))) k := by
  have hix : ∀ i : S16384.Idx, ∃ r : Fin 16384, i = ix1 r := fun i => ⟨i 0, eq_ix1 i⟩
  have hc10 : ∀ i, 0 ≤ (RefTerm.col0 a1 i).toInt ∧ (RefTerm.col0 a1 i).toInt < 2 := fun i => by
    obtain ⟨r, rfl⟩ := hix i; rw [col0_apply]; exact h1 _
  have hc11 : ∀ i, 0 ≤ (RefTerm.col1 a1 i).toInt ∧ (RefTerm.col1 a1 i).toInt < 2 := fun i => by
    obtain ⟨r, rfl⟩ := hix i; rw [col1_apply]; exact h1 _
  have hc12 : ∀ i, 0 ≤ (RefTerm.col2 a1 i).toInt ∧ (RefTerm.col2 a1 i).toInt < 2 := fun i => by
    obtain ⟨r, rfl⟩ := hix i; rw [col2_apply]; exact h1 _
  have hc20 : ∀ i, 0 ≤ (RefTerm.col0 a2 i).toInt ∧ (RefTerm.col0 a2 i).toInt < 3 := fun i => by
    obtain ⟨r, rfl⟩ := hix i; rw [col0_apply]; exact h2 _
  have hc21 : ∀ i, 0 ≤ (RefTerm.col1 a2 i).toInt ∧ (RefTerm.col1 a2 i).toInt < 3 := fun i => by
    obtain ⟨r, rfl⟩ := hix i; rw [col1_apply]; exact h2 _
  have hc22 : ∀ i, 0 ≤ (RefTerm.col2 a2 i).toInt ∧ (RefTerm.col2 a2 i).toInt < 3 := fun i => by
    obtain ⟨r, rfl⟩ := hix i; rw [col2_apply]; exact h2 _
  have hc3 : ∀ i, 0 ≤ (RefTerm.colOnly a3 i).toInt ∧ (RefTerm.colOnly a3 i).toInt < 4 := fun i => by
    obtain ⟨r, rfl⟩ := hix i; rw [colOnly_apply]; exact h3 _
  unfold RefTerm.refX RefTerm.emb38 RefTerm.emb12 RefTerm.emb18 Cert.HeartMlp.refRow
  by_cases c1 : k.val < 4
  · rw [dif_pos c1]
    have q38 : k.val < 38 := by omega
    refine (cat2_cols_0 (c0 := 38) (c1 := 6) (n := 44) _ _ _ r k ⟨k.val, q38⟩ rfl).trans ?_
    have q12 : k.val < 12 := by omega
    refine (cat3_cols_0 (c0 := 12) (c1 := 18) (c2 := 8) (n := 38) _ _ _ _ r ⟨k.val, q38⟩ ⟨k.val, q12⟩ rfl).trans ?_
    refine (cat3_cols_0 (c0 := 4) (c1 := 4) (c2 := 4) (n := 12) _ _ _ _ r ⟨k.val, q12⟩ ⟨k.val, c1⟩ rfl).trans ?_
    rw [take4_apply _ _ hc10, col0_apply]
  rw [dif_neg c1]
  by_cases c2 : k.val < 8
  · rw [dif_pos c2]
    have q38 : k.val < 38 := by omega
    refine (cat2_cols_0 (c0 := 38) (c1 := 6) (n := 44) _ _ _ r k ⟨k.val, q38⟩ rfl).trans ?_
    have q12 : k.val < 12 := by omega
    refine (cat3_cols_0 (c0 := 12) (c1 := 18) (c2 := 8) (n := 38) _ _ _ _ r ⟨k.val, q38⟩ ⟨k.val, q12⟩ rfl).trans ?_
    refine (cat3_cols_1 (c0 := 4) (c1 := 4) (c2 := 4) (n := 12) _ _ _ _ r ⟨k.val, q12⟩ ⟨k.val - 4, by omega⟩ (by show k.val = 4 + (k.val - 4); omega)).trans ?_
    rw [take4_apply _ _ hc11, col1_apply]
  rw [dif_neg c2]
  by_cases c3 : k.val < 12
  · rw [dif_pos c3]
    have q38 : k.val < 38 := by omega
    refine (cat2_cols_0 (c0 := 38) (c1 := 6) (n := 44) _ _ _ r k ⟨k.val, q38⟩ rfl).trans ?_
    have q12 : k.val < 12 := by omega
    refine (cat3_cols_0 (c0 := 12) (c1 := 18) (c2 := 8) (n := 38) _ _ _ _ r ⟨k.val, q38⟩ ⟨k.val, q12⟩ rfl).trans ?_
    refine (cat3_cols_2 (c0 := 4) (c1 := 4) (c2 := 4) (n := 12) _ _ _ _ r ⟨k.val, q12⟩ ⟨k.val - 8, by omega⟩ (by show k.val = 4 + 4 + (k.val - 8); omega)).trans ?_
    rw [take4_apply _ _ hc12, col2_apply]
  rw [dif_neg c3]
  by_cases c4 : k.val < 18
  · rw [dif_pos c4]
    have q38 : k.val < 38 := by omega
    refine (cat2_cols_0 (c0 := 38) (c1 := 6) (n := 44) _ _ _ r k ⟨k.val, q38⟩ rfl).trans ?_
    have q18 : k.val - 12 < 18 := by omega
    refine (cat3_cols_1 (c0 := 12) (c1 := 18) (c2 := 8) (n := 38) _ _ _ _ r ⟨k.val, q38⟩ ⟨k.val - 12, q18⟩ (by show k.val = 12 + (k.val - 12); omega)).trans ?_
    refine (cat3_cols_0 (c0 := 6) (c1 := 6) (c2 := 6) (n := 18) _ _ _ _ r ⟨k.val - 12, q18⟩ ⟨k.val - 12, by omega⟩ rfl).trans ?_
    rw [take6_apply _ _ hc20, col0_apply]
  rw [dif_neg c4]
  by_cases c5 : k.val < 24
  · rw [dif_pos c5]
    have q38 : k.val < 38 := by omega
    refine (cat2_cols_0 (c0 := 38) (c1 := 6) (n := 44) _ _ _ r k ⟨k.val, q38⟩ rfl).trans ?_
    have q18 : k.val - 12 < 18 := by omega
    refine (cat3_cols_1 (c0 := 12) (c1 := 18) (c2 := 8) (n := 38) _ _ _ _ r ⟨k.val, q38⟩ ⟨k.val - 12, q18⟩ (by show k.val = 12 + (k.val - 12); omega)).trans ?_
    refine (cat3_cols_1 (c0 := 6) (c1 := 6) (c2 := 6) (n := 18) _ _ _ _ r ⟨k.val - 12, q18⟩ ⟨k.val - 18, by omega⟩ (by show k.val - 12 = 6 + (k.val - 18); omega)).trans ?_
    rw [take6_apply _ _ hc21, col1_apply]
  rw [dif_neg c5]
  by_cases c6 : k.val < 30
  · rw [dif_pos c6]
    have q38 : k.val < 38 := by omega
    refine (cat2_cols_0 (c0 := 38) (c1 := 6) (n := 44) _ _ _ r k ⟨k.val, q38⟩ rfl).trans ?_
    have q18 : k.val - 12 < 18 := by omega
    refine (cat3_cols_1 (c0 := 12) (c1 := 18) (c2 := 8) (n := 38) _ _ _ _ r ⟨k.val, q38⟩ ⟨k.val - 12, q18⟩ (by show k.val = 12 + (k.val - 12); omega)).trans ?_
    refine (cat3_cols_2 (c0 := 6) (c1 := 6) (c2 := 6) (n := 18) _ _ _ _ r ⟨k.val - 12, q18⟩ ⟨k.val - 24, by omega⟩ (by show k.val - 12 = 6 + 6 + (k.val - 24); omega)).trans ?_
    rw [take6_apply _ _ hc22, col2_apply]
  rw [dif_neg c6]
  by_cases c7 : k.val < 38
  · rw [dif_pos c7]
    have q38 : k.val < 38 := by omega
    refine (cat2_cols_0 (c0 := 38) (c1 := 6) (n := 44) _ _ _ r k ⟨k.val, q38⟩ rfl).trans ?_
    refine (cat3_cols_2 (c0 := 12) (c1 := 18) (c2 := 8) (n := 38) _ _ _ _ r ⟨k.val, q38⟩ ⟨k.val - 30, by omega⟩ (by show k.val = 12 + 18 + (k.val - 30); omega)).trans ?_
    rw [take8_apply _ _ hc3, colOnly_apply]
  rw [dif_neg c7]
  exact cat2_cols_1 (c0 := 38) (c1 := 6) (n := 44) _ _ _ r k ⟨k.val - 38, by have := k.isLt; omega⟩ (by show k.val = 38 + (k.val - 38); omega)

/-- THE REFERENCE'S RESULT AT (r, c). -/
theorem refOut_apply (a0 : FVec Ideal S16384x6 .f32) (a1 a2 : IVec S16384x3 32) (a3 : IVec S16384x1 32)
    (a4 a5 a6 : FVec Ideal S2x4 .f32) (a7 a8 a9 : FVec Ideal S3x6 .f32) (a10 : FVec Ideal S4x8 .f32)
    (a11 : FVec Ideal S44x256 .f32) (a12 : FVec Ideal S256 .f32) (a13 : FVec Ideal S256x128 .f32)
    (a14 : FVec Ideal S128 .f32) (a15 : FVec Ideal S128x2 .f32) (a16 : FVec Ideal S2 .f32)
    (h1 : ∀ i, 0 ≤ (a1 i).toInt ∧ (a1 i).toInt < 2) (h2 : ∀ i, 0 ≤ (a2 i).toInt ∧ (a2 i).toInt < 3)
    (h3 : ∀ i, 0 ≤ (a3 i).toInt ∧ (a3 i).toInt < 4) (r : Fin 16384) (c : Fin 2) :
    RefTerm.refOut (F := Ideal) a0 a1 a2 a3 a4 a5 a6 a7 a8 a9 a10 a11 a12 a13 a14 a15 a16 (ix2 r c)
      = Cert.HeartMlp.tail
          (Cert.HeartMlp.refZ
            (Cert.HeartMlp.refRow (fun k => a0 (ix2 r k)) (fun a k => a4 (ix2 a k)) (fun a k => a5 (ix2 a k))
          (fun a k => a6 (ix2 a k)) (fun a k => a7 (ix2 a k)) (fun a k => a8 (ix2 a k)) (fun a k => a9 (ix2 a k))
          (fun a k => a10 (ix2 a k))
          (Cert.HeartMlp.rowSel 2 (by decide) (a1 (ix2 r 0))) (Cert.HeartMlp.rowSel 2 (by decide) (a1 (ix2 r 1)))
          (Cert.HeartMlp.rowSel 2 (by decide) (a1 (ix2 r 2)))
          (Cert.HeartMlp.rowSel 3 (by decide) (a2 (ix2 r 0))) (Cert.HeartMlp.rowSel 3 (by decide) (a2 (ix2 r 1)))
          (Cert.HeartMlp.rowSel 3 (by decide) (a2 (ix2 r 2)))
          (Cert.HeartMlp.rowSel 4 (by decide) (a3 (ix2 r 0))))
            (fun k j => a11 (ix2 k j)) (fun j => a12 (ix1 j)))
          (fun j k => a13 (ix2 j k)) (fun k => a14 (ix1 k)) (fun k q => a15 (ix2 k q)) (fun q => a16 (ix1 q)) c := by
  unfold RefTerm.refOut
  rw [layers_apply]
  have hx : (fun k => RefTerm.refX (F := Ideal) a0 a1 a2 a3 a4 a5 a6 a7 a8 a9 a10 (ix2 r k))
      = Cert.HeartMlp.refRow (fun k => a0 (ix2 r k)) (fun a k => a4 (ix2 a k)) (fun a k => a5 (ix2 a k))
          (fun a k => a6 (ix2 a k)) (fun a k => a7 (ix2 a k)) (fun a k => a8 (ix2 a k)) (fun a k => a9 (ix2 a k))
          (fun a k => a10 (ix2 a k))
          (Cert.HeartMlp.rowSel 2 (by decide) (a1 (ix2 r 0))) (Cert.HeartMlp.rowSel 2 (by decide) (a1 (ix2 r 1)))
          (Cert.HeartMlp.rowSel 2 (by decide) (a1 (ix2 r 2)))
          (Cert.HeartMlp.rowSel 3 (by decide) (a2 (ix2 r 0))) (Cert.HeartMlp.rowSel 3 (by decide) (a2 (ix2 r 1)))
          (Cert.HeartMlp.rowSel 3 (by decide) (a2 (ix2 r 2)))
          (Cert.HeartMlp.rowSel 4 (by decide) (a3 (ix2 r 0))) :=
    funext fun k => refX_apply a0 a1 a2 a3 a4 a5 a6 a7 a8 a9 a10 h1 h2 h3 r k
  rw [hx]

end Cert.ReferenceIdeal.RefRead

end
-- ==== Proof.LibFinite.lean ====
/-
  Arrays of real numbers at the exact extended reals.

  At the ideal instance a float is an extended real, and the laws that move a factor across a sum, cancel a term or
  expand a square hold only where no infinity is involved. An input assumed finite is an array of real numbers; this
  file carries that property through a program: an extended real that IS a real number (`IsReal`), an array all of
  whose entries are (`RealValued`), and the closure of both under what the two kinds of program do —

  * the arithmetic: sums, differences, products, negation, maximum and minimum; a quotient by a nonzero real; the
    reciprocal square root of a positive real; finite sums;
  * every operation that only MOVES entries (its result at an index is an operand's entry at some index): reshapes,
    broadcasts, slices, transposes, gathers at any dimension numbers, concatenations, selects;
  * every operation that ADDS UP entries: a contraction into a real accumulator (`tpu.matmul`) or from zero (the host's
    `dot_general`), a kernel's add-reduction and the host's from a real initial value over any axes, and the host's
    accumulating scatter at any dimension numbers (each entry: the operand's plus finitely many updates);

  and the way in: an extended real whose absolute value is below +∞ is a real number, and an array `x` of which a
  precondition says `all (|x| < +∞)` — the comparison against the +∞ word and-reduced over every axis to one bit that
  is 1 — is real-valued (`realValued_of_all_abs_lt_inf`).
-/
import Idealize.ShloMosaic.PureOps.Ideal.Laws
import Idealize.ShloMosaic.Lib.ValueIdx
import Idealize.ShloMosaic.Lib.ReduceAll

noncomputable section

namespace Cert.LibFinite

open Idealize.ShloMosaic

/-! ## One extended real -/

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- An extended real that is neither infinity is a real number. -/
theorem isReal_of_ne {x : EReal} (ht : x ≠ ⊤) (hb : x ≠ ⊥) : IsReal x :=
  ⟨x.toReal, (EReal.coe_toReal ht hb).symm⟩

/-- The way in: an extended real whose absolute value `max x (−x)` is below +∞ is a real number. -/
theorem isReal_of_abs_lt_top {x : EReal} (h : max x (-x) < ⊤) : IsReal x := by
  refine isReal_of_ne (fun e => ?_) (fun e => ?_)
  · subst e; simp at h
  · subst e; simp at h

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real number is a real number. -/
theorem isReal_rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- The reciprocal square root of `max x floor` for a real `x` and a positive real floor is a real number (the
    degree normalization of a graph layer: `rsqrt (max deg 1e-12)`). -/
theorem isReal_rsqrt_max_floor {x : EReal} (hx : IsReal x) {fl : ℝ} (hfl : 0 < fl) :
    IsReal (Ideal.rsqrt (max x (fl : EReal))) := by
  obtain ⟨a, rfl⟩ := hx
  have e : max (a : EReal) (fl : EReal) = ((max a fl : ℝ) : EReal) := (EReal.coe_strictMono.monotone.map_max).symm
  rw [e]
  exact isReal_rsqrt_of_pos (lt_max_of_lt_right hfl)

/-! ## Arrays -/

/-- Every entry of the array is a real number. -/
def RealValued {ι : Type*} (v : ι → EReal) : Prop := ∀ i, IsReal (v i)

/-- Real witnesses for a real-valued array. -/
theorem RealValued.exists_real {ι : Type*} {v : ι → EReal} (h : RealValued v) : ∃ r : ι → ℝ, ∀ i, v i = (r i : EReal) :=
  ⟨fun i => (h i).choose, fun i => (h i).choose_spec⟩

/-- An operation that only moves entries keeps the array real-valued. -/
theorem RealValued.comp {ι κ : Type*} {v : ι → EReal} (h : RealValued v) (f : κ → ι) : RealValued fun j => v (f j) :=
  fun j => h (f j)

variable {s t : Shape} {φ : FTy}

/-! ### The arithmetic, entry by entry -/

theorem RealValued.addf {a b : FVec Ideal s φ} (ha : RealValued a) (hb : RealValued b) : RealValued (addf a b) :=
  fun i => (ha i).add (hb i)
theorem RealValued.subf {a b : FVec Ideal s φ} (ha : RealValued a) (hb : RealValued b) : RealValued (subf a b) :=
  fun i => (ha i).sub (hb i)
theorem RealValued.mulf {a b : FVec Ideal s φ} (ha : RealValued a) (hb : RealValued b) : RealValued (mulf a b) :=
  fun i => (ha i).mul (hb i)
theorem RealValued.negf {a : FVec Ideal s φ} (ha : RealValued a) : RealValued (negf a) :=
  fun i => (ha i).neg
theorem RealValued.maximumf {a b : FVec Ideal s φ} (ha : RealValued a) (hb : RealValued b) : RealValued (maximumf a b) :=
  fun i => (ha i).max (hb i)
theorem RealValued.minimumf {a b : FVec Ideal s φ} (ha : RealValued a) (hb : RealValued b) : RealValued (minimumf a b) :=
  fun i => (ha i).min (hb i)

/-- A splat of a word that denotes a real number. -/
theorem realValued_constant {w : BitVec φ.bits} (hw : IsReal (Ideal.ofBits φ w)) : RealValued (constant (F := Ideal) s φ w) :=
  fun _ => hw

/-- The host's quotient by an array every entry of which is one nonzero real number. -/
theorem RealValued.hostDivf_const {a b : FVec Ideal s φ} (ha : RealValued a) {y : ℝ} (hy : y ≠ 0) (hb : ∀ i, b i = (y : EReal)) :
    RealValued (Host.divf a b) :=
  fun i => by show IsReal (Ideal.div (a i) (b i)); rw [hb i]; exact (ha i).div_coe hy

/-- A select between two real-valued arrays. -/
theorem RealValued.select {c : IVec s 1} {a b : s.Idx → EReal} (ha : RealValued a) (hb : RealValued b) :
    RealValued (select c a b) := fun i => by
  show IsReal (Scalar.select (c i) (a i) (b i))
  unfold Scalar.select
  split
  · exact ha i
  · exact hb i

/-! ### Operations that move entries -/

theorem RealValued.shapeCast {x : s.Idx → EReal} (hx : RealValued x) (h : s.ShapeCasts t) : RealValued (shapeCast t x h) :=
  fun _ => hx _
theorem RealValued.broadcastTo {x : s.Idx → EReal} (hx : RealValued x) (h : s.Broadcasts t) : RealValued (broadcastTo t x h) :=
  fun _ => hx _
theorem RealValued.broadcastInDim {x : s.Idx → EReal} (hx : RealValued x) (dims : Fin s.rank → Fin t.rank)
    (h : s.BroadcastsInDim t dims) : RealValued (broadcastInDim t dims h x) :=
  fun _ => hx _
theorem RealValued.extractStridedSlice {x : s.Idx → EReal} (hx : RealValued x) (off : Fin s.rank → Nat) (h : s.Slices off t) :
    RealValued (extractStridedSlice t off x h) :=
  fun _ => hx _
theorem RealValued.transpose {x : s.Idx → EReal} (hx : RealValued x) (perm : List (Fin s.rank)) (h : s.Transposes perm t) :
    RealValued (transpose t perm x h) :=
  fun _ => hx _

/-- A gather at any dimension numbers: every result entry is an operand entry. -/
theorem RealValued.gather {si : Shape} {w : ℕ} {x : s.Idx → EReal} (hx : RealValued x) (d : GatherDims s si t) (idx : IVec si w) :
    RealValued (Host.gather d x idx) :=
  fun _ => hx _

/-- A concatenation of any number of arrays along any axis: every result entry is an entry of one of them. -/
theorem realValued_concatenate (a : Fin t.rank) (xs : List ((s : Shape) × (s.Idx → EReal)))
    (hall : ∀ p ∈ xs, RealValued p.2) (h : Shape.Concatenates (xs.map (·.1)) t a) :
    RealValued (concatenate t a xs h) := by
  intro j
  unfold concatenate
  dsimp only
  exact hall _ (List.getElem_mem _) _

/-! ### Operations that add entries up -/

/-- A contraction into a real-valued accumulator. -/
theorem RealValued.matmul {sl sr so : Shape} {φ₁ φ₂ : FTy} (d : DotDims sl sr so) (prec : Option ContractPrecision)
    {lhs : FVec Ideal sl φ₁} {rhs : FVec Ideal sr φ₂} {acc : FVec Ideal so .f32}
    (hl : RealValued lhs) (hr : RealValued rhs) (ha : RealValued acc) : RealValued (matmul d prec lhs rhs acc) :=
  fun j => by
    show IsReal (FloatOps.matmul d prec lhs rhs acc j)
    rw [Ideal.matmul_apply]
    exact (ha j).add (isReal_sum _ _ fun k _ => (hl _).mul (hr _))

/-- A contraction into the zero accumulator. -/
theorem RealValued.matmul_zero {sl sr so : Shape} {φ₁ φ₂ : FTy} (d : DotDims sl sr so) (prec : Option ContractPrecision)
    {lhs : FVec Ideal sl φ₁} {rhs : FVec Ideal sr φ₂} (hl : RealValued lhs) (hr : RealValued rhs) :
    RealValued (Idealize.ShloMosaic.matmul d prec lhs rhs (constant so .f32 0x00000000#32)) :=
  fun j => by
    show IsReal (FloatOps.matmul d prec lhs rhs (constant so .f32 0x00000000#32) j)
    rw [Ideal.matmul_constant_zero_apply]
    exact isReal_sum _ _ fun k _ => (hl _).mul (hr _)

/-- The host's contraction. -/
theorem RealValued.dotGeneral {sl sr so : Shape} {φ₁ φ₂ : FTy} (d : DotDims sl sr so) (prec : Option ContractPrecision)
    (sched : HostSchedule) {lhs : FVec Ideal sl φ₁} {rhs : FVec Ideal sr φ₂} (hl : RealValued lhs) (hr : RealValued rhs) :
    RealValued (fun j => FloatOps.dotGeneral d prec sched lhs rhs j) :=
  fun j => by
    show IsReal (FloatOps.dotGeneral d prec sched lhs rhs j)
    rw [Ideal.dotGeneral_apply]
    exact isReal_sum _ _ fun k _ => (hl _).mul (hr _)

/-- A kernel's add-reduction over any axes. -/
theorem RealValued.reduceAdd {axes : List (Fin s.rank)} (h : s.Reduces axes t) {x : s.Idx → EReal} (hx : RealValued x) :
    RealValued (Ideal.reduceAdd h x) :=
  fun _ => isReal_sum _ _ fun i _ => hx i

/-- The host's add-reduction over any axes from a real initial value. -/
theorem RealValued.hostReduceAdd {axes : List (Fin s.rank)} (h : s.ReducesTo axes t) {x : s.Idx → EReal} (hx : RealValued x)
    {init : EReal} (hi : IsReal init) : RealValued (Ideal.hostReduceAdd h x init) :=
  fun _ => hi.add (isReal_sum _ _ fun i _ => hx i)

/-- The host's accumulating scatter at any dimension numbers: each entry is the operand's plus finitely many updates. -/
theorem RealValued.hostScatterAdd {si su : Shape} (d : ScatterDims s si su) {w : ℕ} {x : s.Idx → EReal} (hx : RealValued x)
    (idx : IVec si w) {upd : su.Idx → EReal} (hu : RealValued upd) : RealValued (Ideal.hostScatterAdd d x idx upd) :=
  fun i => (hx i).add (isReal_sum _ _ fun j _ => hu j)

/-! ## The way in: a precondition's `all (|x| < +∞)` -/

/-- The word of +∞ denotes the top of the extended reals. -/
theorem ofBits_inf : Ideal.ofBits .f32 0x7F800000#32 = ⊤ := by
  simp [Ideal.ofBits, Ideal.ieee]

instance : Subsingleton (⟨0, ![]⟩ : Shape).Idx := ⟨fun _ _ => funext fun d => d.elim0⟩

/-- A precondition's conjunct "every entry of `x` is finite", as it is spelled: the absolute values compared below the
    +∞ word laid over the shape, the bits and-reduced over all axes to a single bit. If that bit is 1, every entry of
    `x` is a real number. -/
theorem realValued_of_all_abs_lt_inf {axes : List (Fin s.rank)} (x : FVec Ideal s .f32)
    (bc : (⟨0, ![]⟩ : Shape).BroadcastsInDim s ![]) (hred : s.ReducesTo axes ⟨0, ![]⟩)
    (h0 : 0 < (⟨0, ![]⟩ : Shape).numel) (init : IVec ⟨0, ![]⟩ 1) (j : (⟨0, ![]⟩ : Shape).Idx)
    (e : Host.reduce IntOp.andi
        (cmpf .olt (Host.absf x) (broadcastInDim s ![] bc (constant (F := Ideal) ⟨0, ![]⟩ .f32 0x7F800000#32)))
        init hred h0 j = 1#1) :
    RealValued x := by
  intro i
  have hi := Host.reduce_andi_all _ _ hred h0 j e i
  have hlt : max (x i) (-(x i)) < ⊤ := by
    have h2 : Ideal.cmp .olt (max (x i) (-(x i))) (Ideal.ofBits .f32 0x7F800000#32) = 1#1 := hi
    rw [ofBits_inf] at h2
    unfold Ideal.cmp at h2
    by_contra hn
    simp [hn] at h2
  exact isReal_of_abs_lt_top hlt

end Cert.LibFinite

end
-- ==== Proof.AlgebraTherm.lean ====
/-
  The law that joins the two first layers.

  For a table T of n ≤ 4 real rows and an index a < n, the row T a is T 0 plus the successive differences
  T k − T (k−1) for 1 ≤ k ≤ a: the differences telescope. Written with the bits [k ≤ a] it is a sum of products
  bit · difference, which is what a matrix product of the row of bits with the rows of differences computes. The law
  needs the rows to be real numbers: on the extended reals (T 1 − T 0) + T 0 = T 1 fails at the infinities.
-/
import proofs.«154124_g78426102825261_cont_9to1_m_135_12_alg».proof.Proof.Spec
import proofs.«154124_g78426102825261_cont_9to1_m_135_12_alg».proof.Proof.LibFinite

noncomputable section

open scoped BigOperators

namespace Cert.HeartMlp

open Cert.LibFinite

/-- The threshold test on an index word: [k ≤ v] for an integer k, as the comparison of extended reals. -/
theorem le_ofInt (k : ℤ) (v : BitVec 32) : (((k : ℝ) : EReal) ≤ ofInt v) ↔ k ≤ v.toInt := by
  unfold ofInt
  rw [EReal.coe_le_coe_iff]
  exact_mod_cast Iff.rfl

theorem coe_two : (((2 : ℤ) : ℝ) : EReal) = 2 := by norm_cast
theorem coe_three : (((3 : ℤ) : ℝ) : EReal) = 3 := by norm_cast

theorem bit1 (v : BitVec 32) : ((1 : EReal) ≤ ofInt v) ↔ 1 ≤ v.toInt := by
  have h := le_ofInt 1 v
  simpa using h
theorem bit2 (v : BitVec 32) : ((2 : EReal) ≤ ofInt v) ↔ 2 ≤ v.toInt := by
  have h := le_ofInt 2 v
  rwa [coe_two] at h
theorem bit3 (v : BitVec 32) : ((3 : EReal) ≤ ofInt v) ↔ 3 ≤ v.toInt := by
  have h := le_ofInt 3 v
  rwa [coe_three] at h

/-- Two rows. -/
theorem therm2 (T : Fin 2 → EReal) (hT : ∀ a, IsReal (T a)) (v : BitVec 32) (h0 : 0 ≤ v.toInt) (h1 : v.toInt < 2) :
    (if (1 : EReal) ≤ ofInt v then (1 : EReal) else 0) * (T 1 - T 0) + T 0 = T (rowSel 2 (by decide) v) := by
  simp only [bit1]
  obtain ⟨t0, e0⟩ := hT 0
  obtain ⟨t1, e1⟩ := hT 1
  have hv : v.toInt = 0 ∨ v.toInt = 1 := by omega
  rcases hv with hv | hv
  · have hr : rowSel 2 (by decide) v = 0 := Fin.ext (by simp [rowSel, hv])
    rw [hr, hv]; simp
  · have hr : rowSel 2 (by decide) v = 1 := Fin.ext (by simp [rowSel, hv])
    rw [hr, hv, e0, e1]
    simp only [le_refl, if_true, one_mul]
    rw [← EReal.coe_sub, ← EReal.coe_add]; congr 1; ring

/-- Three rows. -/
theorem therm3 (T : Fin 3 → EReal) (hT : ∀ a, IsReal (T a)) (v : BitVec 32) (h0 : 0 ≤ v.toInt) (h1 : v.toInt < 3) :
    (if (1 : EReal) ≤ ofInt v then (1 : EReal) else 0) * (T 1 - T 0)
      + ((if (2 : EReal) ≤ ofInt v then (1 : EReal) else 0) * (T 2 - T 1) + T 0) = T (rowSel 3 (by decide) v) := by
  simp only [bit1, bit2]
  obtain ⟨t0, e0⟩ := hT 0
  obtain ⟨t1, e1⟩ := hT 1
  obtain ⟨t2, e2⟩ := hT 2
  have hv : v.toInt = 0 ∨ v.toInt = 1 ∨ v.toInt = 2 := by omega
  rcases hv with hv | hv | hv
  · have hr : rowSel 3 (by decide) v = 0 := Fin.ext (by simp [rowSel, hv])
    rw [hr, hv]; simp
  · have hr : rowSel 3 (by decide) v = 1 := Fin.ext (by simp [rowSel, hv])
    rw [hr, hv, e0, e1, e2]
    simp only [le_refl, if_true, one_mul, show ¬ ((2 : ℤ) ≤ 1) from by norm_num, if_false, zero_mul, zero_add]
    rw [← EReal.coe_sub, ← EReal.coe_add]; congr 1; ring
  · have hr : rowSel 3 (by decide) v = 2 := Fin.ext (by simp [rowSel, hv])
    rw [hr, hv, e0, e1, e2]
    simp only [le_refl, if_true, one_mul, show ((1 : ℤ) ≤ 2) from by norm_num]
    rw [← EReal.coe_sub, ← EReal.coe_sub, ← EReal.coe_add, ← EReal.coe_add]; congr 1; ring

/-- Four rows. -/
theorem therm4 (T : Fin 4 → EReal) (hT : ∀ a, IsReal (T a)) (v : BitVec 32) (h0 : 0 ≤ v.toInt) (h1 : v.toInt < 4) :
    (if (1 : EReal) ≤ ofInt v then (1 : EReal) else 0) * (T 1 - T 0)
      + ((if (2 : EReal) ≤ ofInt v then (1 : EReal) else 0) * (T 2 - T 1)
        + ((if (3 : EReal) ≤ ofInt v then (1 : EReal) else 0) * (T 3 - T 2) + T 0)) = T (rowSel 4 (by decide) v) := by
  simp only [bit1, bit2, bit3]
  obtain ⟨t0, e0⟩ := hT 0
  obtain ⟨t1, e1⟩ := hT 1
  obtain ⟨t2, e2⟩ := hT 2
  obtain ⟨t3, e3⟩ := hT 3
  have hv : v.toInt = 0 ∨ v.toInt = 1 ∨ v.toInt = 2 ∨ v.toInt = 3 := by omega
  rcases hv with hv | hv | hv | hv
  · have hr : rowSel 4 (by decide) v = 0 := Fin.ext (by simp [rowSel, hv])
    rw [hr, hv]; simp
  · have hr : rowSel 4 (by decide) v = 1 := Fin.ext (by simp [rowSel, hv])
    rw [hr, hv, e0, e1, e2, e3]
    simp only [le_refl, if_true, one_mul, show ¬ ((2 : ℤ) ≤ 1) from by norm_num, show ¬ ((3 : ℤ) ≤ 1) from by norm_num,
      if_false, zero_mul, zero_add]
    rw [← EReal.coe_sub, ← EReal.coe_add]; congr 1; ring
  · have hr : rowSel 4 (by decide) v = 2 := Fin.ext (by simp [rowSel, hv])
    rw [hr, hv, e0, e1, e2, e3]
    simp only [le_refl, if_true, one_mul, show ((1 : ℤ) ≤ 2) from by norm_num, show ¬ ((3 : ℤ) ≤ 2) from by norm_num,
      if_false, zero_mul, zero_add]
    rw [← EReal.coe_sub, ← EReal.coe_sub, ← EReal.coe_add, ← EReal.coe_add]; congr 1; ring
  · have hr : rowSel 4 (by decide) v = 3 := Fin.ext (by simp [rowSel, hv])
    rw [hr, hv, e0, e1, e2, e3]
    simp only [le_refl, if_true, one_mul, show ((1 : ℤ) ≤ 3) from by norm_num, show ((2 : ℤ) ≤ 3) from by norm_num]
    rw [← EReal.coe_sub, ← EReal.coe_sub, ← EReal.coe_sub, ← EReal.coe_add, ← EReal.coe_add, ← EReal.coe_add]
    congr 1; ring

end Cert.HeartMlp

end
-- ==== Proof.AlgebraJoin.lean ====
/-
  The two first layers agree on a row.

  The reference's row of 44 numbers times W1 splits, band by band, into the selected row of each folded table
  (table · band of W1) plus the six continuous features times their rows of W1. The kernel's row of 18 numbers times
  its folded weights is, per table, the thermometer sum of successive differences, and its bias carries every folded
  table's row 0; by the telescoping law each table's share is again its selected row. What is left is a
  rearrangement of one finite sum.
-/
import proofs.«154124_g78426102825261_cont_9to1_m_135_12_alg».proof.Proof.AlgebraTherm

noncomputable section

open scoped BigOperators

namespace Cert.HeartMlp

open Cert.LibFinite

/-- A sum over a + b positions is the sum over the first a plus the sum over the last b. -/
theorem sum_split (a b : ℕ) (g : Fin (a + b) → EReal) :
    ∑ k, g k = (∑ k : Fin a, g ⟨k.val, by have := k.isLt; omega⟩) + ∑ k : Fin b, g ⟨a + k.val, by have := k.isLt; omega⟩ :=
  Fin.sum_univ_add g

/-- Twelve terms written out. -/
theorem sum12 (f : Fin 12 → EReal) :
    ∑ l, f l = f 0 + (f 1 + (f 2 + (f 3 + (f 4 + (f 5 + (f 6 + (f 7 + (f 8 + (f 9 + (f 10 + f 11)))))))))) := by
  simp only [Fin.sum_univ_succ, Fin.sum_univ_zero, add_zero]
  rfl

/-- The rearrangement: the kernel's order of the terms against the per-table grouping. -/
theorem regroup (a b c d1 e1 g1 h1 d2 e2 g2 h2 h3 cw bb A0 B0 C0 D0 E0 G0 H0 : EReal) :
    (a + (b + (c + (d1 + (e1 + (g1 + (h1 + (d2 + (e2 + (g2 + (h2 + h3)))))))))) + cw) + (bb + A0 + B0 + C0 + D0 + E0 + G0 + H0)
      = ((a + A0) + (b + B0) + (c + C0) + (d1 + (d2 + D0)) + (e1 + (e2 + E0)) + (g1 + (g2 + G0)) + (h1 + (h2 + (h3 + H0))) + cw) + bb := by
  ac_rfl

/-- The 44 columns in their eight bands. -/
theorem sum44_bands (g : Fin 44 → EReal) :
    ∑ k, g k = (((((((∑ k : Fin 4, g ⟨k.val, by have := k.isLt; omega⟩) + ∑ k : Fin 4, g ⟨4 + k.val, by have := k.isLt; omega⟩)
      + ∑ k : Fin 4, g ⟨8 + k.val, by have := k.isLt; omega⟩) + ∑ k : Fin 6, g ⟨12 + k.val, by have := k.isLt; omega⟩)
      + ∑ k : Fin 6, g ⟨18 + k.val, by have := k.isLt; omega⟩) + ∑ k : Fin 6, g ⟨24 + k.val, by have := k.isLt; omega⟩)
      + ∑ k : Fin 8, g ⟨30 + k.val, by have := k.isLt; omega⟩) + ∑ k : Fin 6, g ⟨38 + k.val, by have := k.isLt; omega⟩ := by
  have h1 : ∑ k : Fin 44, g k = (∑ k : Fin 38, g ⟨k.val, by have := k.isLt; omega⟩) + ∑ k : Fin 6, g ⟨38 + k.val, by have := k.isLt; omega⟩ :=
    sum_split 38 6 g
  have h2 : (∑ k : Fin 38, g ⟨k.val, by have := k.isLt; omega⟩) = (∑ k : Fin 30, g ⟨k.val, by have := k.isLt; omega⟩) + ∑ k : Fin 8, g ⟨30 + k.val, by have := k.isLt; omega⟩ :=
    sum_split 30 8 fun k => g ⟨k.val, by have := k.isLt; omega⟩
  have h3 : (∑ k : Fin 30, g ⟨k.val, by have := k.isLt; omega⟩) = (∑ k : Fin 24, g ⟨k.val, by have := k.isLt; omega⟩) + ∑ k : Fin 6, g ⟨24 + k.val, by have := k.isLt; omega⟩ :=
    sum_split 24 6 fun k => g ⟨k.val, by have := k.isLt; omega⟩
  have h4 : (∑ k : Fin 24, g ⟨k.val, by have := k.isLt; omega⟩) = (∑ k : Fin 18, g ⟨k.val, by have := k.isLt; omega⟩) + ∑ k : Fin 6, g ⟨18 + k.val, by have := k.isLt; omega⟩ :=
    sum_split 18 6 fun k => g ⟨k.val, by have := k.isLt; omega⟩
  have h5 : (∑ k : Fin 18, g ⟨k.val, by have := k.isLt; omega⟩) = (∑ k : Fin 12, g ⟨k.val, by have := k.isLt; omega⟩) + ∑ k : Fin 6, g ⟨12 + k.val, by have := k.isLt; omega⟩ :=
    sum_split 12 6 fun k => g ⟨k.val, by have := k.isLt; omega⟩
  have h6 : (∑ k : Fin 12, g ⟨k.val, by have := k.isLt; omega⟩) = (∑ k : Fin 8, g ⟨k.val, by have := k.isLt; omega⟩) + ∑ k : Fin 4, g ⟨8 + k.val, by have := k.isLt; omega⟩ :=
    sum_split 8 4 fun k => g ⟨k.val, by have := k.isLt; omega⟩
  have h7 : (∑ k : Fin 8, g ⟨k.val, by have := k.isLt; omega⟩) = (∑ k : Fin 4, g ⟨k.val, by have := k.isLt; omega⟩) + ∑ k : Fin 4, g ⟨4 + k.val, by have := k.isLt; omega⟩ :=
    sum_split 4 4 fun k => g ⟨k.val, by have := k.isLt; omega⟩
  rw [h1, h2, h3, h4, h5, h6, h7]

section Row

variable (con : Fin 6 → EReal) (e20 e21 e22 : Fin 2 → Fin 4 → EReal) (e30 e31 e32 : Fin 3 → Fin 6 → EReal)
  (e4 : Fin 4 → Fin 8 → EReal) (i20 i21 i22 : Fin 2) (i30 i31 i32 : Fin 3) (i4 : Fin 4)

/-- The reference's row, band by band. -/
theorem refRow_b0 (k : Fin 4) : refRow con e20 e21 e22 e30 e31 e32 e4 i20 i21 i22 i30 i31 i32 i4 ⟨k.val, by have := k.isLt; omega⟩ = e20 i20 k := by
  unfold refRow
  rw [dif_pos (show k.val < 4 from k.isLt)]
theorem refRow_b1 (k : Fin 4) : refRow con e20 e21 e22 e30 e31 e32 e4 i20 i21 i22 i30 i31 i32 i4 ⟨4 + k.val, by have := k.isLt; omega⟩ = e21 i21 k := by
  have := k.isLt
  unfold refRow
  rw [dif_neg (show ¬ 4 + k.val < 4 by omega), dif_pos (show 4 + k.val < 8 by omega)]
  exact congrArg (e21 i21) (Fin.ext (by show 4 + k.val - 4 = k.val; omega))
theorem refRow_b2 (k : Fin 4) : refRow con e20 e21 e22 e30 e31 e32 e4 i20 i21 i22 i30 i31 i32 i4 ⟨8 + k.val, by have := k.isLt; omega⟩ = e22 i22 k := by
  have := k.isLt
  unfold refRow
  rw [dif_neg (show ¬ 8 + k.val < 4 by omega), dif_neg (show ¬ 8 + k.val < 8 by omega), dif_pos (show 8 + k.val < 12 by omega)]
  exact congrArg (e22 i22) (Fin.ext (by show 8 + k.val - 8 = k.val; omega))
theorem refRow_b3 (k : Fin 6) : refRow con e20 e21 e22 e30 e31 e32 e4 i20 i21 i22 i30 i31 i32 i4 ⟨12 + k.val, by have := k.isLt; omega⟩ = e30 i30 k := by
  have := k.isLt
  unfold refRow
  rw [dif_neg (show ¬ 12 + k.val < 4 by omega), dif_neg (show ¬ 12 + k.val < 8 by omega), dif_neg (show ¬ 12 + k.val < 12 by omega),
    dif_pos (show 12 + k.val < 18 by omega)]
  exact congrArg (e30 i30) (Fin.ext (by show 12 + k.val - 12 = k.val; omega))
theorem refRow_b4 (k : Fin 6) : refRow con e20 e21 e22 e30 e31 e32 e4 i20 i21 i22 i30 i31 i32 i4 ⟨18 + k.val, by have := k.isLt; omega⟩ = e31 i31 k := by
  have := k.isLt
  unfold refRow
  rw [dif_neg (show ¬ 18 + k.val < 4 by omega), dif_neg (show ¬ 18 + k.val < 8 by omega), dif_neg (show ¬ 18 + k.val < 12 by omega),
    dif_neg (show ¬ 18 + k.val < 18 by omega), dif_pos (show 18 + k.val < 24 by omega)]
  exact congrArg (e31 i31) (Fin.ext (by show 18 + k.val - 18 = k.val; omega))
theorem refRow_b5 (k : Fin 6) : refRow con e20 e21 e22 e30 e31 e32 e4 i20 i21 i22 i30 i31 i32 i4 ⟨24 + k.val, by have := k.isLt; omega⟩ = e32 i32 k := by
  have := k.isLt
  unfold refRow
  rw [dif_neg (show ¬ 24 + k.val < 4 by omega), dif_neg (show ¬ 24 + k.val < 8 by omega), dif_neg (show ¬ 24 + k.val < 12 by omega),
    dif_neg (show ¬ 24 + k.val < 18 by omega), dif_neg (show ¬ 24 + k.val < 24 by omega), dif_pos (show 24 + k.val < 30 by omega)]
  exact congrArg (e32 i32) (Fin.ext (by show 24 + k.val - 24 = k.val; omega))
theorem refRow_b6 (k : Fin 8) : refRow con e20 e21 e22 e30 e31 e32 e4 i20 i21 i22 i30 i31 i32 i4 ⟨30 + k.val, by have := k.isLt; omega⟩ = e4 i4 k := by
  have := k.isLt
  unfold refRow
  rw [dif_neg (show ¬ 30 + k.val < 4 by omega), dif_neg (show ¬ 30 + k.val < 8 by omega), dif_neg (show ¬ 30 + k.val < 12 by omega),
    dif_neg (show ¬ 30 + k.val < 18 by omega), dif_neg (show ¬ 30 + k.val < 24 by omega), dif_neg (show ¬ 30 + k.val < 30 by omega),
    dif_pos (show 30 + k.val < 38 by omega)]
  exact congrArg (e4 i4) (Fin.ext (by show 30 + k.val - 30 = k.val; omega))
theorem refRow_b7 (k : Fin 6) : refRow con e20 e21 e22 e30 e31 e32 e4 i20 i21 i22 i30 i31 i32 i4 ⟨38 + k.val, by have := k.isLt; omega⟩ = con k := by
  have := k.isLt
  unfold refRow
  rw [dif_neg (show ¬ 38 + k.val < 4 by omega), dif_neg (show ¬ 38 + k.val < 8 by omega), dif_neg (show ¬ 38 + k.val < 12 by omega),
    dif_neg (show ¬ 38 + k.val < 18 by omega), dif_neg (show ¬ 38 + k.val < 24 by omega), dif_neg (show ¬ 38 + k.val < 30 by omega),
    dif_neg (show ¬ 38 + k.val < 38 by omega)]
  exact congrArg con (Fin.ext (by show 38 + k.val - 38 = k.val; omega))

/-- The reference's first layer as the selected rows of the folded tables plus the continuous part. -/
theorem refZ_bands (W1 : Fin 44 → Fin 256 → EReal) (b1 : Fin 256 → EReal) (j : Fin 256) :
    refZ (refRow con e20 e21 e22 e30 e31 e32 e4 i20 i21 i22 i30 i31 i32 i4) W1 b1 j
      = (fold e20 W1 0 (by omega) i20 j + fold e21 W1 4 (by omega) i21 j + fold e22 W1 8 (by omega) i22 j
          + fold e30 W1 12 (by omega) i30 j + fold e31 W1 18 (by omega) i31 j + fold e32 W1 24 (by omega) i32 j
          + fold e4 W1 30 (by omega) i4 j
          + ∑ n : Fin 6, con n * W1 ⟨38 + n.val, by have := n.isLt; omega⟩ j) + b1 j := by
  unfold refZ
  rw [sum44_bands]
  simp only [refRow_b0, refRow_b1, refRow_b2, refRow_b3, refRow_b4, refRow_b5, refRow_b6, refRow_b7]
  unfold fold
  simp only [Nat.zero_add]

end Row

section Ker

variable (CON : Fin 16384 → Fin 6 → EReal) (C2 C3 : Fin 16384 → Fin 3 → BitVec 32) (C4 : Fin 16384 → Fin 1 → BitVec 32)
  (e20 e21 e22 : Fin 2 → Fin 4 → EReal) (e30 e31 e32 : Fin 3 → Fin 6 → EReal) (e4 : Fin 4 → Fin 8 → EReal)
  (W1 : Fin 44 → Fin 256 → EReal) (b1 : Fin 256 → EReal) (r : Fin 16384) (j : Fin 256)

/-- A thermometer bit of the kernel's row. -/
def bit (k : EReal) (v : BitVec 32) : EReal := if k ≤ ofInt v then 1 else 0

/-- The kernel's first layer with its 18 products written out: twelve bit · difference terms in the packed order,
    the six continuous terms, and the folded bias. -/
theorem kerZ_terms :
    kerZ (sRow (packed CON C2 C3 C4 r) thrLit) (wfoldS e20 e21 e22 e30 e31 e32 e4 W1) (baseS e20 e21 e22 e30 e31 e32 e4 W1 b1) j
      = (bit 1 (C2 r 0) * (fold e20 W1 0 (by omega) 1 j - fold e20 W1 0 (by omega) 0 j)
        + (bit 1 (C2 r 1) * (fold e21 W1 4 (by omega) 1 j - fold e21 W1 4 (by omega) 0 j)
        + (bit 1 (C2 r 2) * (fold e22 W1 8 (by omega) 1 j - fold e22 W1 8 (by omega) 0 j)
        + (bit 1 (C3 r 0) * (fold e30 W1 12 (by omega) 1 j - fold e30 W1 12 (by omega) 0 j)
        + (bit 1 (C3 r 1) * (fold e31 W1 18 (by omega) 1 j - fold e31 W1 18 (by omega) 0 j)
        + (bit 1 (C3 r 2) * (fold e32 W1 24 (by omega) 1 j - fold e32 W1 24 (by omega) 0 j)
        + (bit 1 (C4 r 0) * (fold e4 W1 30 (by omega) 1 j - fold e4 W1 30 (by omega) 0 j)
        + (bit 2 (C3 r 0) * (fold e30 W1 12 (by omega) 2 j - fold e30 W1 12 (by omega) 1 j)
        + (bit 2 (C3 r 1) * (fold e31 W1 18 (by omega) 2 j - fold e31 W1 18 (by omega) 1 j)
        + (bit 2 (C3 r 2) * (fold e32 W1 24 (by omega) 2 j - fold e32 W1 24 (by omega) 1 j)
        + (bit 2 (C4 r 0) * (fold e4 W1 30 (by omega) 2 j - fold e4 W1 30 (by omega) 1 j)
        + bit 3 (C4 r 0) * (fold e4 W1 30 (by omega) 3 j - fold e4 W1 30 (by omega) 2 j)))))))))))
        + ∑ n : Fin 6, CON r n * W1 ⟨38 + n.val, by have := n.isLt; omega⟩ j)
        + (b1 j + fold e20 W1 0 (by omega) 0 j + fold e21 W1 4 (by omega) 0 j + fold e22 W1 8 (by omega) 0 j
          + fold e30 W1 12 (by omega) 0 j + fold e31 W1 18 (by omega) 0 j + fold e32 W1 24 (by omega) 0 j
          + fold e4 W1 30 (by omega) 0 j) := by
  unfold kerZ baseS
  refine congrArg (· + _) ?_
  rw [sum_split 12 6 fun l => sRow (packed CON C2 C3 C4 r) thrLit l * wfoldS e20 e21 e22 e30 e31 e32 e4 W1 l j, sum12]
  refine congrArg₂ (· + ·) rfl ?_
  refine Finset.sum_congr rfl fun n _ => ?_
  have hn := n.isLt
  have h1 : sRow (packed CON C2 C3 C4 r) thrLit ⟨12 + n.val, by omega⟩ = CON r n := by
    unfold sRow
    rw [if_neg (show ¬ 12 + n.val < 12 by omega)]
    unfold packed
    rw [dif_neg (show ¬ 12 + n.val < 3 by omega), dif_neg (show ¬ 12 + n.val < 6 by omega), if_neg (show ¬ 12 + n.val < 7 by omega),
      dif_neg (show ¬ 12 + n.val < 10 by omega), if_neg (show ¬ 12 + n.val < 12 by omega)]
    exact congrArg (CON r) (Fin.ext (by show 12 + n.val - 12 = n.val; omega))
  have h2 : wfoldS e20 e21 e22 e30 e31 e32 e4 W1 ⟨12 + n.val, by omega⟩ j = W1 ⟨38 + n.val, by omega⟩ j := by
    have e : (⟨12 + n.val, by omega⟩ : Fin 18) = ⟨n.val + 12, by omega⟩ := Fin.ext (by show 12 + n.val = n.val + 12; omega)
    rw [e]
    rfl
  rw [h1, h2]

end Ker

section Join

variable (CON : Fin 16384 → Fin 6 → EReal) (C2 C3 : Fin 16384 → Fin 3 → BitVec 32) (C4 : Fin 16384 → Fin 1 → BitVec 32)
  (e20 e21 e22 : Fin 2 → Fin 4 → EReal) (e30 e31 e32 : Fin 3 → Fin 6 → EReal) (e4 : Fin 4 → Fin 8 → EReal)
  (W1 : Fin 44 → Fin 256 → EReal) (b1 : Fin 256 → EReal)

/-- A folded table of real entries against a real W1 is real. -/
theorem fold_real {n d : ℕ} (e : Fin n → Fin d → EReal) (off : ℕ) (h : off + d ≤ 44) (he : ∀ a k, IsReal (e a k))
    (hW : ∀ k j, IsReal (W1 k j)) (a : Fin n) (j : Fin 256) : IsReal (fold e W1 off h a j) :=
  isReal_sum _ _ fun k _ => (he a k).mul (hW _ j)

/-- THE JOIN: on real tables and a real W1, with every index word inside its table, the kernel's first layer of a
    row is the reference's. -/
theorem kerZ_eq_refZ (he20 : ∀ a k, IsReal (e20 a k)) (he21 : ∀ a k, IsReal (e21 a k)) (he22 : ∀ a k, IsReal (e22 a k))
    (he30 : ∀ a k, IsReal (e30 a k)) (he31 : ∀ a k, IsReal (e31 a k)) (he32 : ∀ a k, IsReal (e32 a k))
    (he4 : ∀ a k, IsReal (e4 a k)) (hW : ∀ k j, IsReal (W1 k j))
    (hC2 : ∀ r k, 0 ≤ (C2 r k).toInt ∧ (C2 r k).toInt < 2) (hC3 : ∀ r k, 0 ≤ (C3 r k).toInt ∧ (C3 r k).toInt < 3)
    (hC4 : ∀ r k, 0 ≤ (C4 r k).toInt ∧ (C4 r k).toInt < 4) (r : Fin 16384) (j : Fin 256) :
    kerZ (sRow (packed CON C2 C3 C4 r) thrLit) (wfoldS e20 e21 e22 e30 e31 e32 e4 W1) (baseS e20 e21 e22 e30 e31 e32 e4 W1 b1) j
      = refZ (refRow (CON r) e20 e21 e22 e30 e31 e32 e4
          (rowSel 2 (by decide) (C2 r 0)) (rowSel 2 (by decide) (C2 r 1)) (rowSel 2 (by decide) (C2 r 2))
          (rowSel 3 (by decide) (C3 r 0)) (rowSel 3 (by decide) (C3 r 1)) (rowSel 3 (by decide) (C3 r 2))
          (rowSel 4 (by decide) (C4 r 0))) W1 b1 j := by
  have tA := therm2 (fun a => fold e20 W1 0 (by omega) a j) (fun a => fold_real W1 e20 0 _ he20 hW a j) (C2 r 0) (hC2 r 0).1 (hC2 r 0).2
  have tB := therm2 (fun a => fold e21 W1 4 (by omega) a j) (fun a => fold_real W1 e21 4 _ he21 hW a j) (C2 r 1) (hC2 r 1).1 (hC2 r 1).2
  have tC := therm2 (fun a => fold e22 W1 8 (by omega) a j) (fun a => fold_real W1 e22 8 _ he22 hW a j) (C2 r 2) (hC2 r 2).1 (hC2 r 2).2
  have tD := therm3 (fun a => fold e30 W1 12 (by omega) a j) (fun a => fold_real W1 e30 12 _ he30 hW a j) (C3 r 0) (hC3 r 0).1 (hC3 r 0).2
  have tE := therm3 (fun a => fold e31 W1 18 (by omega) a j) (fun a => fold_real W1 e31 18 _ he31 hW a j) (C3 r 1) (hC3 r 1).1 (hC3 r 1).2
  have tG := therm3 (fun a => fold e32 W1 24 (by omega) a j) (fun a => fold_real W1 e32 24 _ he32 hW a j) (C3 r 2) (hC3 r 2).1 (hC3 r 2).2
  have tH := therm4 (fun a => fold e4 W1 30 (by omega) a j) (fun a => fold_real W1 e4 30 _ he4 hW a j) (C4 r 0) (hC4 r 0).1 (hC4 r 0).2
  rw [kerZ_terms, refZ_bands, regroup]
  unfold bit
  rw [tA, tB, tC, tD, tE, tG, tH]

end Join

end Cert.HeartMlp

end
-- ==== Proof.PreDecode.lean ====
/-
  What the precondition says, entry by entry: every float argument is an array of real numbers, and every index word
  lies inside the table it indexes (0 ≤ cat_2 < 2, 0 ≤ cat_3 < 3, 0 ≤ cat_4 < 4).

  The precondition is printed as one bit: seventeen "all" tests and-ed together, each an and-reduction over every
  axis of a comparison laid over the array. If the bit is 1, each test's bit is 1, and then each compared entry's.
-/
import proofs.«154124_g78426102825261_cont_9to1_m_135_12_alg».proof.Pre_finite_inputs
import proofs.«154124_g78426102825261_cont_9to1_m_135_12_alg».proof.Proof.LibFinite
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs Cert.LibFinite

variable [hFacts : Cert.Pre_finite_inputs.Facts]

/-- An "all" test of 0 ≤ a < n over an integer array, if its bit is 1, bounds every entry. -/
theorem range_of_all {s : Shape} {axes : List (Fin s.rank)} (a : IVec s 32) (n : BitVec 32)
    (bc : (⟨0, ![]⟩ : Shape).BroadcastsInDim s ![]) (hred : s.ReducesTo axes ⟨0, ![]⟩)
    (h0 : 0 < (⟨0, ![]⟩ : Shape).numel) (init : IVec ⟨0, ![]⟩ 1) (j : (⟨0, ![]⟩ : Shape).Idx)
    (e : Host.reduce IntOp.andi
        (andi (cmpi .sge a (broadcastInDim s ![] bc (constantI ⟨0, ![]⟩ 32 0#32)))
          (cmpi .slt a (broadcastInDim s ![] bc (constantI ⟨0, ![]⟩ 32 n))))
        init hred h0 j = 1#1) (i : s.Idx) :
    0 ≤ (a i).toInt ∧ (a i).toInt < n.toInt := by
  have hi := Host.reduce_andi_all _ _ hred h0 j e i
  have h2 : IntOp.andi (IntOp.cmpi .sge (a i) 0#32) (IntOp.cmpi .slt (a i) n) = 1#1 := hi
  obtain ⟨h3, h4⟩ := IntOp.andi_eq_one.1 h2
  exact ⟨by simpa using IntOp.cmpi_sge.1 h3, IntOp.cmpi_slt.1 h4⟩

/-- The precondition's content. -/
structure Holds (a0 : FVec Ideal S16384x6 .f32) (a1 a2 : IVec S16384x3 32) (a3 : IVec S16384x1 32)
    (a4 a5 a6 : FVec Ideal S2x4 .f32) (a7 a8 a9 : FVec Ideal S3x6 .f32) (a10 : FVec Ideal S4x8 .f32)
    (a11 : FVec Ideal S44x256 .f32) (a12 : FVec Ideal S256 .f32) (a13 : FVec Ideal S256x128 .f32)
    (a14 : FVec Ideal S128 .f32) (a15 : FVec Ideal S128x2 .f32) (a16 : FVec Ideal S2 .f32) : Prop where
  r0 : RealValued a0
  r4 : RealValued a4
  r5 : RealValued a5
  r6 : RealValued a6
  r7 : RealValued a7
  r8 : RealValued a8
  r9 : RealValued a9
  r10 : RealValued a10
  r11 : RealValued a11
  r12 : RealValued a12
  r13 : RealValued a13
  r14 : RealValued a14
  r15 : RealValued a15
  r16 : RealValued a16
  i1 : ∀ i, 0 ≤ (a1 i).toInt ∧ (a1 i).toInt < 2
  i2 : ∀ i, 0 ≤ (a2 i).toInt ∧ (a2 i).toInt < 3
  i3 : ∀ i, 0 ≤ (a3 i).toInt ∧ (a3 i).toInt < 4

theorem decode (a0 : FVec Ideal S16384x6 .f32) (a1 a2 : IVec S16384x3 32) (a3 : IVec S16384x1 32)
    (a4 a5 a6 : FVec Ideal S2x4 .f32) (a7 a8 a9 : FVec Ideal S3x6 .f32) (a10 : FVec Ideal S4x8 .f32)
    (a11 : FVec Ideal S44x256 .f32) (a12 : FVec Ideal S256 .f32) (a13 : FVec Ideal S256x128 .f32)
    (a14 : FVec Ideal S128 .f32) (a15 : FVec Ideal S128x2 .f32) (a16 : FVec Ideal S2 .f32)
    (h : fn (F := Ideal) a0 a1 a2 a3 a4 a5 a6 a7 a8 a9 a10 a11 a12 a13 a14 a15 a16 = fun _ => 1#1) :
    Holds a0 a1 a2 a3 a4 a5 a6 a7 a8 a9 a10 a11 a12 a13 a14 a15 a16 := by
  have hb := congrFun h ix0
  dsimp only [fn, fn_part1, fn_part2, fn_part3, fn_part4, fn_part5] at hb
  simp only [andi, IntOp.andi_eq_one] at hb
  obtain ⟨⟨⟨⟨⟨⟨⟨⟨⟨⟨⟨⟨⟨⟨⟨⟨h0, h4⟩, h5⟩, h6⟩, h7⟩, h8⟩, h9⟩, h10⟩, h11⟩, h12⟩, h13⟩, h14⟩, h15⟩, h16⟩, g1⟩, g2⟩, g3⟩ := hb
  exact
    { r0 := realValued_of_all_abs_lt_inf a0 _ _ _ _ _ h0
      r4 := realValued_of_all_abs_lt_inf a4 _ _ _ _ _ h4
      r5 := realValued_of_all_abs_lt_inf a5 _ _ _ _ _ h5
      r6 := realValued_of_all_abs_lt_inf a6 _ _ _ _ _ h6
      r7 := realValued_of_all_abs_lt_inf a7 _ _ _ _ _ h7
      r8 := realValued_of_all_abs_lt_inf a8 _ _ _ _ _ h8
      r9 := realValued_of_all_abs_lt_inf a9 _ _ _ _ _ h9
      r10 := realValued_of_all_abs_lt_inf a10 _ _ _ _ _ h10
      r11 := realValued_of_all_abs_lt_inf a11 _ _ _ _ _ h11
      r12 := realValued_of_all_abs_lt_inf a12 _ _ _ _ _ h12
      r13 := realValued_of_all_abs_lt_inf a13 _ _ _ _ _ h13
      r14 := realValued_of_all_abs_lt_inf a14 _ _ _ _ _ h14
      r15 := realValued_of_all_abs_lt_inf a15 _ _ _ _ _ h15
      r16 := realValued_of_all_abs_lt_inf a16 _ _ _ _ _ h16
      i1 := fun i => range_of_all a1 2#32 _ _ _ _ _ g1 i
      i2 := fun i => range_of_all a2 3#32 _ _ _ _ _ g2 i
      i3 := fun i => range_of_all a3 4#32 _ _ _ _ _ g3 i }

end Cert.Pre_finite_inputs.Decode

end
-- ==== Proof.Algebraic.lean ====
/-
  The two idealized programs end with equal results.

  The kernel program's result array, read at row r and column q, is layers two and three applied to the kernel's
  first layer of row r (the blocks written back, read through the thermometer form); the reference's is the same
  two layers applied to the reference's first layer of row r (the run, read at an index). Under the precondition
  every float argument is real and every index word lies inside its table, so the two first layers agree (the
  telescoping law), and with them the results.
-/
import proofs.«154124_g78426102825261_cont_9to1_m_135_12_alg».proof.Defs
import proofs.«154124_g78426102825261_cont_9to1_m_135_12_alg».proof.Proof.KFrameRunIdeal
import proofs.«154124_g78426102825261_cont_9to1_m_135_12_alg».proof.Proof.KValue
import proofs.«154124_g78426102825261_cont_9to1_m_135_12_alg».proof.Proof.RefRun
import proofs.«154124_g78426102825261_cont_9to1_m_135_12_alg».proof.Proof.RefRead
import proofs.«154124_g78426102825261_cont_9to1_m_135_12_alg».proof.Proof.AlgebraJoin
import proofs.«154124_g78426102825261_cont_9to1_m_135_12_alg».proof.Proof.PreDecode

noncomputable section

namespace Cert.Proof.Claims

open Idealize.ShloMosaic Idealize.ShloMosaic.TcCoe Idealize.SL.Sem Idealize.ShloMosaic.ValueIdx Cert.HeartMlp Cert.LibFinite

variable [hKernelIdeal : Cert.KernelIdeal.Facts] [hReferenceIdeal : Cert.ReferenceIdeal.Facts]
  [hPre_finite_inputs : Cert.Pre_finite_inputs.Facts]

theorem algebraic : Cert.algebraic_KernelIdeal_ReferenceIdeal := by
  intro m g m' g' hpre hagree
  refine ⟨fun c => (Cert.KernelIdeal.Hand.dats m 0 c).arrAt 15 Cert.KernelIdeal.cfg0.N, Cert.KernelIdeal.Hand.run_value m g, ?_⟩
  refine (θ_run Cert.ReferenceIdeal.defs _ _).mono (fun r h c => ⟨(h c).1.trans ?_, (h c).2⟩)
    (Cert.ReferenceIdeal.RefRun.run (F := Ideal) m' g')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  have hp := Cert.Pre_finite_inputs.Decode.decode _ _ _ _ _ _ _ _ _ _ _ _ _ _ _ _ _ (hpre c)
  funext i
  obtain ⟨r, q, rfl⟩ : ∃ (r : Fin 16384) (q : Fin 2), i = ix2 r q := ⟨i 0, i 1, eq_ix2 i⟩
  refine (Cert.ReferenceIdeal.RefRead.refOut_apply _ _ _ _ _ _ _ _ _ _ _ _ _ _ _ _ _ hp.i1 hp.i2 hp.i3 r q).trans ?_
  refine Eq.trans ?_ (Cert.KernelIdeal.HandValue.kernel_value m c r q).symm
  have hz : ∀ j : Fin 256,
      kerZ (sRow (packed (Cert.KernelIdeal.HandValue.CON m c) (Cert.KernelIdeal.HandValue.C2 m c) (Cert.KernelIdeal.HandValue.C3 m c) (Cert.KernelIdeal.HandValue.C4 m c) r) thrLit)
          (wfoldS (Cert.KernelIdeal.HandValue.E20 m c) (Cert.KernelIdeal.HandValue.E21 m c) (Cert.KernelIdeal.HandValue.E22 m c) (Cert.KernelIdeal.HandValue.E30 m c) (Cert.KernelIdeal.HandValue.E31 m c) (Cert.KernelIdeal.HandValue.E32 m c) (Cert.KernelIdeal.HandValue.E4 m c) (Cert.KernelIdeal.HandValue.W1 m c))
          (baseS (Cert.KernelIdeal.HandValue.E20 m c) (Cert.KernelIdeal.HandValue.E21 m c) (Cert.KernelIdeal.HandValue.E22 m c) (Cert.KernelIdeal.HandValue.E30 m c) (Cert.KernelIdeal.HandValue.E31 m c) (Cert.KernelIdeal.HandValue.E32 m c) (Cert.KernelIdeal.HandValue.E4 m c) (Cert.KernelIdeal.HandValue.W1 m c) (Cert.KernelIdeal.HandValue.B1 m c)) j
        = refZ (refRow (Cert.KernelIdeal.HandValue.CON m c r) (Cert.KernelIdeal.HandValue.E20 m c) (Cert.KernelIdeal.HandValue.E21 m c) (Cert.KernelIdeal.HandValue.E22 m c) (Cert.KernelIdeal.HandValue.E30 m c) (Cert.KernelIdeal.HandValue.E31 m c) (Cert.KernelIdeal.HandValue.E32 m c) (Cert.KernelIdeal.HandValue.E4 m c)
            (rowSel 2 (by decide) (Cert.KernelIdeal.HandValue.C2 m c r 0)) (rowSel 2 (by decide) (Cert.KernelIdeal.HandValue.C2 m c r 1)) (rowSel 2 (by decide) (Cert.KernelIdeal.HandValue.C2 m c r 2))
            (rowSel 3 (by decide) (Cert.KernelIdeal.HandValue.C3 m c r 0)) (rowSel 3 (by decide) (Cert.KernelIdeal.HandValue.C3 m c r 1)) (rowSel 3 (by decide) (Cert.KernelIdeal.HandValue.C3 m c r 2))
            (rowSel 4 (by decide) (Cert.KernelIdeal.HandValue.C4 m c r 0))) (Cert.KernelIdeal.HandValue.W1 m c) (Cert.KernelIdeal.HandValue.B1 m c) j :=
    fun j => kerZ_eq_refZ (Cert.KernelIdeal.HandValue.CON m c) (Cert.KernelIdeal.HandValue.C2 m c) (Cert.KernelIdeal.HandValue.C3 m c) (Cert.KernelIdeal.HandValue.C4 m c)
      (Cert.KernelIdeal.HandValue.E20 m c) (Cert.KernelIdeal.HandValue.E21 m c) (Cert.KernelIdeal.HandValue.E22 m c) (Cert.KernelIdeal.HandValue.E30 m c) (Cert.KernelIdeal.HandValue.E31 m c) (Cert.KernelIdeal.HandValue.E32 m c) (Cert.KernelIdeal.HandValue.E4 m c) (Cert.KernelIdeal.HandValue.W1 m c) (Cert.KernelIdeal.HandValue.B1 m c)
      (fun a k => hp.r4 (ix2 a k)) (fun a k => hp.r5 (ix2 a k)) (fun a k => hp.r6 (ix2 a k))
      (fun a k => hp.r7 (ix2 a k)) (fun a k => hp.r8 (ix2 a k)) (fun a k => hp.r9 (ix2 a k))
      (fun a k => hp.r10 (ix2 a k)) (fun k j => hp.r11 (ix2 k j))
      (fun r k => hp.i1 (ix2 r k)) (fun r k => hp.i2 (ix2 r k)) (fun r k => hp.i3 (ix2 r k)) r j
  exact congrArg (fun z => tail z (Cert.KernelIdeal.HandValue.W2 m c) (Cert.KernelIdeal.HandValue.B2 m c) (Cert.KernelIdeal.HandValue.W3 m c) (Cert.KernelIdeal.HandValue.B3 m c) q) (funext fun j => (hz j).symm)

end Cert.Proof.Claims

end
-- ==== Proof.lean ====
/-
  The certificate of the fused embedding-lookup and three-layer perceptron kernel against its jnp reference.

  Five claims. The three frames: each program runs to the end, faults nowhere and leaves its arguments unchanged —
  for the two kernel programs by the launch of the one grid of four blocks over a body that loads its fifteen input
  blocks whole and stores its output block whole, for the reference by its run as a straight line of host
  operations. Nothing was rewritten between the kernel and its idealization. And at the exact extended reals, under
  the precondition (finite float arguments, every index word inside its table), the kernel's thermometer form of the
  table lookups is the reference's lookup: both results are the same three layers of the same first-layer
  pre-activation, row by row.
-/
import proofs.«154124_g78426102825261_cont_9to1_m_135_12_alg».proof.Defs
import proofs.«154124_g78426102825261_cont_9to1_m_135_12_alg».proof.Proof.Gen.Kernel
import proofs.«154124_g78426102825261_cont_9to1_m_135_12_alg».proof.Proof.Gen.KernelIdeal
import proofs.«154124_g78426102825261_cont_9to1_m_135_12_alg».proof.Proof.Gen.ReferenceIdeal
import proofs.«154124_g78426102825261_cont_9to1_m_135_12_alg».proof.Proof.Gen.Pre_finite_inputs
import proofs.«154124_g78426102825261_cont_9to1_m_135_12_alg».proof.Proof.KFrameClaims
import proofs.«154124_g78426102825261_cont_9to1_m_135_12_alg».proof.Proof.RefFrame
import proofs.«154124_g78426102825261_cont_9to1_m_135_12_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.KClaims.frame_p, Cert.Proof.KClaims.frame_pi, Cert.Proof.RefClaims.frame_ri, trivial, Cert.Proof.Claims.algebraic⟩

end Cert.Proof

end
